-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x32768 : Shape := ⟨2, ![512, 32768]⟩
abbrev S128x32768 : Shape := ⟨2, ![128, 32768]⟩
abbrev S_ : Shape := ⟨0, ![]⟩

class Facts : Prop where
  bcast_S_S512x32768 : S_.BroadcastsInDim S512x32768 (![] : Fin 0 → Fin S512x32768.rank)
  reducesTo_S512x32768_S_d0_1 : S512x32768.ReducesTo [0, 1] S_
  h_S_ : 0 < S_.numel
  bcast_S_S128x32768 : S_.BroadcastsInDim S128x32768 (![] : Fin 0 → Fin S128x32768.rank)
  reducesTo_S128x32768_S_d0_1 : S128x32768.ReducesTo [0, 1] S_

variable [Facts]

def fn {F : FTy → Type} [FloatOps F] (main_arg0 : FVec F S512x32768 .f32) (main_arg1 : FVec F S128x32768 .f32) : IVec S_ 1 :=
  let main_v0 : FVec F S512x32768 .f32 := Host.absf main_arg0
  let main_cst : FVec F S_ .f32 := constant S_ .f32 0x7F800000#32
  let main_v1 : FVec F S512x32768 .f32 := broadcastInDim S512x32768 ![] bcast_S_S512x32768 main_cst
  let main_v2 : IVec S512x32768 1 := cmpf .olt main_v0 main_v1
  let main_c : IVec S_ 1 := constantI S_ 1 1#1
  let main_v3 : IVec S_ 1 := (fun x v => Host.reduce IntOp.andi x v reducesTo_S512x32768_S_d0_1 h_S_) main_v2 main_c
  let main_v4 : FVec F S128x32768 .f32 := Host.absf main_arg1
  let main_cst_0 : FVec F S_ .f32 := constant S_ .f32 0x7F800000#32
  let main_v5 : FVec F S128x32768 .f32 := broadcastInDim S128x32768 ![] bcast_S_S128x32768 main_cst_0
  let main_v6 : IVec S128x32768 1 := cmpf .olt main_v4 main_v5
  let main_c_1 : IVec S_ 1 := constantI S_ 1 1#1
  let main_v7 : IVec S_ 1 := (fun x v => Host.reduce IntOp.andi x v reducesTo_S128x32768_S_d0_1 h_S_) main_v6 main_c_1
  let main_v8 : IVec S_ 1 := andi main_v3 main_v7
  main_v8
-- ==== Kernel.lean ====
abbrev S512x32768 : Shape := ⟨2, ![512, 32768]⟩
abbrev S128x32768 : Shape := ⟨2, ![128, 32768]⟩
abbrev S2x128x512 : Shape := ⟨3, ![2, 128, 512]⟩
abbrev S2x1x128 : Shape := ⟨3, ![2, 1, 128]⟩
abbrev S2x1x512 : Shape := ⟨3, ![2, 1, 512]⟩
abbrev S128x4096 : Shape := ⟨2, ![128, 4096]⟩
abbrev S512x4096 : Shape := ⟨2, ![512, 4096]⟩
abbrev S1x128x512 : Shape := ⟨3, ![1, 128, 512]⟩
abbrev S1x1x128 : Shape := ⟨3, ![1, 1, 128]⟩
abbrev S1x1x512 : Shape := ⟨3, ![1, 1, 512]⟩
abbrev S128x512 : Shape := ⟨2, ![128, 512]⟩
abbrev S1x128 : Shape := ⟨2, ![1, 128]⟩
abbrev S1x512 : Shape := ⟨2, ![1, 512]⟩
abbrev S128 : Shape := ⟨1, ![128]⟩
abbrev S128x1 : Shape := ⟨2, ![128, 1]⟩
abbrev S512 : Shape := ⟨1, ![512]⟩
abbrev S512x1 : Shape := ⟨2, ![512, 1]⟩
abbrev S_ : Shape := ⟨0, ![]⟩

abbrev nBuf : Space → Nat
  | .hbm => 31
  | .vmem => 18
  | .smem => 0
  | _ => 0

abbrev bufTy : (tb : Table) → Fin (tcTables nBuf tb) → BufTy
  | .hbm, ⟨0, _⟩ => ⟨S512x32768, .f32⟩
  | .hbm, ⟨1, _⟩ => ⟨S128x32768, .f32⟩
  | .hbm, ⟨2, _⟩ => ⟨S2x128x512, .f32⟩
  | .hbm, ⟨3, _⟩ => ⟨S2x1x128, .f32⟩
  | .hbm, ⟨4, _⟩ => ⟨S2x1x512, .f32⟩
  | .hbm, ⟨5, _⟩ => ⟨S1x128x512, .f32⟩
  | .hbm, ⟨6, _⟩ => ⟨S128x512, .f32⟩
  | .hbm, ⟨7, _⟩ => ⟨S1x128x512, .f32⟩
  | .hbm, ⟨8, _⟩ => ⟨S128x512, .f32⟩
  | .hbm, ⟨9, _⟩ => ⟨S128x512, .f32⟩
  | .hbm, ⟨10, _⟩ => ⟨S1x1x128, .f32⟩
  | .hbm, ⟨11, _⟩ => ⟨S128, .f32⟩
  | .hbm, ⟨12, _⟩ => ⟨S1x1x128, .f32⟩
  | .hbm, ⟨13, _⟩ => ⟨S128, .f32⟩
  | .hbm, ⟨14, _⟩ => ⟨S128, .f32⟩
  | .hbm, ⟨15, _⟩ => ⟨S1x1x512, .f32⟩
  | .hbm, ⟨16, _⟩ => ⟨S512, .f32⟩
  | .hbm, ⟨17, _⟩ => ⟨S1x1x512, .f32⟩
  | .hbm, ⟨18, _⟩ => ⟨S512, .f32⟩
  | .hbm, ⟨19, _⟩ => ⟨S512, .f32⟩
  | .hbm, ⟨20, _⟩ => ⟨S_, .f32⟩
  | .hbm, ⟨21, _⟩ => ⟨S128, .f32⟩
  | .hbm, ⟨22, _⟩ => ⟨S128, .f32⟩
  | .hbm, ⟨23, _⟩ => ⟨S128x1, .f32⟩
  | .hbm, ⟨24, _⟩ => ⟨S1x512, .f32⟩
  | .hbm, ⟨25, _⟩ => ⟨S128x512, .f32⟩
  | .hbm, ⟨26, _⟩ => ⟨S128x512, .f32⟩
  | .hbm, ⟨27, _⟩ => ⟨S128x512, .f32⟩
  | .hbm, ⟨28, _⟩ => ⟨S128x512, .f32⟩
  | .hbm, ⟨29, _⟩ => ⟨S128x512, .bf16⟩
  | .hbm, ⟨30, _⟩ => ⟨S128x32768, .f32⟩
  | .local _ .vmem, ⟨0, _⟩ => ⟨S128x4096, .f32⟩
  | .local _ .vmem, ⟨1, _⟩ => ⟨S128x4096, .f32⟩
  | .local _ .vmem, ⟨2, _⟩ => ⟨S512x4096, .f32⟩
  | .local _ .vmem, ⟨3, _⟩ => ⟨S512x4096, .f32⟩
  | .local _ .vmem, ⟨4, _⟩ => ⟨S1x128x512, .f32⟩
  | .local _ .vmem, ⟨5, _⟩ => ⟨S1x128x512, .f32⟩
  | .local _ .vmem, ⟨6, _⟩ => ⟨S1x1x128, .f32⟩
  | .local _ .vmem, ⟨7, _⟩ => ⟨S1x1x128, .f32⟩
  | .local _ .vmem, ⟨8, _⟩ => ⟨S1x1x512, .f32⟩
  | .local _ .vmem, ⟨9, _⟩ => ⟨S1x1x512, .f32⟩
  | .local _ .vmem, ⟨10, _⟩ => ⟨S128x512, .f32⟩
  | .local _ .vmem, ⟨11, _⟩ => ⟨S1x128, .f32⟩
  | .local _ .vmem, ⟨12, _⟩ => ⟨S1x512, .f32⟩
  | .local _ .vmem, ⟨13, _⟩ => ⟨S128x512, .bf16⟩
  | .local _ .vmem, ⟨14, _⟩ => ⟨S512x4096, .f32⟩
  | .local _ .vmem, ⟨15, _⟩ => ⟨S512x4096, .f32⟩
  | .local _ .vmem, ⟨16, _⟩ => ⟨S128x4096, .f32⟩
  | .local _ .vmem, ⟨17, _⟩ => ⟨S128x4096, .f32⟩
  | _, _ => ⟨S512x32768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_cst : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc1_stg0_0 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem1_0 : DmaSem sig := 11
abbrev cc1_sem1_1 : DmaSem sig := 12
abbrev cc1_sem2_0 : DmaSem sig := 13
abbrev cc1_sem2_1 : DmaSem sig := 14

abbrev nD : Nat := 1
abbrev τ : Topo := Topo.v7x

variable {F : FTy → Type} [FloatOps F]

abbrev grid0 : Pipeline.Grid := ⟨2, ![2, 4], ![false, false]⟩

def k0_cond2 (i : grid0.Coords) : BitVec 1 :=
  let arg1 : BitVec 32 := BitVec.ofNat 32 (i 1).val
  let c3_i32 : BitVec 32 := 3#32
  let v29 : BitVec 1 := Scalar.cmpi .eq arg1 c3_i32
  let v30 : BitVec 32 := Scalar.extui v29
  let c0_i32_18 : BitVec 32 := 0#32
  let v31 : BitVec 1 := Scalar.cmpi .ne v30 c0_i32_18
  v31

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![c0_i32.toNat, v1.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![c0_i32.toNat, v1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 1 → Memref sig .tc .vmem S128x512 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S512x4096 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S128x4096 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  inb_S128x512_S128x512_0_0 : ∀ a, (![0, 0] : Fin 2 → Nat) a + S128x512.size a ≤ S128x512.size a
  h_S128x512 : 0 < S128x512.numel
  shapeCasts_S128x512_S128x512 : S128x512.ShapeCasts S128x512
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S1x512_S1x512_0_0 : ∀ a, (![0, 0] : Fin 2 → Nat) a + S1x512.size a ≤ S1x512.size a
  h_S1x512 : 0 < S1x512.numel
  shapeCasts_S1x512_S1x512 : S1x512.ShapeCasts S1x512
  inb_S128x4096_S128x4096_0_0 : ∀ a, (![0, 0] : Fin 2 → Nat) a + S128x4096.size a ≤ S128x4096.size a
  h_S128x4096 : 0 < S128x4096.numel
  inb_S512x4096_S512x4096_0_0 : ∀ a, (![0, 0] : Fin 2 → Nat) a + S512x4096.size a ≤ S512x4096.size a
  h_S512x4096 : 0 < S512x4096.numel
  reduces_S128x4096_S128 : S128x4096.Reduces [1] S128
  shapeCasts_S128_S128x1 : S128.ShapeCasts S128x1
  transposes_S128x1_p1_0_S1x128 : S128x1.Transposes [1, 0] S1x128
  reduces_S512x4096_S512 : S512x4096.Reduces [1] S512
  shapeCasts_S512_S512x1 : S512.ShapeCasts S512x1
  transposes_S512x1_p1_0_S1x512 : S512x1.Transposes [1, 0] S1x512
  bitsLt_bf16_f32 : FTy.bits .bf16 < FTy.bits .f32
  inb_S1x128x512_S1x128x512_0_0_0 : ∀ a, (![0, 0, 0] : Fin 3 → Nat) a + S1x128x512.size a ≤ S1x128x512.size a
  h_S1x128x512 : 0 < S1x128x512.numel
  shapeCasts_S1x128x512_S128x512 : S1x128x512.ShapeCasts S128x512
  shapeCasts_S128x512_S1x128x512 : S128x512.ShapeCasts S1x128x512
  inb_S1x1x128_S1x1x128_0_0_0 : ∀ a, (![0, 0, 0] : Fin 3 → Nat) a + S1x1x128.size a ≤ S1x1x128.size a
  h_S1x1x128 : 0 < S1x1x128.numel
  shapeCasts_S1x1x128_S1x128 : S1x1x128.ShapeCasts S1x128
  shapeCasts_S1x128_S1x1x128 : S1x128.ShapeCasts S1x1x128
  inb_S1x1x512_S1x1x512_0_0_0 : ∀ a, (![0, 0, 0] : Fin 3 → Nat) a + S1x1x512.size a ≤ S1x1x512.size a
  h_S1x1x512 : 0 < S1x1x512.numel
  shapeCasts_S1x1x512_S1x512 : S1x1x512.ShapeCasts S1x512
  shapeCasts_S1x512_S1x1x512 : S1x512.ShapeCasts S1x1x512
  slices_S2x128x512_S1x128x512_0_0_0 : S2x128x512.Slices ![0, 0, 0] S1x128x512
  slices_S2x128x512_S1x128x512_1_0_0 : S2x128x512.Slices ![1, 0, 0] S1x128x512
  slices_S2x1x128_S1x1x128_0_0_0 : S2x1x128.Slices ![0, 0, 0] S1x1x128
  shapeCasts_S1x1x128_S128 : S1x1x128.ShapeCasts S128
  slices_S2x1x128_S1x1x128_1_0_0 : S2x1x128.Slices ![1, 0, 0] S1x1x128
  slices_S2x1x512_S1x1x512_0_0_0 : S2x1x512.Slices ![0, 0, 0] S1x1x512
  shapeCasts_S1x1x512_S512 : S1x1x512.ShapeCasts S512
  slices_S2x1x512_S1x1x512_1_0_0 : S2x1x512.Slices ![1, 0, 0] S1x1x512
  bcast_S_S128 : S_.BroadcastsInDim S128 (![] : Fin 0 → Fin S128.rank)
  bcast_S128_S128x1_0 : S128.BroadcastsInDim S128x1 (![0] : Fin 1 → Fin S128x1.rank)
  bcast_S512_S1x512_1 : S512.BroadcastsInDim S1x512 (![1] : Fin 1 → Fin S1x512.rank)
  bcast_S128x1_S128x512_0_1 : S128x1.BroadcastsInDim S128x512 (![0, 1] : Fin 2 → Fin S128x512.rank)
  bcast_S1x512_S128x512_0_1 : S1x512.BroadcastsInDim S128x512 (![0, 1] : Fin 2 → Fin S128x512.rank)
  dot_S128x4096_S512x4096_S128x512_1_1_0_0_n_n_wf : DotDims.WF S128x4096 S512x4096 S128x512 [1] [1] [0] [0] [] []
  dot_S128x512_S512x4096_S128x4096_1_0_0_1_n_n_wf : DotDims.WF S128x512 S512x4096 S128x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x4096.size a ≤ S128x32768.size a
  hwx0_0 : ∀ i : grid0.Coords, EltTy.bits .f32 = 32 ∨ (Rect.block (s := S128x32768) S128x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x4096.size a ≤ S512x32768.size a
  hwx0_1 : ∀ i : grid0.Coords, EltTy.bits .f32 = 32 ∨ (Rect.block (s := S512x32768) S512x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x128x512.size a ≤ S2x128x512.size a
  hwx0_2 : ∀ i : grid0.Coords, EltTy.bits .f32 = 32 ∨ (Rect.block (s := S2x128x512) S1x128x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x128.size a ≤ S2x1x128.size a
  hwx0_3 : ∀ i : grid0.Coords, EltTy.bits .f32 = 32 ∨ (Rect.block (s := S2x1x128) S1x1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x512.size a ≤ S2x1x512.size a
  hwx0_4 : ∀ i : grid0.Coords, EltTy.bits .f32 = 32 ∨ (Rect.block (s := S2x1x512) S1x1x512.size (cc0_transform_4 i) (hinb0_4 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S128x512.size a ≤ S128x512.size a
  hwx1_0 : ∀ i : grid1.Coords, EltTy.bits .bf16 = 32 ∨ (Rect.block (s := S128x512) S128x512.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x4096.size a ≤ S512x32768.size a
  hwx1_1 : ∀ i : grid1.Coords, EltTy.bits .f32 = 32 ∨ (Rect.block (s := S512x32768) S512x4096.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S128x4096.size a ≤ S128x32768.size a
  hwx1_2 : ∀ i : grid1.Coords, EltTy.bits .f32 = 32 ∨ (Rect.block (s := S128x32768) S128x4096.size (cc1_transform_2 i) (hinb1_2 i)).WholeWords (EltTy.packing .f32)

variable [Facts₀]

def dot_S128x4096_S512x4096_S128x512_1_1_0_0_n_n : DotDims S128x4096 S512x4096 S128x512 where
  lhsContracting := [1]
  rhsContracting := [1]
  lhsNonContracting := [0]
  rhsNonContracting := [0]
  lhsBatch := []
  rhsBatch := []
  wf := dot_S128x4096_S512x4096_S128x512_1_1_0_0_n_n_wf
def dot_S128x512_S512x4096_S128x4096_1_0_0_1_n_n : DotDims S128x512 S512x4096 S128x4096 where
  lhsContracting := [1]
  rhsContracting := [0]
  lhsNonContracting := [0]
  rhsNonContracting := [1]
  lhsBatch := []
  rhsBatch := []
  wf := dot_S128x512_S512x4096_S128x4096_1_0_0_1_n_n_wf

abbrev win0_0 : Pipeline.Window sig grid0 :=
  Pipeline.Window.ofSpec (Memref.whole main_arg1) S128x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S512x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1x128x512.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x1x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_2) S1x1x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun i => !(k0_cond2 i == 1#1) | 3 => fun i => !(k0_cond2 i == 1#1) | 4 => fun i => !(k0_cond2 i == 1#1) | ⟨_ + 5, h⟩ => absurd h (Nat.not_lt.2 (Nat.le_add_left _ _))

abbrev win1_0 : Pipeline.Window sig grid1 :=
  Pipeline.Window.ofSpec (Memref.whole main_v24) S128x512.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S512x4096.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v25) S128x4096.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S512x32768 : Shape := ⟨2, ![512, 32768]⟩
abbrev S128x32768 : Shape := ⟨2, ![128, 32768]⟩
abbrev S_ : Shape := ⟨0, ![]⟩
abbrev S128 : Shape := ⟨1, ![128]⟩
abbrev S128x1 : Shape := ⟨2, ![128, 1]⟩
abbrev S128x512 : Shape := ⟨2, ![128, 512]⟩

abbrev nBuf : Space → Nat
  | .hbm => 12
  | .vmem => 0
  | .smem => 0
  | _ => 0

abbrev bufTy : (tb : Table) → Fin (tcTables nBuf tb) → BufTy
  | .hbm, ⟨0, _⟩ => ⟨S512x32768, .f32⟩
  | .hbm, ⟨1, _⟩ => ⟨S128x32768, .f32⟩
  | .hbm, ⟨2, _⟩ => ⟨S_, .f32⟩
  | .hbm, ⟨3, _⟩ => ⟨S128, .f32⟩
  | .hbm, ⟨4, _⟩ => ⟨S128x1, .f32⟩
  | .hbm, ⟨5, _⟩ => ⟨S_, .f32⟩
  | .hbm, ⟨6, _⟩ => ⟨S128x1, .f32⟩
  | .hbm, ⟨7, _⟩ => ⟨S128x1, .f32⟩
  | .hbm, ⟨8, _⟩ => ⟨S128x32768, .f32⟩
  | .hbm, ⟨9, _⟩ => ⟨S128x32768, .f32⟩
  | .hbm, ⟨10, _⟩ => ⟨S128x512, .f32⟩
  | .hbm, ⟨11, _⟩ => ⟨S128x32768, .f32⟩
  | _, _ => ⟨S512x32768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]

class Facts₀ : Prop where
  reducesTo_S128x32768_S128_d1 : S128x32768.ReducesTo [1] S128
  h_S_ : 0 < S_.numel
  bcast_S128_S128x1_0 : S128.BroadcastsInDim S128x1 (![0] : Fin 1 → Fin S128x1.rank)
  bcast_S_S128x1 : S_.BroadcastsInDim S128x1 (![] : Fin 0 → Fin S128x1.rank)
  bcast_S128x1_S128x32768_0_1 : S128x1.BroadcastsInDim S128x32768 (![0, 1] : Fin 2 → Fin S128x32768.rank)
  dot_S128x32768_S512x32768_S128x512_1_1_0_0_n_n_wf : DotDims.WF S128x32768 S512x32768 S128x512 [1] [1] [0] [0] [] []
  dot_S128x512_S512x32768_S128x32768_1_0_0_1_n_n_wf : DotDims.WF S128x512 S512x32768 S128x32768 [1] [0] [0] [1] [] []

variable [Facts₀]

def dot_S128x32768_S512x32768_S128x512_1_1_0_0_n_n : DotDims S128x32768 S512x32768 S128x512 where
  lhsContracting := [1]
  rhsContracting := [1]
  lhsNonContracting := [0]
  rhsNonContracting := [0]
  lhsBatch := []
  rhsBatch := []
  wf := dot_S128x32768_S512x32768_S128x512_1_1_0_0_n_n_wf
def dot_S128x512_S512x32768_S128x32768_1_0_0_1_n_n : DotDims S128x512 S512x32768 S128x32768 where
  lhsContracting := [1]
  rhsContracting := [0]
  lhsNonContracting := [0]
  rhsNonContracting := [1]
  lhsBatch := []
  rhsBatch := []
  wf := dot_S128x512_S512x32768_S128x32768_1_0_0_1_n_n_wf

class Facts : Prop extends Facts₀ where

variable [Facts]
-- ==== Proof.BodyRuns.lean ====
import proofs.«169214_j4466765988635_2_alg».proof.Proof.Gen.KernelIdeal.Skeleton
import proofs.«169214_j4466765988635_2_alg».proof.Proof.Gen.KernelIdeal.Launch
import proofs.«169214_j4466765988635_2_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The zero offsets of a rank-2 rectangle, as the constant function. -/
theorem zeros2 : (![0, 0] : Fin 2 → ℕ) = fun _ => 0 := by
  funext a; fin_cases a <;> rfl

/-- The zero offsets of a rank-3 rectangle, as the constant function. -/
theorem zeros3 : (![0, 0, 0] : Fin 3 → ℕ) = fun _ => 0 := by
  funext a; fin_cases a <;> rfl

/-- After one store through the whole-buffer rectangle (over any contents), the buffer reads the payload. -/
theorem read_store_whole {S : Shape} {e : EltTy} {Val : EltTy → Type} [∀ e, Nonempty (Val e)] {sig' : RefSig} {κ : Kind} {sp : Space}
    (v : View sig' κ sp S e) (f : v.ty.Contents Val) {off : Fin S.rank → ℕ} (h : off = fun _ => 0)
    (inb : ∀ a, off a + S.size a ≤ S.size a) (w : S.Idx → Val e) :
    v.read Val (v.writes Val f [(⟨Rect.unit off S.size inb, w⟩ : View.Piece Val S e)]) = w := by
  rw [View.read_writes_eq_canon v f _ (fun y => ⟨_, List.mem_singleton_self _, View.mem_set_unit_zero h inb y⟩),
    View.canon_unit_zero h inb w]

/-- A load through the whole-buffer rectangle reads the buffer's contents. -/
theorem readAt_whole {S : Shape} {e : EltTy} {Val : EltTy → Type} {sig' : RefSig} {κ : Kind} {sp : Space}
    (v : View sig' κ sp S e) (f : v.ty.Contents Val) {off : Fin S.rank → ℕ} (h : off = fun _ => 0)
    (inb : ∀ a, off a + S.size a ≤ S.size a) :
    v.readAt Val (Rect.unit off S.size inb).toLoadRect f = v.read Val f :=
  (View.readAt_eq_ld v f _).trans (View.ld_unit_zero h inb _)

/-- After a last store through the whole-buffer rectangle, whatever the earlier stores and contents, the buffer reads
    the last payload. -/
theorem read_store_whole_cons {S : Shape} {e : EltTy} {Val : EltTy → Type} [∀ e, Nonempty (Val e)] {sig' : RefSig} {κ : Kind} {sp : Space}
    (v : View sig' κ sp S e) (f : v.ty.Contents Val) {off : Fin S.rank → ℕ} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon v f _ (fun y => ⟨_, List.mem_cons_self, View.mem_set_unit_zero h inb y⟩),
    View.canon_cons_unit_zero h inb w L]

/-! ## The second call's body -/

set_option maxHeartbeats 1000000 in
/-- The output kernel's body on whole staging memrefs: it reads its two inputs and leaves in the output buffer
    the product of the first with the (truncated) second, the inputs as they were. -/
theorem body1 (c : Dev nD) (E : Set ℕ) (i : grid1.Coords)
    (arg1 : Memref sig .tc .vmem S128x512 .bf16) (harg1 : arg1.IsWhole)
    (arg2 : Memref sig .tc .vmem S512x4096 .f32) (harg2 : arg2.IsWhole)
    (arg3 : Memref sig .tc .vmem S128x4096 .f32) (harg3 : arg3.IsWhole)
    (v0 : Vec F S128x512 .bf16) (v2 : Vec F S512x4096 .f32) (K : PUnit → sProp 𝕄) :
    iprop(owns (c : Thread nD τ) arg1 fullShare v0 ∗ owns (c : Thread nD τ) arg2 fullShare v2
        ∗ (∃ d, owns (c : Thread nD τ) arg3 fullShare d)
        ∗ (iprop(owns (c : Thread nD τ) arg1 fullShare v0 ∗ owns (c : Thread nD τ) arg2 fullShare v2
            ∗ owns (c : Thread nD τ) arg3 fullShare (k1_pay1 v0 v2)) -∗ K ⟨⟩))
      ⊢ wp frame (wpE (defs₀ (F := F)) Variants.none c none) E (cc1_output_matmul_kernel i arg1 harg1 arg2 harg2 arg3 harg3) K := by
  simp only [cc1_output_matmul_kernel_eq_skeleton]; unfold cc1_output_matmul_kernel_skel
  unfold owns
  iintro ⟨⟨%f1, %hf1, H1⟩, ⟨%f2, %hf2, H2⟩, ⟨%d3, %f3, -, H3⟩, Hk⟩
  subst hf1; subst hf2
  sl_exec
  sl_step
  iapply Hk
  isplitl [H1]
  · iexists f1; isplitr; · ipureintro; rfl
    iexact H1
  isplitl [H2]
  · iexists f2; isplitr; · ipureintro; rfl
    iexact H2
  iexists _; isplitr
  swap; · iexact H3
  ipureintro
  refine (read_store_whole (S := S128x4096) _ _ zeros2 _ _).trans ?_
  exact congrArg₂ k1_pay1 (readAt_whole (S := S128x512) _ _ zeros2 _) (readAt_whole (S := S512x4096) _ _ zeros2 _)

/-! ## The first call's branch conditions -/

/-- The condition of the body's first `scf.if` (the accumulators' reset), from the grid coordinates. -/
abbrev cond0_0 (i : grid0.Coords) : Prop :=
  (Scalar.cmpi .ne (Scalar.extui (Scalar.cmpi .eq (BitVec.ofNat 32 (i 1).val) 0#32)) 0#32) = 1#1

/-- The condition of the body's second `scf.if` (the write of the sums to the outputs), from the grid coordinates. -/
abbrev cond0_1 (i : grid0.Coords) : Prop := k0_cond2 i = 1#1

/-- The reset is taken exactly on the first tile of a core. -/
theorem cond0_0_iff (i : grid0.Coords) : cond0_0 i ↔ (i 1).val = 0 := by
  have h : ∀ n : Fin 4, ((Scalar.cmpi .ne (Scalar.extui (Scalar.cmpi .eq (BitVec.ofNat 32 n.val) 0#32)) 0#32) = 1#1) ↔ n.val = 0 := by
    decide +kernel
  exact h (i 1)

/-- The outputs are written exactly on the last tile of a core. -/
theorem cond0_1_iff (i : grid0.Coords) : cond0_1 i ↔ (i 1).val = 3 := by
  have h : ∀ n : Fin 4, ((Scalar.cmpi .ne (Scalar.extui (Scalar.cmpi .eq (BitVec.ofNat 32 n.val) 3#32)) 0#32) = 1#1) ↔ n.val = 3 := by
    decide +kernel
  exact h (i 1)

/-- The tile coordinate of a grid point, and its core coordinate. -/
theorem coord1_val : ∀ t : Fin cfg0.N, ((grid0.coords t) 1).val = t.val % 4 :=
  (by decide +kernel : ∀ t : Fin grid0.N, ((grid0.coords t) 1).val = t.val % 4)
theorem coord0_val : ∀ t : Fin cfg0.N, ((grid0.coords t) 0).val = t.val / 4 :=
  (by decide +kernel : ∀ t : Fin grid0.N, ((grid0.coords t) 0).val = t.val / 4)

/-- The three payloads of the running sums respect equality of their arguments. -/
theorem pay9_congr {a a' : Vec F S128x4096 .f32} {b b' : Vec F S512x4096 .f32} {s s' : Vec F S128x512 .f32}
    (ha : a = a') (hb : b = b') (hs : s = s') : k0_pay9 a b s = k0_pay9 a' b' s' := by
  subst ha; subst hb; subst hs; rfl

theorem pay7_congr {a a' : Vec F S128x4096 .f32} {s s' : Vec F S1x128 .f32}
    (ha : a = a') (hs : s = s') : k0_pay7 a s = k0_pay7 a' s' := by
  subst ha; subst hs; rfl

theorem pay8_congr {b b' : Vec F S512x4096 .f32} {s s' : Vec F S1x512 .f32}
    (hb : b = b') (hs : s = s') : k0_pay8 b s = k0_pay8 b' s' := by
  subst hb; subst hs; rfl

/-! ## The first call's body, by case -/

set_option maxHeartbeats 1000000 in
/-- On the first tile of a core the body zeroes the three scratch accumulators, whatever they held, and adds the
    tile's contributions: the scratch ends at the payloads over the zero payloads; the staging buffers are untouched. -/
theorem body0_first_of (c : Dev nD) (E : Set ℕ) (i : grid0.Coords)
    (arg2 : Memref sig .tc .vmem S128x4096 .f32) (harg2 : arg2.IsWhole)
    (arg3 : Memref sig .tc .vmem S512x4096 .f32) (harg3 : arg3.IsWhole)
    (arg4 : Memref sig .tc .vmem S1x128x512 .f32) (harg4 : arg4.IsWhole)
    (arg5 : Memref sig .tc .vmem S1x1x128 .f32) (harg5 : arg5.IsWhole)
    (arg6 : Memref sig .tc .vmem S1x1x512 .f32) (harg6 : arg6.IsWhole)
    (arg7 : Memref sig .tc .vmem S128x512 .f32) (harg7 : arg7.IsWhole)
    (arg8 : Memref sig .tc .vmem S1x128 .f32) (harg8 : arg8.IsWhole)
    (arg9 : Memref sig .tc .vmem S1x512 .f32) (harg9 : arg9.IsWhole)
    (hc0 : cond0_0 i) (hc1 : ¬ cond0_1 i)
    (x0 : Vec F S128x4096 .f32) (x1 : Vec F S512x4096 .f32)
    (d4 : Vec F S1x128x512 .f32) (d5 : Vec F S1x1x128 .f32) (d6 : Vec F S1x1x512 .f32) (K : PUnit → sProp 𝕄) :
    iprop(owns (c : Thread nD τ) arg2 fullShare x0 ∗ owns (c : Thread nD τ) arg3 fullShare x1
        ∗ owns (c : Thread nD τ) arg4 fullShare d4 ∗ owns (c : Thread nD τ) arg5 fullShare d5 ∗ owns (c : Thread nD τ) arg6 fullShare d6
        ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg2 fullShare x0 ∗ owns (c : Thread nD τ) arg3 fullShare x1
            ∗ owns (c : Thread nD τ) arg4 fullShare d4 ∗ owns (c : Thread nD τ) arg5 fullShare d5 ∗ owns (c : Thread nD τ) arg6 fullShare d6
            ∗ owns (c : Thread nD τ) arg7 fullShare (k0_pay9 x0 x1 k0_pay4) ∗ owns (c : Thread nD τ) arg8 fullShare (k0_pay7 x0 k0_pay5)
            ∗ owns (c : Thread nD τ) arg9 fullShare (k0_pay8 x1 k0_pay6)) -∗ K ⟨⟩))
      ⊢ wp frame (wpE (defs₀ (F := F)) Variants.none c none) E (cc0_centering_matmul_kernel i arg2 harg2 arg3 harg3 arg4 harg4 arg5 harg5 arg6 harg6 arg7 harg7 arg8 harg8 arg9 harg9) K := by
  simp only [cc0_centering_matmul_kernel_eq_skeleton]; unfold cc0_centering_matmul_kernel_skel
  simp only [k0_part1_eq_skeleton]; unfold k0_part1_skel
  unfold owns
  iintro ⟨⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, Hk⟩
  subst hf2; subst hf3; subst hf4; subst hf5; subst hf6
  sl_exec (disch := first | exact hc0 | exact hc1)
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    unfold body0_first_of.sl.v24 body0_first_of.sl.H7_1
    refine (read_store_whole_cons (S := S128x512) _ _ zeros2 _ _ _).trans ?_
    exact pay9_congr (readAt_whole (S := S128x4096) _ _ zeros2 _) (readAt_whole (S := S512x4096) _ _ zeros2 _)
      (View.readCov_cons_toLoadRect _ _ _ _)
  isplitl [H8]
  · iexists _; isplitr
    swap; · iexact H8
    ipureintro
    unfold body0_first_of.sl.v5 body0_first_of.sl.H8_1
    refine (read_store_whole_cons (S := S1x128) _ _ zeros2 _ _ _).trans ?_
    exact pay7_congr (readAt_whole (S := S128x4096) _ _ zeros2 _) (View.readCov_cons_toLoadRect _ _ _ _)
  iexists _; isplitr
  swap; · iexact H9
  ipureintro
  unfold body0_first_of.sl.v13 body0_first_of.sl.H9_1
  refine (read_store_whole_cons (S := S1x512) _ _ zeros2 _ _ _).trans ?_
  exact pay8_congr (readAt_whole (S := S512x4096) _ _ zeros2 _) (View.readCov_cons_toLoadRect _ _ _ _)

set_option maxHeartbeats 1000000 in
/-- On a tile that is neither the first nor the last of a core the body adds the tile's contributions to the three
    scratch accumulators; the staging buffers are untouched. -/
theorem body0_middle_of (c : Dev nD) (E : Set ℕ) (i : grid0.Coords)
    (arg2 : Memref sig .tc .vmem S128x4096 .f32) (harg2 : arg2.IsWhole)
    (arg3 : Memref sig .tc .vmem S512x4096 .f32) (harg3 : arg3.IsWhole)
    (arg4 : Memref sig .tc .vmem S1x128x512 .f32) (harg4 : arg4.IsWhole)
    (arg5 : Memref sig .tc .vmem S1x1x128 .f32) (harg5 : arg5.IsWhole)
    (arg6 : Memref sig .tc .vmem S1x1x512 .f32) (harg6 : arg6.IsWhole)
    (arg7 : Memref sig .tc .vmem S128x512 .f32) (harg7 : arg7.IsWhole)
    (arg8 : Memref sig .tc .vmem S1x128 .f32) (harg8 : arg8.IsWhole)
    (arg9 : Memref sig .tc .vmem S1x512 .f32) (harg9 : arg9.IsWhole)
    (hc0 : ¬ cond0_0 i) (hc1 : ¬ cond0_1 i)
    (x0 : Vec F S128x4096 .f32) (x1 : Vec F S512x4096 .f32)
    (d4 : Vec F S1x128x512 .f32) (d5 : Vec F S1x1x128 .f32) (d6 : Vec F S1x1x512 .f32)
    (a7 : Vec F S128x512 .f32) (a8 : Vec F S1x128 .f32) (a9 : Vec F S1x512 .f32) (K : PUnit → sProp 𝕄) :
    iprop(owns (c : Thread nD τ) arg2 fullShare x0 ∗ owns (c : Thread nD τ) arg3 fullShare x1
        ∗ owns (c : Thread nD τ) arg4 fullShare d4 ∗ owns (c : Thread nD τ) arg5 fullShare d5 ∗ owns (c : Thread nD τ) arg6 fullShare d6
        ∗ owns (c : Thread nD τ) arg7 fullShare a7 ∗ owns (c : Thread nD τ) arg8 fullShare a8 ∗ owns (c : Thread nD τ) arg9 fullShare a9
        ∗ (iprop(owns (c : Thread nD τ) arg2 fullShare x0 ∗ owns (c : Thread nD τ) arg3 fullShare x1
            ∗ owns (c : Thread nD τ) arg4 fullShare d4 ∗ owns (c : Thread nD τ) arg5 fullShare d5 ∗ owns (c : Thread nD τ) arg6 fullShare d6
            ∗ owns (c : Thread nD τ) arg7 fullShare (k0_pay9 x0 x1 a7) ∗ owns (c : Thread nD τ) arg8 fullShare (k0_pay7 x0 a8)
            ∗ owns (c : Thread nD τ) arg9 fullShare (k0_pay8 x1 a9)) -∗ K ⟨⟩))
      ⊢ wp frame (wpE (defs₀ (F := F)) Variants.none c none) E (cc0_centering_matmul_kernel i arg2 harg2 arg3 harg3 arg4 harg4 arg5 harg5 arg6 harg6 arg7 harg7 arg8 harg8 arg9 harg9) K := by
  simp only [cc0_centering_matmul_kernel_eq_skeleton]; unfold cc0_centering_matmul_kernel_skel
  simp only [k0_part1_eq_skeleton]; unfold k0_part1_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  subst hf2; subst hf3; subst hf4; subst hf5; subst hf6; subst hf7; subst hf8; subst hf9
  sl_exec (disch := first | exact hc0 | exact hc1)
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    refine (read_store_whole (S := S128x512) _ _ zeros2 _ _).trans ?_
    exact pay9_congr (readAt_whole (S := S128x4096) _ _ zeros2 _) (readAt_whole (S := S512x4096) _ _ zeros2 _)
      (readAt_whole (S := S128x512) _ _ zeros2 _)
  isplitl [H8]
  · iexists _; isplitr
    swap; · iexact H8
    ipureintro
    refine (read_store_whole (S := S1x128) _ _ zeros2 _ _).trans ?_
    exact pay7_congr (readAt_whole (S := S128x4096) _ _ zeros2 _) (readAt_whole (S := S1x128) _ _ zeros2 _)
  iexists _; isplitr
  swap; · iexact H9
  ipureintro
  refine (read_store_whole (S := S1x512) _ _ zeros2 _ _).trans ?_
  exact pay8_congr (readAt_whole (S := S512x4096) _ _ zeros2 _) (readAt_whole (S := S1x512) _ _ zeros2 _)

theorem pay1_congr {s s' : Vec F S128x512 .f32} (hs : s = s') : k0_pay1 s = k0_pay1 s' := by subst hs; rfl
theorem pay2_congr {s s' : Vec F S1x128 .f32} (hs : s = s') : k0_pay2 s = k0_pay2 s' := by subst hs; rfl
theorem pay3_congr {s s' : Vec F S1x512 .f32} (hs : s = s') : k0_pay3 s = k0_pay3 s' := by subst hs; rfl

set_option maxHeartbeats 1000000 in
/-- On the last tile of a core the body adds the tile's contributions to the three scratch accumulators and then
    copies each accumulator to its output staging buffer, whatever that held. -/
theorem body0_last_of (c : Dev nD) (E : Set ℕ) (i : grid0.Coords)
    (arg2 : Memref sig .tc .vmem S128x4096 .f32) (harg2 : arg2.IsWhole)
    (arg3 : Memref sig .tc .vmem S512x4096 .f32) (harg3 : arg3.IsWhole)
    (arg4 : Memref sig .tc .vmem S1x128x512 .f32) (harg4 : arg4.IsWhole)
    (arg5 : Memref sig .tc .vmem S1x1x128 .f32) (harg5 : arg5.IsWhole)
    (arg6 : Memref sig .tc .vmem S1x1x512 .f32) (harg6 : arg6.IsWhole)
    (arg7 : Memref sig .tc .vmem S128x512 .f32) (harg7 : arg7.IsWhole)
    (arg8 : Memref sig .tc .vmem S1x128 .f32) (harg8 : arg8.IsWhole)
    (arg9 : Memref sig .tc .vmem S1x512 .f32) (harg9 : arg9.IsWhole)
    (hc0 : ¬ cond0_0 i) (hc1 : cond0_1 i)
    (x0 : Vec F S128x4096 .f32) (x1 : Vec F S512x4096 .f32)
    (a7 : Vec F S128x512 .f32) (a8 : Vec F S1x128 .f32) (a9 : Vec F S1x512 .f32) (K : PUnit → sProp 𝕄) :
    iprop(owns (c : Thread nD τ) arg2 fullShare x0 ∗ owns (c : Thread nD τ) arg3 fullShare x1
        ∗ (∃ d, owns (c : Thread nD τ) arg4 fullShare d) ∗ (∃ d, owns (c : Thread nD τ) arg5 fullShare d) ∗ (∃ d, owns (c : Thread nD τ) arg6 fullShare d)
        ∗ owns (c : Thread nD τ) arg7 fullShare a7 ∗ owns (c : Thread nD τ) arg8 fullShare a8 ∗ owns (c : Thread nD τ) arg9 fullShare a9
        ∗ (iprop(owns (c : Thread nD τ) arg2 fullShare x0 ∗ owns (c : Thread nD τ) arg3 fullShare x1
            ∗ owns (c : Thread nD τ) arg4 fullShare (k0_pay1 (k0_pay9 x0 x1 a7)) ∗ owns (c : Thread nD τ) arg5 fullShare (k0_pay2 (k0_pay7 x0 a8))
            ∗ owns (c : Thread nD τ) arg6 fullShare (k0_pay3 (k0_pay8 x1 a9))
            ∗ owns (c : Thread nD τ) arg7 fullShare (k0_pay9 x0 x1 a7) ∗ owns (c : Thread nD τ) arg8 fullShare (k0_pay7 x0 a8)
            ∗ owns (c : Thread nD τ) arg9 fullShare (k0_pay8 x1 a9)) -∗ K ⟨⟩))
      ⊢ wp frame (wpE (defs₀ (F := F)) Variants.none c none) E (cc0_centering_matmul_kernel i arg2 harg2 arg3 harg3 arg4 harg4 arg5 harg5 arg6 harg6 arg7 harg7 arg8 harg8 arg9 harg9) K := by
  simp only [cc0_centering_matmul_kernel_eq_skeleton]; unfold cc0_centering_matmul_kernel_skel
  simp only [k0_part1_eq_skeleton]; unfold k0_part1_skel
  unfold owns
  iintro ⟨⟨%f2, %hf2, H2⟩, ⟨%f3, %hf3, H3⟩, ⟨%d4, %f4, -, H4⟩, ⟨%d5, %f5, -, H5⟩, ⟨%d6, %f6, -, H6⟩, ⟨%f7, %hf7, H7⟩, ⟨%f8, %hf8, H8⟩, ⟨%f9, %hf9, H9⟩, Hk⟩
  subst hf2; subst hf3; subst hf7; subst hf8; subst hf9
  sl_exec (disch := first | exact hc0 | exact hc1)
  sl_step
  iapply Hk
  isplitl [H2]
  · iexists f2; isplitr; · ipureintro; rfl
    iexact H2
  isplitl [H3]
  · iexists f3; isplitr; · ipureintro; rfl
    iexact H3
  isplitl [H4]
  · iexists _; isplitr
    swap; · iexact H4
    ipureintro
    refine (read_store_whole (S := S1x128x512) _ _ zeros3 _ _).trans ?_
    unfold body0_last_of.sl.v32
    exact pay1_congr ((View.readCov_cons_toLoadRect _ _ _ _).trans
      (pay9_congr (readAt_whole (S := S128x4096) _ _ zeros2 _) (readAt_whole (S := S512x4096) _ _ zeros2 _)
        (readAt_whole (S := S128x512) _ _ zeros2 _)))
  isplitl [H5]
  · iexists _; isplitr
    swap; · iexact H5
    ipureintro
    refine (read_store_whole (S := S1x1x128) _ _ zeros3 _ _).trans ?_
    unfold body0_last_of.sl.v36
    exact pay2_congr ((View.readCov_cons_toLoadRect _ _ _ _).trans
      (pay7_congr (readAt_whole (S := S128x4096) _ _ zeros2 _) (readAt_whole (S := S1x128) _ _ zeros2 _)))
  isplitl [H6]
  · iexists _; isplitr
    swap; · iexact H6
    ipureintro
    refine (read_store_whole (S := S1x1x512) _ _ zeros3 _ _).trans ?_
    unfold body0_last_of.sl.v40
    exact pay3_congr ((View.readCov_cons_toLoadRect _ _ _ _).trans
      (pay8_congr (readAt_whole (S := S512x4096) _ _ zeros2 _) (readAt_whole (S := S1x512) _ _ zeros2 _)))
  isplitl [H7]
  · iexists _; isplitr
    swap; · iexact H7
    ipureintro
    refine (read_store_whole (S := S128x512) _ _ zeros2 _ _).trans ?_
    exact pay9_congr (readAt_whole (S := S128x4096) _ _ zeros2 _) (readAt_whole (S := S512x4096) _ _ zeros2 _)
      (readAt_whole (S := S128x512) _ _ zeros2 _)
  isplitl [H8]
  · iexists _; isplitr
    swap; · iexact H8
    ipureintro
    refine (read_store_whole (S := S1x128) _ _ zeros2 _ _).trans ?_
    exact pay7_congr (readAt_whole (S := S128x4096) _ _ zeros2 _) (readAt_whole (S := S1x128) _ _ zeros2 _)
  iexists _; isplitr
  swap; · iexact H9
  ipureintro
  refine (read_store_whole (S := S1x512) _ _ zeros2 _ _).trans ?_
  exact pay8_congr (readAt_whole (S := S512x4096) _ _ zeros2 _) (readAt_whole (S := S1x512) _ _ zeros2 _)

/-! ## The three cases by the tile coordinate -/

/-- The first tile of a core (`(i 1).val = 0`): the reset is taken, the outputs are not written. -/
theorem body0_first (c : Dev nD) (E : Set ℕ) (i : grid0.Coords) (h : (i 1).val = 0)
    (arg2 : Memref sig .tc .vmem S128x4096 .f32) (harg2 : arg2.IsWhole)
    (arg3 : Memref sig .tc .vmem S512x4096 .f32) (harg3 : arg3.IsWhole)
    (arg4 : Memref sig .tc .vmem S1x128x512 .f32) (harg4 : arg4.IsWhole)
    (arg5 : Memref sig .tc .vmem S1x1x128 .f32) (harg5 : arg5.IsWhole)
    (arg6 : Memref sig .tc .vmem S1x1x512 .f32) (harg6 : arg6.IsWhole)
    (arg7 : Memref sig .tc .vmem S128x512 .f32) (harg7 : arg7.IsWhole)
    (arg8 : Memref sig .tc .vmem S1x128 .f32) (harg8 : arg8.IsWhole)
    (arg9 : Memref sig .tc .vmem S1x512 .f32) (harg9 : arg9.IsWhole)
    (x0 : Vec F S128x4096 .f32) (x1 : Vec F S512x4096 .f32)
    (d4 : Vec F S1x128x512 .f32) (d5 : Vec F S1x1x128 .f32) (d6 : Vec F S1x1x512 .f32) (K : PUnit → sProp 𝕄) :
    iprop(owns (c : Thread nD τ) arg2 fullShare x0 ∗ owns (c : Thread nD τ) arg3 fullShare x1
        ∗ owns (c : Thread nD τ) arg4 fullShare d4 ∗ owns (c : Thread nD τ) arg5 fullShare d5 ∗ owns (c : Thread nD τ) arg6 fullShare d6
        ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg2 fullShare x0 ∗ owns (c : Thread nD τ) arg3 fullShare x1
            ∗ owns (c : Thread nD τ) arg4 fullShare d4 ∗ owns (c : Thread nD τ) arg5 fullShare d5 ∗ owns (c : Thread nD τ) arg6 fullShare d6
            ∗ owns (c : Thread nD τ) arg7 fullShare (k0_pay9 x0 x1 k0_pay4) ∗ owns (c : Thread nD τ) arg8 fullShare (k0_pay7 x0 k0_pay5)
            ∗ owns (c : Thread nD τ) arg9 fullShare (k0_pay8 x1 k0_pay6)) -∗ K ⟨⟩))
      ⊢ wp frame (wpE (defs₀ (F := F)) Variants.none c none) E (cc0_centering_matmul_kernel i arg2 harg2 arg3 harg3 arg4 harg4 arg5 harg5 arg6 harg6 arg7 harg7 arg8 harg8 arg9 harg9) K :=
  body0_first_of c E i arg2 harg2 arg3 harg3 arg4 harg4 arg5 harg5 arg6 harg6 arg7 harg7 arg8 harg8 arg9 harg9
    ((cond0_0_iff i).2 h) (fun hc => absurd (h.symm.trans ((cond0_1_iff i).1 hc)) (by decide)) x0 x1 d4 d5 d6 K

/-- A tile that is neither the first nor the last of a core: no reset, no write of the outputs. -/
theorem body0_middle (c : Dev nD) (E : Set ℕ) (i : grid0.Coords) (h0 : (i 1).val ≠ 0) (h3 : (i 1).val ≠ 3)
    (arg2 : Memref sig .tc .vmem S128x4096 .f32) (harg2 : arg2.IsWhole)
    (arg3 : Memref sig .tc .vmem S512x4096 .f32) (harg3 : arg3.IsWhole)
    (arg4 : Memref sig .tc .vmem S1x128x512 .f32) (harg4 : arg4.IsWhole)
    (arg5 : Memref sig .tc .vmem S1x1x128 .f32) (harg5 : arg5.IsWhole)
    (arg6 : Memref sig .tc .vmem S1x1x512 .f32) (harg6 : arg6.IsWhole)
    (arg7 : Memref sig .tc .vmem S128x512 .f32) (harg7 : arg7.IsWhole)
    (arg8 : Memref sig .tc .vmem S1x128 .f32) (harg8 : arg8.IsWhole)
    (arg9 : Memref sig .tc .vmem S1x512 .f32) (harg9 : arg9.IsWhole)
    (x0 : Vec F S128x4096 .f32) (x1 : Vec F S512x4096 .f32)
    (d4 : Vec F S1x128x512 .f32) (d5 : Vec F S1x1x128 .f32) (d6 : Vec F S1x1x512 .f32)
    (a7 : Vec F S128x512 .f32) (a8 : Vec F S1x128 .f32) (a9 : Vec F S1x512 .f32) (K : PUnit → sProp 𝕄) :
    iprop(owns (c : Thread nD τ) arg2 fullShare x0 ∗ owns (c : Thread nD τ) arg3 fullShare x1
        ∗ owns (c : Thread nD τ) arg4 fullShare d4 ∗ owns (c : Thread nD τ) arg5 fullShare d5 ∗ owns (c : Thread nD τ) arg6 fullShare d6
        ∗ owns (c : Thread nD τ) arg7 fullShare a7 ∗ owns (c : Thread nD τ) arg8 fullShare a8 ∗ owns (c : Thread nD τ) arg9 fullShare a9
        ∗ (iprop(owns (c : Thread nD τ) arg2 fullShare x0 ∗ owns (c : Thread nD τ) arg3 fullShare x1
            ∗ owns (c : Thread nD τ) arg4 fullShare d4 ∗ owns (c : Thread nD τ) arg5 fullShare d5 ∗ owns (c : Thread nD τ) arg6 fullShare d6
            ∗ owns (c : Thread nD τ) arg7 fullShare (k0_pay9 x0 x1 a7) ∗ owns (c : Thread nD τ) arg8 fullShare (k0_pay7 x0 a8)
            ∗ owns (c : Thread nD τ) arg9 fullShare (k0_pay8 x1 a9)) -∗ K ⟨⟩))
      ⊢ wp frame (wpE (defs₀ (F := F)) Variants.none c none) E (cc0_centering_matmul_kernel i arg2 harg2 arg3 harg3 arg4 harg4 arg5 harg5 arg6 harg6 arg7 harg7 arg8 harg8 arg9 harg9) K :=
  body0_middle_of c E i arg2 harg2 arg3 harg3 arg4 harg4 arg5 harg5 arg6 harg6 arg7 harg7 arg8 harg8 arg9 harg9
    (fun hc => h0 ((cond0_0_iff i).1 hc)) (fun hc => h3 ((cond0_1_iff i).1 hc)) x0 x1 d4 d5 d6 a7 a8 a9 K

/-- The last tile of a core (`(i 1).val = 3`): no reset, the three sums are written to the outputs. -/
theorem body0_last (c : Dev nD) (E : Set ℕ) (i : grid0.Coords) (h : (i 1).val = 3)
    (arg2 : Memref sig .tc .vmem S128x4096 .f32) (harg2 : arg2.IsWhole)
    (arg3 : Memref sig .tc .vmem S512x4096 .f32) (harg3 : arg3.IsWhole)
    (arg4 : Memref sig .tc .vmem S1x128x512 .f32) (harg4 : arg4.IsWhole)
    (arg5 : Memref sig .tc .vmem S1x1x128 .f32) (harg5 : arg5.IsWhole)
    (arg6 : Memref sig .tc .vmem S1x1x512 .f32) (harg6 : arg6.IsWhole)
    (arg7 : Memref sig .tc .vmem S128x512 .f32) (harg7 : arg7.IsWhole)
    (arg8 : Memref sig .tc .vmem S1x128 .f32) (harg8 : arg8.IsWhole)
    (arg9 : Memref sig .tc .vmem S1x512 .f32) (harg9 : arg9.IsWhole)
    (x0 : Vec F S128x4096 .f32) (x1 : Vec F S512x4096 .f32)
    (a7 : Vec F S128x512 .f32) (a8 : Vec F S1x128 .f32) (a9 : Vec F S1x512 .f32) (K : PUnit → sProp 𝕄) :
    iprop(owns (c : Thread nD τ) arg2 fullShare x0 ∗ owns (c : Thread nD τ) arg3 fullShare x1
        ∗ (∃ d, owns (c : Thread nD τ) arg4 fullShare d) ∗ (∃ d, owns (c : Thread nD τ) arg5 fullShare d) ∗ (∃ d, owns (c : Thread nD τ) arg6 fullShare d)
        ∗ owns (c : Thread nD τ) arg7 fullShare a7 ∗ owns (c : Thread nD τ) arg8 fullShare a8 ∗ owns (c : Thread nD τ) arg9 fullShare a9
        ∗ (iprop(owns (c : Thread nD τ) arg2 fullShare x0 ∗ owns (c : Thread nD τ) arg3 fullShare x1
            ∗ owns (c : Thread nD τ) arg4 fullShare (k0_pay1 (k0_pay9 x0 x1 a7)) ∗ owns (c : Thread nD τ) arg5 fullShare (k0_pay2 (k0_pay7 x0 a8))
            ∗ owns (c : Thread nD τ) arg6 fullShare (k0_pay3 (k0_pay8 x1 a9))
            ∗ owns (c : Thread nD τ) arg7 fullShare (k0_pay9 x0 x1 a7) ∗ owns (c : Thread nD τ) arg8 fullShare (k0_pay7 x0 a8)
            ∗ owns (c : Thread nD τ) arg9 fullShare (k0_pay8 x1 a9)) -∗ K ⟨⟩))
      ⊢ wp frame (wpE (defs₀ (F := F)) Variants.none c none) E (cc0_centering_matmul_kernel i arg2 harg2 arg3 harg3 arg4 harg4 arg5 harg5 arg6 harg6 arg7 harg7 arg8 harg8 arg9 harg9) K :=
  body0_last_of c E i arg2 harg2 arg3 harg3 arg4 harg4 arg5 harg5 arg6 harg6 arg7 harg7 arg8 harg8 arg9 harg9
    (fun hc => absurd (((cond0_0_iff i).1 hc).symm.trans h) (by decide)) ((cond0_1_iff i).2 h) x0 x1 a7 a8 a9 K

end Cert.KernelIdeal.Hand

end
-- ==== Proof.Region0.lean ====
import proofs.«169214_j4466765988635_2_alg».proof.Proof.BodyRuns
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
/-!
# The first kernel region: three running sums carried over the tiles of a core

The grid of the first kernel has 8 points: point `t` is tile `t % 4` of core `t / 4`. The body adds the tile's
shares to three sums kept in scratch buffers, which it resets to zero at a core's first tile, and stores the
sums to the three outputs at a core's last tile. So what the scratch holds after point `t` is a recursion on
`t` (`accAt`), the invariant between points says the scratch holds it, and an output's staging buffer is
only written — and only written back — at the points with `t % 4 = 3`.
-/

section Region

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, for any proof data whose array is
    `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The running sums -/

/-- The three running sums: the raw products (128 × 512), the row sums of `Ψ` (1 × 128), the row sums of `x` (1 × 512). -/
abbrev Acc (F : FTy → Type) [FloatOps F] : Type := Vec F S128x512 .f32 × Vec F S1x128 .f32 × Vec F S1x512 .f32

/-- One tile's step: each sum grows by the tile's share. -/
def step (x0 : Vec F S128x4096 .f32) (x1 : Vec F S512x4096 .f32) (a : Acc F) : Acc F :=
  (k0_pay9 x0 x1 a.1, k0_pay7 x0 a.2.1, k0_pay8 x1 a.2.2)

/-- The sums a core starts from: zero. -/
def acc0 : Acc F := (k0_pay4, k0_pay5, k0_pay6)

/-- What the scratch holds after the body at point `n`: the step from zero at a core's first tile, from what
    the point before left otherwise. -/
def accAt (c : Dev nD) : (n : ℕ) → n < cfg0.N → Acc F
  | 0, h => step (iblk0 V c 0 ⟨0, h⟩) (iblk0 V c 1 ⟨0, h⟩) acc0
  | n + 1, h => step (iblk0 V c 0 ⟨n + 1, h⟩) (iblk0 V c 1 ⟨n + 1, h⟩)
      (if (n + 1) % 4 = 0 then acc0 else accAt c n (Nat.lt_of_succ_lt h))

theorem accAt_first (c : Dev nD) (t : Fin cfg0.N) (h : t.val % 4 = 0) :
    accAt V c t.val t.isLt = step (iblk0 V c 0 t) (iblk0 V c 1 t) acc0 := by
  obtain ⟨n, hn⟩ := t
  cases n with
  | zero => rfl
  | succ n => exact congrArg (step _ _) (if_pos h)

theorem accAt_next (c : Dev nD) (t : Fin cfg0.N) (h : t.val % 4 ≠ 0) :
    accAt V c t.val t.isLt = step (iblk0 V c 0 t) (iblk0 V c 1 t) (accAt V c (t.val - 1) (Nat.lt_of_le_of_lt (Nat.sub_le _ _) t.isLt)) := by
  obtain ⟨n, hn⟩ := t
  cases n with
  | zero => exact absurd (Nat.zero_mod _) h
  | succ n => exact congrArg (step _ _) (if_neg h)

/-! ## The invariant between points -/

/-- The three scratch accumulators as whole memrefs. -/
abbrev scM7 : Memref sig .tc .vmem S128x512 .f32 := Memref.whole cc0_scratch0
abbrev scM8 : Memref sig .tc .vmem S1x128 .f32 := Memref.whole cc0_scratch1
abbrev scM9 : Memref sig .tc .vmem S1x512 .f32 := Memref.whole cc0_scratch2

/-- The core's other scoped buffers (the second kernel's staging buffers), each at some contents. -/
def Rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f))

/-- The scratch at named sums, beside the other scoped buffers and the generator register. -/
def Held (c : Dev nD) (a : Acc F) : sProp 𝕄 :=
  iprop(owns (c : Thread nD τ) scM7 fullShare a.1 ∗ owns (c : Thread nD τ) scM8 fullShare a.2.1 ∗ owns (c : Thread nD τ) scM9 fullShare a.2.2 ∗ Rest0 c ∗ ∃ r, prngReg c r)

/-- What the launch hands the region opens into the scratch at some contents and the rest. -/
theorem PhiA_open (c : Dev nD) :
    (Pipeline.ΦA spec0 c : sProp 𝕄) ⊢ iprop((∃ d, owns (c : Thread nD τ) scM7 fullShare d) ∗ (∃ d, owns (c : Thread nD τ) scM8 fullShare d) ∗ (∃ d, owns (c : Thread nD τ) scM9 fullShare d) ∗ Rest0 c ∗ ∃ r, prngReg c r) := by
  unfold Pipeline.ΦA Rest0; rw [scopedRest0_eq]; simp only [owns_whole]
  iintro ⟨⟨H7, H8, H9, Ha, Hb, Hc, Hd, He⟩, Hg⟩
  isplitl [H7]; · iexact H7
  isplitl [H8]; · iexact H8
  isplitl [H9]; · iexact H9
  isplitl [Ha Hb Hc Hd He]
  · isplitl [Ha]; · iexact Ha
    isplitl [Hb]; · iexact Hb
    isplitl [Hc]; · iexact Hc
    isplitl [Hd]; · iexact Hd
    iexact He
  iexact Hg

/-- and the scratch at named sums closes back into it, the names forgotten. -/
theorem Held_close (c : Dev nD) (a : Acc F) : Held c a ⊢ (Pipeline.ΦA spec0 c : sProp 𝕄) := by
  unfold Pipeline.ΦA Held Rest0; rw [scopedRest0_eq]; simp only [owns_whole]
  iintro ⟨H7, H8, H9, ⟨Ha, Hb, Hc, Hd, He⟩, Hg⟩
  isplitr [Hg]
  · isplitl [H7]; · iexists _; iexact H7
    isplitl [H8]; · iexists _; iexact H8
    isplitl [H9]; · iexists _; iexact H9
    isplitl [Ha]; · iexact Ha
    isplitl [Hb]; · iexact Hb
    isplitl [Hc]; · iexact Hc
    isplitl [Hd]; · iexact Hd
    iexact He
  iexact Hg

/-- Before point `n`: what the launch hands over at the first point, then the scratch at what the point before left. -/
def PhiS (c : Dev nD) : (n : ℕ) → n ≤ cfg0.N → sProp 𝕄
  | 0, _ => Pipeline.ΦA spec0 c
  | n + 1, hn => Held c (accAt V c n hn)

theorem PhiS_zero (c : Dev nD) (n : ℕ) (h : n ≤ cfg0.N) (hz : n = 0) : PhiS V c n h = Pipeline.ΦA spec0 c := by
  subst hz; rfl
theorem PhiS_succ (c : Dev nD) (n : ℕ) (hn : n < cfg0.N) : PhiS V c (n + 1) hn = Held c (accAt V c n hn) := rfl
theorem PhiS_pos (c : Dev nD) (n : ℕ) (h : n ≤ cfg0.N) (hz : n ≠ 0) :
    PhiS V c n h = Held c (accAt V c (n - 1) (by omega)) := by
  cases n with
  | zero => exact absurd rfl hz
  | succ n => rfl

/-! ## The proof data -/

/-- The proof data of the first kernel on core `c`: the arrays as the region finds them; after the body each
    input's buffer at its block and each output's at the sum it stores (read only at a core's last tile). -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => k0_pay1 (accAt V c t.val t.isLt).1
    | ⟨3, _⟩ => k0_pay2 (accAt V c t.val t.isLt).2.1
    | ⟨4, _⟩ => k0_pay3 (accAt V c t.val t.isLt).2.2
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS_castSucc (c : Dev nD) (t : Fin cfg0.N) :
    (dat0 V c).Φ t.castSucc = PhiS V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = k0_pay1 (accAt V c t.val t.isLt).1 := by dsimp only [dat0]
theorem after0_3 (c : Dev nD) (t : Fin cfg0.N) : (dat0 V c).after 3 t = k0_pay2 (accAt V c t.val t.isLt).2.1 := by dsimp only [dat0]
theorem after0_4 (c : Dev nD) (t : Fin cfg0.N) : (dat0 V c).after 4 t = k0_pay3 (accAt V c t.val t.isLt).2.2 := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## Where the windows are live -/

theorem live0_0 : ∀ t : Fin cfg0.N, cfg0.idle 0 (grid0.coords t) = false := by decide +kernel
theorem live0_1 : ∀ t : Fin cfg0.N, cfg0.idle 1 (grid0.coords t) = false := by decide +kernel
theorem idle0_2 : ∀ t : Fin cfg0.N, cfg0.idle 2 (grid0.coords t) = !decide (t.val % 4 = 3) := by decide +kernel
theorem idle0_3 : ∀ t : Fin cfg0.N, cfg0.idle 3 (grid0.coords t) = !decide (t.val % 4 = 3) := by decide +kernel
theorem idle0_4 : ∀ t : Fin cfg0.N, cfg0.idle 4 (grid0.coords t) = !decide (t.val % 4 = 3) := by decide +kernel
theorem noflush0_2 (t : Fin cfg0.N) (h : t.val % 4 ≠ 3) : (cfg0.win 2).flush t = false := by
  cases hf : (cfg0.win 2).flush t
  · rfl
  · exact absurd ((flush0_2 t).mp hf) h
theorem noflush0_3 (t : Fin cfg0.N) (h : t.val % 4 ≠ 3) : (cfg0.win 3).flush t = false := by
  cases hf : (cfg0.win 3).flush t
  · rfl
  · exact absurd ((flush0_3 t).mp hf) h
theorem noflush0_4 (t : Fin cfg0.N) (h : t.val % 4 ≠ 3) : (cfg0.win 4).flush t = false := by
  cases hf : (cfg0.win 4).flush t
  · rfl
  · exact absurd ((flush0_4 t).mp hf) h

end Region

end Cert.KernelIdeal.Hand

end
-- ==== Proof.Oblig0.lean ====
import proofs.«169214_j4466765988635_2_alg».proof.Proof.Region0

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
/-!
# The first kernel's body at every point

At a core's first tile the body finds the scratch at anything and leaves it at one step from zero; at the
middle tiles it finds what the point before left and leaves one more step; at the last tile it also stores the
three sums to the outputs' staging buffers. An output's buffer is handed back as found at the other tiles.
-/

section Oblig

variable (V : (c : Dev nD) → (b : Ref sig .tc) → Buf (Elt F) ((c : Thread nD τ).loc b))

theorem live0_2 (t : Fin cfg0.N) (h : t.val % 4 = 3) : cfg0.idle 2 (grid0.coords t) = false := by
  rw [idle0_2 t, decide_eq_true h]; rfl
theorem live0_3 (t : Fin cfg0.N) (h : t.val % 4 = 3) : cfg0.idle 3 (grid0.coords t) = false := by
  rw [idle0_3 t, decide_eq_true h]; rfl
theorem live0_4 (t : Fin cfg0.N) (h : t.val % 4 = 3) : cfg0.idle 4 (grid0.coords t) = false := by
  rw [idle0_4 t, decide_eq_true h]; rfl
theorem idleAt0_2 (t : Fin cfg0.N) (h : t.val % 4 ≠ 3) : cfg0.idle 2 (grid0.coords t) = true := by
  rw [idle0_2 t, decide_eq_false h]; rfl
theorem idleAt0_3 (t : Fin cfg0.N) (h : t.val % 4 ≠ 3) : cfg0.idle 3 (grid0.coords t) = true := by
  rw [idle0_3 t, decide_eq_false h]; rfl
theorem idleAt0_4 (t : Fin cfg0.N) (h : t.val % 4 ≠ 3) : cfg0.idle 4 (grid0.coords t) = true := by
  rw [idle0_4 t, decide_eq_false h]; rfl

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ (dat0 V c).leavesExact 0 t ∗ (dat0 V c).leavesExact 1 t ∗ (dat0 V c).leavesExact 2 t
    ∗ (dat0 V c).leavesExact 3 t ∗ (dat0 V c).leavesExact 4 t)

set_option maxHeartbeats 4000000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS V c (t.val + 1) t.isLt from rfl, PhiS_succ]
  rw [show (dat0 V c).leavesExact 0 t = owns (c : Thread nD τ) (st0_0 t) fullShare ((dat0 V c).after 0 t) from by
    unfold Dat.leavesExact; rw [live0_0 t], after0_0]
  rw [show (dat0 V c).leavesExact 1 t = owns (c : Thread nD τ) (st0_1 t) fullShare ((dat0 V c).after 1 t) from by
    unfold Dat.leavesExact; rw [live0_1 t], after0_1]
  have hN : t.val < 8 := lt_of_lt_of_eq t.isLt (show cfg0.N = 8 from N_0)
  by_cases h3 : t.val % 4 = 3
  · -- a core's last tile
    have hz : t.val ≠ 0 := by omega
    have h0 : t.val % 4 ≠ 0 := by omega
    rw [show (dat0 V c).leavesExact 2 t = owns (c : Thread nD τ) (st0_2 t) fullShare ((dat0 V c).after 2 t) from by
      unfold Dat.leavesExact; rw [live0_2 t h3], after0_2]
    rw [show (dat0 V c).leavesExact 3 t = owns (c : Thread nD τ) (st0_3 t) fullShare ((dat0 V c).after 3 t) from by
      unfold Dat.leavesExact; rw [live0_3 t h3], after0_3]
    rw [show (dat0 V c).leavesExact 4 t = owns (c : Thread nD τ) (st0_4 t) fullShare ((dat0 V c).after 4 t) from by
      unfold Dat.leavesExact; rw [live0_4 t h3], after0_4]
    rw [accAt_next V c t h0, PhiS_castSucc, PhiS_pos V c _ _ hz]
    unfold Held; simp only [step]
    iintro ⟨⟨H7, H8, H9, Hr, Hg⟩, Ho, ⟨%d0, H0⟩, ⟨%d1, H1⟩, ⟨%d2, H2⟩, ⟨%d3, H3⟩, ⟨%d4, H4⟩⟩
    iapply (body0_last c Set.univ (grid0.coords t) ((coord1_val t).trans h3) _ _ _ _ _ _ _ _ _ _ _ _ _ _ _ _ (iblk0 V c 0 t) (iblk0 V c 1 t) _ _ _ _)
    isplitl [H0]; · iexact H0
    isplitl [H1]; · iexact H1
    isplitl [H2]; · iexists _; iexact H2
    isplitl [H3]; · iexists _; iexact H3
    isplitl [H4]; · iexists _; iexact H4
    isplitl [H7]; · iexact H7
    isplitl [H8]; · iexact H8
    isplitl [H9]; · iexact H9
    iintro ⟨H0, H1, H2, H3, H4, H7, H8, H9⟩
    isplitl [H7 H8 H9 Hr Hg]
    · isplitl [H7]; · iexact H7
      isplitl [H8]; · iexact H8
      isplitl [H9]; · iexact H9
      isplitl [Hr]; · iexact Hr
      iexact Hg
    isplitl [Ho]; · iexact Ho
    isplitl [H0]; · iexact H0
    isplitl [H1]; · iexact H1
    isplitl [H2]; · iexact H2
    isplitl [H3]; · iexact H3
    iexact H4
  · rw [Dat.leavesExact_idle (dat0 V c) 2 t (idleAt0_2 t h3) (noflush0_2 t h3),
      Dat.leavesExact_idle (dat0 V c) 3 t (idleAt0_3 t h3) (noflush0_3 t h3),
      Dat.leavesExact_idle (dat0 V c) 4 t (idleAt0_4 t h3) (noflush0_4 t h3)]
    by_cases h0 : t.val % 4 = 0
    · -- a core's first tile
      rw [accAt_first V c t h0]
      unfold Held; simp only [step, acc0]
      have hopen : (dat0 V c).Φ t.castSucc ⊢ (iprop((∃ d, owns (c : Thread nD τ) scM7 fullShare d) ∗ (∃ d, owns (c : Thread nD τ) scM8 fullShare d) ∗ (∃ d, owns (c : Thread nD τ) scM9 fullShare d) ∗ Rest0 c ∗ ∃ r, prngReg c r) : sProp 𝕄) := by
        rw [PhiS_castSucc]
        by_cases hz : t.val = 0
        · rw [PhiS_zero V c _ _ hz]; exact PhiA_open c
        · rw [PhiS_pos V c _ _ hz]; unfold Held
          iintro ⟨H7, H8, H9, Hr, Hg⟩
          isplitl [H7]; · iexists _; iexact H7
          isplitl [H8]; · iexists _; iexact H8
          isplitl [H9]; · iexists _; iexact H9
          isplitl [Hr]; · iexact Hr
          iexact Hg
      iintro ⟨HΦ, Ho, ⟨%d0, H0⟩, ⟨%d1, H1⟩, ⟨%d2, H2⟩, ⟨%d3, H3⟩, ⟨%d4, H4⟩⟩
      ihave HΦ' := hopen $$ HΦ
      icases HΦ' with ⟨H7, H8, H9, Hr, Hg⟩
      iapply (body0_first c Set.univ (grid0.coords t) ((coord1_val t).trans h0) _ _ _ _ _ _ _ _ _ _ _ _ _ _ _ _ (iblk0 V c 0 t) (iblk0 V c 1 t) _ _ _ _)
      isplitl [H0]; · iexact H0
      isplitl [H1]; · iexact H1
      isplitl [H2]; · iexact H2
      isplitl [H3]; · iexact H3
      isplitl [H4]; · iexact H4
      isplitl [H7]; · iexact H7
      isplitl [H8]; · iexact H8
      isplitl [H9]; · iexact H9
      iintro ⟨H0, H1, H2, H3, H4, H7, H8, H9⟩
      isplitl [H7 H8 H9 Hr Hg]
      · isplitl [H7]; · iexact H7
        isplitl [H8]; · iexact H8
        isplitl [H9]; · iexact H9
        isplitl [Hr]; · iexact Hr
        iexact Hg
      isplitl [Ho]; · iexact Ho
      isplitl [H0]; · iexact H0
      isplitl [H1]; · iexact H1
      isplitl [H2]; · iexists _; iexact H2
      isplitl [H3]; · iexists _; iexact H3
      iexists _; iexact H4
    · -- a middle tile
      have hz : t.val ≠ 0 := fun h => h0 (by rw [h])
      rw [accAt_next V c t h0, PhiS_castSucc, PhiS_pos V c _ _ hz]
      unfold Held; simp only [step]
      iintro ⟨⟨H7, H8, H9, Hr, Hg⟩, Ho, ⟨%d0, H0⟩, ⟨%d1, H1⟩, ⟨%d2, H2⟩, ⟨%d3, H3⟩, ⟨%d4, H4⟩⟩
      iapply (body0_middle c Set.univ (grid0.coords t) (fun h => h0 ((coord1_val t).symm.trans h)) (fun h => h3 ((coord1_val t).symm.trans h)) _ _ _ _ _ _ _ _ _ _ _ _ _ _ _ _ (iblk0 V c 0 t) (iblk0 V c 1 t) _ _ _ _ _ _ _)
      isplitl [H0]; · iexact H0
      isplitl [H1]; · iexact H1
      isplitl [H2]; · iexact H2
      isplitl [H3]; · iexact H3
      isplitl [H4]; · iexact H4
      isplitl [H7]; · iexact H7
      isplitl [H8]; · iexact H8
      isplitl [H9]; · iexact H9
      iintro ⟨H0, H1, H2, H3, H4, H7, H8, H9⟩
      isplitl [H7 H8 H9 Hr Hg]
      · isplitl [H7]; · iexact H7
        isplitl [H8]; · iexact H8
        isplitl [H9]; · iexact H9
        isplitl [Hr]; · iexact Hr
        iexact Hg
      isplitl [Ho]; · iexact Ho
      isplitl [H0]; · iexact H0
      isplitl [H1]; · iexact H1
      isplitl [H2]; · iexists _; iexact H2
      isplitl [H3]; · iexists _; iexact H3
      iexists _; iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point, -/
theorem hin0 (c : Dev nD) : (Pipeline.ΦA spec0 c : sProp 𝕄) ⊢ (dat0 V c).Φ 0 := by
  rw [show (dat0 V c).Φ 0 = PhiS V c 0 (Nat.zero_le _) from rfl, PhiS_zero V c 0 _ rfl]
  try exact Idealize.SL.BI.Entails.refl _

/-- and after the last point the invariant gives it back, the sums' names forgotten. -/
theorem hout0 (c : Dev nD) : (dat0 V c).Φ (Fin.last cfg0.N) ⊢ (Pipeline.ΦA spec0 c : sProp 𝕄) := by
  rw [show (dat0 V c).Φ (Fin.last cfg0.N) = PhiS V c (Fin.last cfg0.N).val (Nat.le_of_lt_succ (Fin.last cfg0.N).isLt) from rfl,
    PhiS_pos V c _ _ (by rw [Fin.val_last]; have : cfg0.N = 8 := N_0; omega)]
  exact Held_close c _

end Oblig

end Cert.KernelIdeal.Hand

end
-- ==== Proof.Region1.lean ====
import proofs.«169214_j4466765988635_2_alg».proof.Proof.BodyRuns
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
/-!
# The second kernel region: one tile of the result per point

Each of the 8 points multiplies the whole small matrix (fetched once, kept in place) by one tile of `x` and
stores the 128 × 4096 product, which is written back at every point. Nothing is carried between points.
-/

section Region1

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The proof data of the second kernel on core `c`: the inputs' buffers at their blocks, the output's at the
    product of the two. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => k1_pay1 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = k1_pay1 (iblk1 V c 0 t) (iblk1 V c 1 t) := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

set_option maxHeartbeats 2000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (body1 c Set.univ (grid1.coords t) _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation1 (c : Dev nD) : BodyObligation (dat1 (F := F) V c) (defs₀ (F := F)) Variants.none () Set.univ := fun t => by
  rw [bigSep_W1, bigSep_W1]
  exact sound_body1 V c t

end Region1

end Cert.KernelIdeal.Hand

end
-- ==== Proof.Fold.lean ====
import proofs.«169214_j4466765988635_2_alg».proof.Proof.Region0
import proofs.«169214_j4466765988635_2_alg».proof.Proof.Region1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
/-!
# The buffers' contents at each boundary of the program

The program is: the first kernel region, 25 host operations, the second kernel region. On core `c` the
unscoped buffers hold, in turn: the launch contents; then those with the first region's arrays at what its
write-backs leave; then what the host operations compute from that; then that with the second region's
arrays at what its write-backs leave.
-/

section Fold

variable (m : (ℓ : Loc nD τ sig) → Buf (Elt F) ℓ)

/-- Core `c`'s buffers at launch (the first region's entry). -/
abbrev W0 : Dev nD → Valuation τ sig (Elt F) := fun c b => m ((c : Dev nD), b)
/-- The same read at the TensorCore's references. -/
abbrev V0 : (c : Dev nD) → (b : Ref sig .tc) → Buf (Elt F) ((c : Thread nD τ).loc b) := fun c b => W0 m c b
/-- At the first region's exit: its arrays at what the pipeline leaves, every other buffer as entered. -/
def W1 (c : Dev nD) : Valuation τ sig (Elt F) :=
  Pipeline.withArrays spec0 c (W0 m c) fun w => (dat0 (V0 m) c).arrAt w cfg0.N
theorem W1_arr (c : Dev nD) (w : Fin cfg0.W) :
    W1 m c (Proc.devRef .tc (Pipeline.arrRef spec0 w)) = (dat0 (V0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev V1 : (c : Dev nD) → (b : Ref sig .tc) → Buf (Elt F) ((c : Thread nD τ).loc b) := fun c b => W1 m c b
theorem hF0 (c : Dev nD) (w : Fin cfg0.W) : (dat0 (V0 m) c).arrAt w cfg0.N = V1 m c (Pipeline.arrRef spec0 w) :=
  (W1_arr m c w).symm
theorem hrest0 (c : Dev nD) : ∀ b, b ∉ Finset.univ.image (Pipeline.arrRef spec0) → V1 m c b = V0 m c b :=
  fun b hb => W1_of_ne m c b fun w e => hb (Finset.mem_image.mpr ⟨w, Finset.mem_univ _, e⟩)

/-- After the host operations (the second region's entry). -/
abbrev W2 : Dev nD → Valuation τ sig (Elt F) := fun c => StableHlo.after hostOps1 (W1 m c)
abbrev V2 : (c : Dev nD) → (b : Ref sig .tc) → Buf (Elt F) ((c : Thread nD τ).loc b) := fun c b => W2 m c b
/-- At the second region's exit. -/
def W3 (c : Dev nD) : Valuation τ sig (Elt F) :=
  Pipeline.withArrays spec1 c (W2 m c) fun w => (dat1 (V2 m) c).arrAt w cfg1.N
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev V3 : (c : Dev nD) → (b : Ref sig .tc) → Buf (Elt F) ((c : Thread nD τ).loc b) := fun c b => W3 m c b
theorem hF1 (c : Dev nD) (w : Fin cfg1.W) : (dat1 (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)

end Fold

end Cert.KernelIdeal.Hand

end
-- ==== Proof.Run.lean ====
import proofs.«169214_j4466765988635_2_alg».proof.Proof.Oblig0
import proofs.«169214_j4466765988635_2_alg».proof.Proof.Fold

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
/-!
# The run of the whole program

The program is three segments: the first kernel region, the 25 host operations, the second kernel region. Between
segments a core holds every unscoped buffer whole at the boundary's contents (`W0` … `W3`), beside its generator
register at some state and nothing owed. The first region's invariant is not constant (it carries the running sums),
so it is entered and left through the two entailments that open and close it; the second region's is the constant one.
At the end every unscoped buffer is read off the final state at `W3`.
-/

section Run

variable (m : (ℓ : Loc nD τ sig) → Buf (Elt F) ℓ) (ρ : Dev nD → PrngReg)

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V0 m) c
  | ⟨1, _⟩ => fun c => dat1 (V2 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its
    `owes`, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No operation of the host stretch allocates a buffer. -/
theorem hostOps1_fresh : (hostOps1 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents, the generator
    register at some state. -/
abbrev Tₙ (c : Dev nD) : sProp 𝕄 := iprop(StableHlo.held (c : Thread nD τ) (Pipeline.ucRefs τ sig) (W3 m c) ∗ ∃ r, prngReg c r)

/-! ## The regions as segments -/

set_option backward.isDefEq.respectTransparency.types false in
/-- The first region over the thread state: entered from every unscoped buffer at `W0`, left at `W1`. Its arrays
    split out of the unscoped buffers and put back at the exit contents; the generator register and the scoped rest
    into the invariant before the first point (`hin0`) and out of the one after the last (`hout0`). -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (V0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = (dat0 (V0 m) c).Φ 0 from rfl]
    refine .trans ?_ (hin0 (V0 m) c)
    unfold Pipeline.ΦA
    iintro ⟨Hp, -, Hr⟩
    isplitl [Hr]; · iexact Hr
    iexact Hp
  hout c := by
    rw [Pipeline.ownSems0_none, show (pdats m 0 c).Φ (Fin.last _) = (dat0 (V0 m) c).Φ (Fin.last cfg0.N) from rfl]
    refine (hout0 (V0 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V0 m c) (V1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region over the thread state: entered from every unscoped buffer at `W2`, left at `W3` (what the
    launch reads at the end). Its invariant is the constant one: the generator register and the scoped rest, in and out. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

/-- The program's 3 segments in order: the first region, the host stretch from its exit contents, the second region. -/
abbrev segs : List (Pipeline.Seg (pcfgs (F := F)) adm (pdats m) () defs₀ 𝒱₀ L lv) :=
  [ .region (reg0 m),
    .host (hseg hostOps1 hostOps1_sub hostOps1_fresh (W1 m)),
    .region (reg1 m) ]
/-- The program is the run of the segments. -/
theorem main_run (c : Dev nD) : main (F := F) c = Pipeline.Seg.run (segs m) := (main_chain c).trans (by chain_rfl)

set_option backward.isDefEq.respectTransparency.types false in
/-- From any memory with zero counters, every weakly fair execution of the program on the TensorCores terminates,
    nothing faulting, and in every final state each unscoped buffer of each core holds the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c => h c)

end Run

end Cert.KernelIdeal.Hand

end
-- ==== Proof.FrameOf.lean ====
import proofs.«169214_j4466765988635_2_alg».proof.Proof.Fold
import proofs.«169214_j4466765988635_2_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
/-!
# The arguments end as launched

Neither region writes an argument array (each only reads it through an input window, or not at all) and no
host operation writes one, so the fold of the buffers' contents read at an argument walks back to the launch.
-/

section FrameOf

variable (m : (ℓ : Loc nD τ sig) → Buf (Elt F) ℓ) (ρ : Dev nD → PrngReg)

/-- A buffer no host operation between the regions writes keeps its contents across them. -/
theorem mid_keeps (Vv : Valuation τ sig (Elt F)) (r : Ref sig .tc) (h : r ∉ hostOps1_W) :
    StableHlo.after hostOps1 Vv (Proc.devRef .tc r) = Vv (Proc.devRef .tc r) :=
  StableHlo.after_of_writes_sub hostOps1 _ hostOps1_writes h

theorem W3_main_arg0 (c : Dev nD) : W3 m c (Proc.devRef .tc main_arg0) = m ((c : Thread nD τ).loc main_arg0) :=
  calc W3 m c (Proc.devRef .tc main_arg0)
    _ = (dat1 (V2 m) c).arrAt 1 cfg1.N := W3_arr m c 1
    _ = V2 m c main_arg0 := ((dat1 (V2 m) c).arrAt_in 1 rfl _).trans (A_eq1 (V2 m) c 1)
    _ = W1 m c (Proc.devRef .tc main_arg0) := mid_keeps (W1 m c) main_arg0 (by decide)
    _ = (dat0 (V0 m) c).arrAt 1 cfg0.N := W1_arr m c 1
    _ = V0 m c main_arg0 := ((dat0 (V0 m) c).arrAt_in 1 rfl _).trans (A_eq0 (V0 m) c 1)
    _ = m ((c : Thread nD τ).loc main_arg0) := rfl

theorem W3_main_arg1 (c : Dev nD) : W3 m c (Proc.devRef .tc main_arg1) = m ((c : Thread nD τ).loc main_arg1) :=
  calc W3 m c (Proc.devRef .tc main_arg1)
    _ = W2 m c (Proc.devRef .tc main_arg1) := W3_of_ne m c main_arg1 (by decide)
    _ = W1 m c (Proc.devRef .tc main_arg1) := mid_keeps (W1 m c) main_arg1 (by decide)
    _ = (dat0 (V0 m) c).arrAt 0 cfg0.N := W1_arr m c 0
    _ = V0 m c main_arg1 := ((dat0 (V0 m) c).arrAt_in 0 rfl _).trans (A_eq0 (V0 m) c 0)
    _ = m ((c : Thread nD τ).loc main_arg1) := rfl

/-- The frame claim's post from the run's: both arguments as launched. -/
theorem frame_of_run
    (h : θ_run defs (onTc (τ := τ) (main (F := F))) ⟨m, fun _ => 0, ρ⟩ (fun r => ∀ c : Dev nD, ∀ b ∈ Pipeline.ucRefs τ sig, r.2.mem (((c : Thread nD τ)).1, b) = W3 m c b)) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (Finset.mem_filter.mpr ⟨StableHlo.devRef_mem_tcRefs main_arg0, by decide⟩)).trans (W3_main_arg0 m c),
     (h c _ (Finset.mem_filter.mpr ⟨StableHlo.devRef_mem_tcRefs main_arg1, by decide⟩)).trans (W3_main_arg1 m c)⟩) h

end FrameOf

end Cert.KernelIdeal.Hand

end
-- ==== Proof.Bits.BodyRuns.lean ====
import proofs.«169214_j4466765988635_2_alg».proof.Proof.Gen.Kernel.Skeleton
import proofs.«169214_j4466765988635_2_alg».proof.Proof.Gen.Kernel.Launch
import proofs.«169214_j4466765988635_2_alg».proof.Proof.Gen.Kernel.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The zero offsets of a rank-2 rectangle, as the constant function. -/
theorem zeros2 : (![0, 0] : Fin 2 → ℕ) = fun _ => 0 := by
  funext a; fin_cases a <;> rfl

/-- The zero offsets of a rank-3 rectangle, as the constant function. -/
theorem zeros3 : (![0, 0, 0] : Fin 3 → ℕ) = fun _ => 0 := by
  funext a; fin_cases a <;> rfl

/-- After one store through the whole-buffer rectangle (over any contents), the buffer reads the payload. -/
theorem read_store_whole {S : Shape} {e : EltTy} {Val : EltTy → Type} [∀ e, Nonempty (Val e)] {sig' : RefSig} {κ : Kind} {sp : Space}
    (v : View sig' κ sp S e) (f : v.ty.Contents Val) {off : Fin S.rank → ℕ} (h : off = fun _ => 0)
    (inb : ∀ a, off a + S.size a ≤ S.size a) (w : S.Idx → Val e) :
    v.read Val (v.writes Val f [(⟨Rect.unit off S.size inb, w⟩ : View.Piece Val S e)]) = w := by
  rw [View.read_writes_eq_canon v f _ (fun y => ⟨_, List.mem_singleton_self _, View.mem_set_unit_zero h inb y⟩),
    View.canon_unit_zero h inb w]

/-- A load through the whole-buffer rectangle reads the buffer's contents. -/
theorem readAt_whole {S : Shape} {e : EltTy} {Val : EltTy → Type} {sig' : RefSig} {κ : Kind} {sp : Space}
    (v : View sig' κ sp S e) (f : v.ty.Contents Val) {off : Fin S.rank → ℕ} (h : off = fun _ => 0)
    (inb : ∀ a, off a + S.size a ≤ S.size a) :
    v.readAt Val (Rect.unit off S.size inb).toLoadRect f = v.read Val f :=
  (View.readAt_eq_ld v f _).trans (View.ld_unit_zero h inb _)

/-- After a last store through the whole-buffer rectangle, whatever the earlier stores and contents, the buffer reads
    the last payload. -/
theorem read_store_whole_cons {S : Shape} {e : EltTy} {Val : EltTy → Type} [∀ e, Nonempty (Val e)] {sig' : RefSig} {κ : Kind} {sp : Space}
    (v : View sig' κ sp S e) (f : v.ty.Contents Val) {off : Fin S.rank → ℕ} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon v f _ (fun y => ⟨_, List.mem_cons_self, View.mem_set_unit_zero h inb y⟩),
    View.canon_cons_unit_zero h inb w L]

/-! ## The second call's body -/

set_option maxHeartbeats 1000000 in
/-- The output kernel's body on whole staging memrefs: it reads its two inputs and leaves in the output buffer
    the product of the first with the (truncated) second, the inputs as they were. -/
theorem body1 (c : Dev nD) (E : Set ℕ) (i : grid1.Coords)
    (arg1 : Memref sig .tc .vmem S128x512 .bf16) (harg1 : arg1.IsWhole)
    (arg2 : Memref sig .tc .vmem S512x4096 .f32) (harg2 : arg2.IsWhole)
    (arg3 : Memref sig .tc .vmem S128x4096 .f32) (harg3 : arg3.IsWhole)
    (v0 : Vec F S128x512 .bf16) (v2 : Vec F S512x4096 .f32) (K : PUnit → sProp 𝕄) :
    iprop(owns (c : Thread nD τ) arg1 fullShare v0 ∗ owns (c : Thread nD τ) arg2 fullShare v2
        ∗ (∃ d, owns (c : Thread nD τ) arg3 fullShare d)
        ∗ (iprop(owns (c : Thread nD τ) arg1 fullShare v0 ∗ owns (c : Thread nD τ) arg2 fullShare v2
            ∗ owns (c : Thread nD τ) arg3 fullShare (k1_pay1 v0 v2)) -∗ K ⟨⟩))
      ⊢ wp frame (wpE (defs₀ (F := F)) Variants.none c none) E (cc1_output_matmul_kernel i arg1 harg1 arg2 harg2 arg3 harg3) K := by
  simp only [cc1_output_matmul_kernel_eq_skeleton]; unfold cc1_output_matmul_kernel_skel
  unfold owns
  iintro ⟨⟨%f1, %hf1, H1⟩, ⟨%f2, %hf2, H2⟩, ⟨%d3, %f3, -, H3⟩, Hk⟩
  subst hf1; subst hf2
  sl_exec
  sl_step
  iapply Hk
  isplitl [H1]
  · iexists f1; isplitr; · ipureintro; rfl
    iexact H1
  isplitl [H2]
  · iexists f2; isplitr; · ipureintro; rfl
    iexact H2
  iexists _; isplitr
  swap; · iexact H3
  ipureintro
  refine (read_store_whole (S := S128x4096) _ _ zeros2 _ _).trans ?_
  exact congrArg₂ k1_pay1 (readAt_whole (S := S128x512) _ _ zeros2 _) (readAt_whole (S := S512x4096) _ _ zeros2 _)

/-! ## The first call's branch conditions -/

/-- The condition of the body's first `scf.if` (the accumulators' reset), from the grid coordinates. -/
abbrev cond0_0 (i : grid0.Coords) : Prop :=
  (Scalar.cmpi .ne (Scalar.extui (Scalar.cmpi .eq (BitVec.ofNat 32 (i 1).val) 0#32)) 0#32) = 1#1

/-- The condition of the body's second `scf.if` (the write of the sums to the outputs), from the grid coordinates. -/
abbrev cond0_1 (i : grid0.Coords) : Prop := k0_cond2 i = 1#1

/-- The reset is taken exactly on the first tile of a core. -/
theorem cond0_0_iff (i : grid0.Coords) : cond0_0 i ↔ (i 1).val = 0 := by
  have h : ∀ n : Fin 4, ((Scalar.cmpi .ne (Scalar.extui (Scalar.cmpi .eq (BitVec.ofNat 32 n.val) 0#32)) 0#32) = 1#1) ↔ n.val = 0 := by
    decide +kernel
  exact h (i 1)

/-- The outputs are written exactly on the last tile of a core. -/
theorem cond0_1_iff (i : grid0.Coords) : cond0_1 i ↔ (i 1).val = 3 := by
  have h : ∀ n : Fin 4, ((Scalar.cmpi .ne (Scalar.extui (Scalar.cmpi .eq (BitVec.ofNat 32 n.val) 3#32)) 0#32) = 1#1) ↔ n.val = 3 := by
    decide +kernel
  exact h (i 1)

/-- The tile coordinate of a grid point, and its core coordinate. -/
theorem coord1_val : ∀ t : Fin cfg0.N, ((grid0.coords t) 1).val = t.val % 4 :=
  (by decide +kernel : ∀ t : Fin grid0.N, ((grid0.coords t) 1).val = t.val % 4)
theorem coord0_val : ∀ t : Fin cfg0.N, ((grid0.coords t) 0).val = t.val / 4 :=
  (by decide +kernel : ∀ t : Fin grid0.N, ((grid0.coords t) 0).val = t.val / 4)

/-- The three payloads of the running sums respect equality of their arguments. -/
theorem pay9_congr {a a' : Vec F S128x4096 .f32} {b b' : Vec F S512x4096 .f32} {s s' : Vec F S128x512 .f32}
    (ha : a = a') (hb : b = b') (hs : s = s') : k0_pay9 a b s = k0_pay9 a' b' s' := by
  subst ha; subst hb; subst hs; rfl

theorem pay7_congr {a a' : Vec F S128x4096 .f32} {s s' : Vec F S1x128 .f32}
    (ha : a = a') (hs : s = s') : k0_pay7 a s = k0_pay7 a' s' := by
  subst ha; subst hs; rfl

theorem pay8_congr {b b' : Vec F S512x4096 .f32} {s s' : Vec F S1x512 .f32}
    (hb : b = b') (hs : s = s') : k0_pay8 b s = k0_pay8 b' s' := by
  subst hb; subst hs; rfl

/-! ## The first call's body, by case -/

set_option maxHeartbeats 1000000 in
/-- On the first tile of a core the body zeroes the three scratch accumulators, whatever they held, and adds the
    tile's contributions: the scratch ends at the payloads over the zero payloads; the staging buffers are untouched. -/
theorem body0_first_of (c : Dev nD) (E : Set ℕ) (i : grid0.Coords)
    (arg2 : Memref sig .tc .vmem S128x4096 .f32) (harg2 : arg2.IsWhole)
    (arg3 : Memref sig .tc .vmem S512x4096 .f32) (harg3 : arg3.IsWhole)
    (arg4 : Memref sig .tc .vmem S1x128x512 .f32) (harg4 : arg4.IsWhole)
    (arg5 : Memref sig .tc .vmem S1x1x128 .f32) (harg5 : arg5.IsWhole)
    (arg6 : Memref sig .tc .vmem S1x1x512 .f32) (harg6 : arg6.IsWhole)
    (arg7 : Memref sig .tc .vmem S128x512 .f32) (harg7 : arg7.IsWhole)
    (arg8 : Memref sig .tc .vmem S1x128 .f32) (harg8 : arg8.IsWhole)
    (arg9 : Memref sig .tc .vmem S1x512 .f32) (harg9 : arg9.IsWhole)
    (hc0 : cond0_0 i) (hc1 : ¬ cond0_1 i)
    (x0 : Vec F S128x4096 .f32) (x1 : Vec F S512x4096 .f32)
    (d4 : Vec F S1x128x512 .f32) (d5 : Vec F S1x1x128 .f32) (d6 : Vec F S1x1x512 .f32) (K : PUnit → sProp 𝕄) :
    iprop(owns (c : Thread nD τ) arg2 fullShare x0 ∗ owns (c : Thread nD τ) arg3 fullShare x1
        ∗ owns (c : Thread nD τ) arg4 fullShare d4 ∗ owns (c : Thread nD τ) arg5 fullShare d5 ∗ owns (c : Thread nD τ) arg6 fullShare d6
        ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg2 fullShare x0 ∗ owns (c : Thread nD τ) arg3 fullShare x1
            ∗ owns (c : Thread nD τ) arg4 fullShare d4 ∗ owns (c : Thread nD τ) arg5 fullShare d5 ∗ owns (c : Thread nD τ) arg6 fullShare d6
            ∗ owns (c : Thread nD τ) arg7 fullShare (k0_pay9 x0 x1 k0_pay4) ∗ owns (c : Thread nD τ) arg8 fullShare (k0_pay7 x0 k0_pay5)
            ∗ owns (c : Thread nD τ) arg9 fullShare (k0_pay8 x1 k0_pay6)) -∗ K ⟨⟩))
      ⊢ wp frame (wpE (defs₀ (F := F)) Variants.none c none) E (cc0_centering_matmul_kernel i arg2 harg2 arg3 harg3 arg4 harg4 arg5 harg5 arg6 harg6 arg7 harg7 arg8 harg8 arg9 harg9) K := by
  simp only [cc0_centering_matmul_kernel_eq_skeleton]; unfold cc0_centering_matmul_kernel_skel
  simp only [k0_part1_eq_skeleton]; unfold k0_part1_skel
  unfold owns
  iintro ⟨⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, Hk⟩
  subst hf2; subst hf3; subst hf4; subst hf5; subst hf6
  sl_exec (disch := first | exact hc0 | exact hc1)
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    unfold body0_first_of.sl.v24 body0_first_of.sl.H7_1
    refine (read_store_whole_cons (S := S128x512) _ _ zeros2 _ _ _).trans ?_
    exact pay9_congr (readAt_whole (S := S128x4096) _ _ zeros2 _) (readAt_whole (S := S512x4096) _ _ zeros2 _)
      (View.readCov_cons_toLoadRect _ _ _ _)
  isplitl [H8]
  · iexists _; isplitr
    swap; · iexact H8
    ipureintro
    unfold body0_first_of.sl.v5 body0_first_of.sl.H8_1
    refine (read_store_whole_cons (S := S1x128) _ _ zeros2 _ _ _).trans ?_
    exact pay7_congr (readAt_whole (S := S128x4096) _ _ zeros2 _) (View.readCov_cons_toLoadRect _ _ _ _)
  iexists _; isplitr
  swap; · iexact H9
  ipureintro
  unfold body0_first_of.sl.v13 body0_first_of.sl.H9_1
  refine (read_store_whole_cons (S := S1x512) _ _ zeros2 _ _ _).trans ?_
  exact pay8_congr (readAt_whole (S := S512x4096) _ _ zeros2 _) (View.readCov_cons_toLoadRect _ _ _ _)

set_option maxHeartbeats 1000000 in
/-- On a tile that is neither the first nor the last of a core the body adds the tile's contributions to the three
    scratch accumulators; the staging buffers are untouched. -/
theorem body0_middle_of (c : Dev nD) (E : Set ℕ) (i : grid0.Coords)
    (arg2 : Memref sig .tc .vmem S128x4096 .f32) (harg2 : arg2.IsWhole)
    (arg3 : Memref sig .tc .vmem S512x4096 .f32) (harg3 : arg3.IsWhole)
    (arg4 : Memref sig .tc .vmem S1x128x512 .f32) (harg4 : arg4.IsWhole)
    (arg5 : Memref sig .tc .vmem S1x1x128 .f32) (harg5 : arg5.IsWhole)
    (arg6 : Memref sig .tc .vmem S1x1x512 .f32) (harg6 : arg6.IsWhole)
    (arg7 : Memref sig .tc .vmem S128x512 .f32) (harg7 : arg7.IsWhole)
    (arg8 : Memref sig .tc .vmem S1x128 .f32) (harg8 : arg8.IsWhole)
    (arg9 : Memref sig .tc .vmem S1x512 .f32) (harg9 : arg9.IsWhole)
    (hc0 : ¬ cond0_0 i) (hc1 : ¬ cond0_1 i)
    (x0 : Vec F S128x4096 .f32) (x1 : Vec F S512x4096 .f32)
    (d4 : Vec F S1x128x512 .f32) (d5 : Vec F S1x1x128 .f32) (d6 : Vec F S1x1x512 .f32)
    (a7 : Vec F S128x512 .f32) (a8 : Vec F S1x128 .f32) (a9 : Vec F S1x512 .f32) (K : PUnit → sProp 𝕄) :
    iprop(owns (c : Thread nD τ) arg2 fullShare x0 ∗ owns (c : Thread nD τ) arg3 fullShare x1
        ∗ owns (c : Thread nD τ) arg4 fullShare d4 ∗ owns (c : Thread nD τ) arg5 fullShare d5 ∗ owns (c : Thread nD τ) arg6 fullShare d6
        ∗ owns (c : Thread nD τ) arg7 fullShare a7 ∗ owns (c : Thread nD τ) arg8 fullShare a8 ∗ owns (c : Thread nD τ) arg9 fullShare a9
        ∗ (iprop(owns (c : Thread nD τ) arg2 fullShare x0 ∗ owns (c : Thread nD τ) arg3 fullShare x1
            ∗ owns (c : Thread nD τ) arg4 fullShare d4 ∗ owns (c : Thread nD τ) arg5 fullShare d5 ∗ owns (c : Thread nD τ) arg6 fullShare d6
            ∗ owns (c : Thread nD τ) arg7 fullShare (k0_pay9 x0 x1 a7) ∗ owns (c : Thread nD τ) arg8 fullShare (k0_pay7 x0 a8)
            ∗ owns (c : Thread nD τ) arg9 fullShare (k0_pay8 x1 a9)) -∗ K ⟨⟩))
      ⊢ wp frame (wpE (defs₀ (F := F)) Variants.none c none) E (cc0_centering_matmul_kernel i arg2 harg2 arg3 harg3 arg4 harg4 arg5 harg5 arg6 harg6 arg7 harg7 arg8 harg8 arg9 harg9) K := by
  simp only [cc0_centering_matmul_kernel_eq_skeleton]; unfold cc0_centering_matmul_kernel_skel
  simp only [k0_part1_eq_skeleton]; unfold k0_part1_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  subst hf2; subst hf3; subst hf4; subst hf5; subst hf6; subst hf7; subst hf8; subst hf9
  sl_exec (disch := first | exact hc0 | exact hc1)
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    refine (read_store_whole (S := S128x512) _ _ zeros2 _ _).trans ?_
    exact pay9_congr (readAt_whole (S := S128x4096) _ _ zeros2 _) (readAt_whole (S := S512x4096) _ _ zeros2 _)
      (readAt_whole (S := S128x512) _ _ zeros2 _)
  isplitl [H8]
  · iexists _; isplitr
    swap; · iexact H8
    ipureintro
    refine (read_store_whole (S := S1x128) _ _ zeros2 _ _).trans ?_
    exact pay7_congr (readAt_whole (S := S128x4096) _ _ zeros2 _) (readAt_whole (S := S1x128) _ _ zeros2 _)
  iexists _; isplitr
  swap; · iexact H9
  ipureintro
  refine (read_store_whole (S := S1x512) _ _ zeros2 _ _).trans ?_
  exact pay8_congr (readAt_whole (S := S512x4096) _ _ zeros2 _) (readAt_whole (S := S1x512) _ _ zeros2 _)

theorem pay1_congr {s s' : Vec F S128x512 .f32} (hs : s = s') : k0_pay1 s = k0_pay1 s' := by subst hs; rfl
theorem pay2_congr {s s' : Vec F S1x128 .f32} (hs : s = s') : k0_pay2 s = k0_pay2 s' := by subst hs; rfl
theorem pay3_congr {s s' : Vec F S1x512 .f32} (hs : s = s') : k0_pay3 s = k0_pay3 s' := by subst hs; rfl

set_option maxHeartbeats 1000000 in
/-- On the last tile of a core the body adds the tile's contributions to the three scratch accumulators and then
    copies each accumulator to its output staging buffer, whatever that held. -/
theorem body0_last_of (c : Dev nD) (E : Set ℕ) (i : grid0.Coords)
    (arg2 : Memref sig .tc .vmem S128x4096 .f32) (harg2 : arg2.IsWhole)
    (arg3 : Memref sig .tc .vmem S512x4096 .f32) (harg3 : arg3.IsWhole)
    (arg4 : Memref sig .tc .vmem S1x128x512 .f32) (harg4 : arg4.IsWhole)
    (arg5 : Memref sig .tc .vmem S1x1x128 .f32) (harg5 : arg5.IsWhole)
    (arg6 : Memref sig .tc .vmem S1x1x512 .f32) (harg6 : arg6.IsWhole)
    (arg7 : Memref sig .tc .vmem S128x512 .f32) (harg7 : arg7.IsWhole)
    (arg8 : Memref sig .tc .vmem S1x128 .f32) (harg8 : arg8.IsWhole)
    (arg9 : Memref sig .tc .vmem S1x512 .f32) (harg9 : arg9.IsWhole)
    (hc0 : ¬ cond0_0 i) (hc1 : cond0_1 i)
    (x0 : Vec F S128x4096 .f32) (x1 : Vec F S512x4096 .f32)
    (a7 : Vec F S128x512 .f32) (a8 : Vec F S1x128 .f32) (a9 : Vec F S1x512 .f32) (K : PUnit → sProp 𝕄) :
    iprop(owns (c : Thread nD τ) arg2 fullShare x0 ∗ owns (c : Thread nD τ) arg3 fullShare x1
        ∗ (∃ d, owns (c : Thread nD τ) arg4 fullShare d) ∗ (∃ d, owns (c : Thread nD τ) arg5 fullShare d) ∗ (∃ d, owns (c : Thread nD τ) arg6 fullShare d)
        ∗ owns (c : Thread nD τ) arg7 fullShare a7 ∗ owns (c : Thread nD τ) arg8 fullShare a8 ∗ owns (c : Thread nD τ) arg9 fullShare a9
        ∗ (iprop(owns (c : Thread nD τ) arg2 fullShare x0 ∗ owns (c : Thread nD τ) arg3 fullShare x1
            ∗ owns (c : Thread nD τ) arg4 fullShare (k0_pay1 (k0_pay9 x0 x1 a7)) ∗ owns (c : Thread nD τ) arg5 fullShare (k0_pay2 (k0_pay7 x0 a8))
            ∗ owns (c : Thread nD τ) arg6 fullShare (k0_pay3 (k0_pay8 x1 a9))
            ∗ owns (c : Thread nD τ) arg7 fullShare (k0_pay9 x0 x1 a7) ∗ owns (c : Thread nD τ) arg8 fullShare (k0_pay7 x0 a8)
            ∗ owns (c : Thread nD τ) arg9 fullShare (k0_pay8 x1 a9)) -∗ K ⟨⟩))
      ⊢ wp frame (wpE (defs₀ (F := F)) Variants.none c none) E (cc0_centering_matmul_kernel i arg2 harg2 arg3 harg3 arg4 harg4 arg5 harg5 arg6 harg6 arg7 harg7 arg8 harg8 arg9 harg9) K := by
  simp only [cc0_centering_matmul_kernel_eq_skeleton]; unfold cc0_centering_matmul_kernel_skel
  simp only [k0_part1_eq_skeleton]; unfold k0_part1_skel
  unfold owns
  iintro ⟨⟨%f2, %hf2, H2⟩, ⟨%f3, %hf3, H3⟩, ⟨%d4, %f4, -, H4⟩, ⟨%d5, %f5, -, H5⟩, ⟨%d6, %f6, -, H6⟩, ⟨%f7, %hf7, H7⟩, ⟨%f8, %hf8, H8⟩, ⟨%f9, %hf9, H9⟩, Hk⟩
  subst hf2; subst hf3; subst hf7; subst hf8; subst hf9
  sl_exec (disch := first | exact hc0 | exact hc1)
  sl_step
  iapply Hk
  isplitl [H2]
  · iexists f2; isplitr; · ipureintro; rfl
    iexact H2
  isplitl [H3]
  · iexists f3; isplitr; · ipureintro; rfl
    iexact H3
  isplitl [H4]
  · iexists _; isplitr
    swap; · iexact H4
    ipureintro
    refine (read_store_whole (S := S1x128x512) _ _ zeros3 _ _).trans ?_
    unfold body0_last_of.sl.v32
    exact pay1_congr ((View.readCov_cons_toLoadRect _ _ _ _).trans
      (pay9_congr (readAt_whole (S := S128x4096) _ _ zeros2 _) (readAt_whole (S := S512x4096) _ _ zeros2 _)
        (readAt_whole (S := S128x512) _ _ zeros2 _)))
  isplitl [H5]
  · iexists _; isplitr
    swap; · iexact H5
    ipureintro
    refine (read_store_whole (S := S1x1x128) _ _ zeros3 _ _).trans ?_
    unfold body0_last_of.sl.v36
    exact pay2_congr ((View.readCov_cons_toLoadRect _ _ _ _).trans
      (pay7_congr (readAt_whole (S := S128x4096) _ _ zeros2 _) (readAt_whole (S := S1x128) _ _ zeros2 _)))
  isplitl [H6]
  · iexists _; isplitr
    swap; · iexact H6
    ipureintro
    refine (read_store_whole (S := S1x1x512) _ _ zeros3 _ _).trans ?_
    unfold body0_last_of.sl.v40
    exact pay3_congr ((View.readCov_cons_toLoadRect _ _ _ _).trans
      (pay8_congr (readAt_whole (S := S512x4096) _ _ zeros2 _) (readAt_whole (S := S1x512) _ _ zeros2 _)))
  isplitl [H7]
  · iexists _; isplitr
    swap; · iexact H7
    ipureintro
    refine (read_store_whole (S := S128x512) _ _ zeros2 _ _).trans ?_
    exact pay9_congr (readAt_whole (S := S128x4096) _ _ zeros2 _) (readAt_whole (S := S512x4096) _ _ zeros2 _)
      (readAt_whole (S := S128x512) _ _ zeros2 _)
  isplitl [H8]
  · iexists _; isplitr
    swap; · iexact H8
    ipureintro
    refine (read_store_whole (S := S1x128) _ _ zeros2 _ _).trans ?_
    exact pay7_congr (readAt_whole (S := S128x4096) _ _ zeros2 _) (readAt_whole (S := S1x128) _ _ zeros2 _)
  iexists _; isplitr
  swap; · iexact H9
  ipureintro
  refine (read_store_whole (S := S1x512) _ _ zeros2 _ _).trans ?_
  exact pay8_congr (readAt_whole (S := S512x4096) _ _ zeros2 _) (readAt_whole (S := S1x512) _ _ zeros2 _)

/-! ## The three cases by the tile coordinate -/

/-- The first tile of a core (`(i 1).val = 0`): the reset is taken, the outputs are not written. -/
theorem body0_first (c : Dev nD) (E : Set ℕ) (i : grid0.Coords) (h : (i 1).val = 0)
    (arg2 : Memref sig .tc .vmem S128x4096 .f32) (harg2 : arg2.IsWhole)
    (arg3 : Memref sig .tc .vmem S512x4096 .f32) (harg3 : arg3.IsWhole)
    (arg4 : Memref sig .tc .vmem S1x128x512 .f32) (harg4 : arg4.IsWhole)
    (arg5 : Memref sig .tc .vmem S1x1x128 .f32) (harg5 : arg5.IsWhole)
    (arg6 : Memref sig .tc .vmem S1x1x512 .f32) (harg6 : arg6.IsWhole)
    (arg7 : Memref sig .tc .vmem S128x512 .f32) (harg7 : arg7.IsWhole)
    (arg8 : Memref sig .tc .vmem S1x128 .f32) (harg8 : arg8.IsWhole)
    (arg9 : Memref sig .tc .vmem S1x512 .f32) (harg9 : arg9.IsWhole)
    (x0 : Vec F S128x4096 .f32) (x1 : Vec F S512x4096 .f32)
    (d4 : Vec F S1x128x512 .f32) (d5 : Vec F S1x1x128 .f32) (d6 : Vec F S1x1x512 .f32) (K : PUnit → sProp 𝕄) :
    iprop(owns (c : Thread nD τ) arg2 fullShare x0 ∗ owns (c : Thread nD τ) arg3 fullShare x1
        ∗ owns (c : Thread nD τ) arg4 fullShare d4 ∗ owns (c : Thread nD τ) arg5 fullShare d5 ∗ owns (c : Thread nD τ) arg6 fullShare d6
        ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg2 fullShare x0 ∗ owns (c : Thread nD τ) arg3 fullShare x1
            ∗ owns (c : Thread nD τ) arg4 fullShare d4 ∗ owns (c : Thread nD τ) arg5 fullShare d5 ∗ owns (c : Thread nD τ) arg6 fullShare d6
            ∗ owns (c : Thread nD τ) arg7 fullShare (k0_pay9 x0 x1 k0_pay4) ∗ owns (c : Thread nD τ) arg8 fullShare (k0_pay7 x0 k0_pay5)
            ∗ owns (c : Thread nD τ) arg9 fullShare (k0_pay8 x1 k0_pay6)) -∗ K ⟨⟩))
      ⊢ wp frame (wpE (defs₀ (F := F)) Variants.none c none) E (cc0_centering_matmul_kernel i arg2 harg2 arg3 harg3 arg4 harg4 arg5 harg5 arg6 harg6 arg7 harg7 arg8 harg8 arg9 harg9) K :=
  body0_first_of c E i arg2 harg2 arg3 harg3 arg4 harg4 arg5 harg5 arg6 harg6 arg7 harg7 arg8 harg8 arg9 harg9
    ((cond0_0_iff i).2 h) (fun hc => absurd (h.symm.trans ((cond0_1_iff i).1 hc)) (by decide)) x0 x1 d4 d5 d6 K

/-- A tile that is neither the first nor the last of a core: no reset, no write of the outputs. -/
theorem body0_middle (c : Dev nD) (E : Set ℕ) (i : grid0.Coords) (h0 : (i 1).val ≠ 0) (h3 : (i 1).val ≠ 3)
    (arg2 : Memref sig .tc .vmem S128x4096 .f32) (harg2 : arg2.IsWhole)
    (arg3 : Memref sig .tc .vmem S512x4096 .f32) (harg3 : arg3.IsWhole)
    (arg4 : Memref sig .tc .vmem S1x128x512 .f32) (harg4 : arg4.IsWhole)
    (arg5 : Memref sig .tc .vmem S1x1x128 .f32) (harg5 : arg5.IsWhole)
    (arg6 : Memref sig .tc .vmem S1x1x512 .f32) (harg6 : arg6.IsWhole)
    (arg7 : Memref sig .tc .vmem S128x512 .f32) (harg7 : arg7.IsWhole)
    (arg8 : Memref sig .tc .vmem S1x128 .f32) (harg8 : arg8.IsWhole)
    (arg9 : Memref sig .tc .vmem S1x512 .f32) (harg9 : arg9.IsWhole)
    (x0 : Vec F S128x4096 .f32) (x1 : Vec F S512x4096 .f32)
    (d4 : Vec F S1x128x512 .f32) (d5 : Vec F S1x1x128 .f32) (d6 : Vec F S1x1x512 .f32)
    (a7 : Vec F S128x512 .f32) (a8 : Vec F S1x128 .f32) (a9 : Vec F S1x512 .f32) (K : PUnit → sProp 𝕄) :
    iprop(owns (c : Thread nD τ) arg2 fullShare x0 ∗ owns (c : Thread nD τ) arg3 fullShare x1
        ∗ owns (c : Thread nD τ) arg4 fullShare d4 ∗ owns (c : Thread nD τ) arg5 fullShare d5 ∗ owns (c : Thread nD τ) arg6 fullShare d6
        ∗ owns (c : Thread nD τ) arg7 fullShare a7 ∗ owns (c : Thread nD τ) arg8 fullShare a8 ∗ owns (c : Thread nD τ) arg9 fullShare a9
        ∗ (iprop(owns (c : Thread nD τ) arg2 fullShare x0 ∗ owns (c : Thread nD τ) arg3 fullShare x1
            ∗ owns (c : Thread nD τ) arg4 fullShare d4 ∗ owns (c : Thread nD τ) arg5 fullShare d5 ∗ owns (c : Thread nD τ) arg6 fullShare d6
            ∗ owns (c : Thread nD τ) arg7 fullShare (k0_pay9 x0 x1 a7) ∗ owns (c : Thread nD τ) arg8 fullShare (k0_pay7 x0 a8)
            ∗ owns (c : Thread nD τ) arg9 fullShare (k0_pay8 x1 a9)) -∗ K ⟨⟩))
      ⊢ wp frame (wpE (defs₀ (F := F)) Variants.none c none) E (cc0_centering_matmul_kernel i arg2 harg2 arg3 harg3 arg4 harg4 arg5 harg5 arg6 harg6 arg7 harg7 arg8 harg8 arg9 harg9) K :=
  body0_middle_of c E i arg2 harg2 arg3 harg3 arg4 harg4 arg5 harg5 arg6 harg6 arg7 harg7 arg8 harg8 arg9 harg9
    (fun hc => h0 ((cond0_0_iff i).1 hc)) (fun hc => h3 ((cond0_1_iff i).1 hc)) x0 x1 d4 d5 d6 a7 a8 a9 K

/-- The last tile of a core (`(i 1).val = 3`): no reset, the three sums are written to the outputs. -/
theorem body0_last (c : Dev nD) (E : Set ℕ) (i : grid0.Coords) (h : (i 1).val = 3)
    (arg2 : Memref sig .tc .vmem S128x4096 .f32) (harg2 : arg2.IsWhole)
    (arg3 : Memref sig .tc .vmem S512x4096 .f32) (harg3 : arg3.IsWhole)
    (arg4 : Memref sig .tc .vmem S1x128x512 .f32) (harg4 : arg4.IsWhole)
    (arg5 : Memref sig .tc .vmem S1x1x128 .f32) (harg5 : arg5.IsWhole)
    (arg6 : Memref sig .tc .vmem S1x1x512 .f32) (harg6 : arg6.IsWhole)
    (arg7 : Memref sig .tc .vmem S128x512 .f32) (harg7 : arg7.IsWhole)
    (arg8 : Memref sig .tc .vmem S1x128 .f32) (harg8 : arg8.IsWhole)
    (arg9 : Memref sig .tc .vmem S1x512 .f32) (harg9 : arg9.IsWhole)
    (x0 : Vec F S128x4096 .f32) (x1 : Vec F S512x4096 .f32)
    (a7 : Vec F S128x512 .f32) (a8 : Vec F S1x128 .f32) (a9 : Vec F S1x512 .f32) (K : PUnit → sProp 𝕄) :
    iprop(owns (c : Thread nD τ) arg2 fullShare x0 ∗ owns (c : Thread nD τ) arg3 fullShare x1
        ∗ (∃ d, owns (c : Thread nD τ) arg4 fullShare d) ∗ (∃ d, owns (c : Thread nD τ) arg5 fullShare d) ∗ (∃ d, owns (c : Thread nD τ) arg6 fullShare d)
        ∗ owns (c : Thread nD τ) arg7 fullShare a7 ∗ owns (c : Thread nD τ) arg8 fullShare a8 ∗ owns (c : Thread nD τ) arg9 fullShare a9
        ∗ (iprop(owns (c : Thread nD τ) arg2 fullShare x0 ∗ owns (c : Thread nD τ) arg3 fullShare x1
            ∗ owns (c : Thread nD τ) arg4 fullShare (k0_pay1 (k0_pay9 x0 x1 a7)) ∗ owns (c : Thread nD τ) arg5 fullShare (k0_pay2 (k0_pay7 x0 a8))
            ∗ owns (c : Thread nD τ) arg6 fullShare (k0_pay3 (k0_pay8 x1 a9))
            ∗ owns (c : Thread nD τ) arg7 fullShare (k0_pay9 x0 x1 a7) ∗ owns (c : Thread nD τ) arg8 fullShare (k0_pay7 x0 a8)
            ∗ owns (c : Thread nD τ) arg9 fullShare (k0_pay8 x1 a9)) -∗ K ⟨⟩))
      ⊢ wp frame (wpE (defs₀ (F := F)) Variants.none c none) E (cc0_centering_matmul_kernel i arg2 harg2 arg3 harg3 arg4 harg4 arg5 harg5 arg6 harg6 arg7 harg7 arg8 harg8 arg9 harg9) K :=
  body0_last_of c E i arg2 harg2 arg3 harg3 arg4 harg4 arg5 harg5 arg6 harg6 arg7 harg7 arg8 harg8 arg9 harg9
    (fun hc => absurd (((cond0_0_iff i).1 hc).symm.trans h) (by decide)) ((cond0_1_iff i).2 h) x0 x1 a7 a8 a9 K

end Cert.Kernel.Hand

end
-- ==== Proof.Bits.Region0.lean ====
import proofs.«169214_j4466765988635_2_alg».proof.Proof.Bits.BodyRuns
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
/-!
# The first kernel region: three running sums carried over the tiles of a core

The grid of the first kernel has 8 points: point `t` is tile `t % 4` of core `t / 4`. The body adds the tile's
shares to three sums kept in scratch buffers, which it resets to zero at a core's first tile, and stores the
sums to the three outputs at a core's last tile. So what the scratch holds after point `t` is a recursion on
`t` (`accAt`), the invariant between points says the scratch holds it, and an output's staging buffer is
only written — and only written back — at the points with `t % 4 = 3`.
-/

section Region

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, for any proof data whose array is
    `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The running sums -/

/-- The three running sums: the raw products (128 × 512), the row sums of `Ψ` (1 × 128), the row sums of `x` (1 × 512). -/
abbrev Acc (F : FTy → Type) [FloatOps F] : Type := Vec F S128x512 .f32 × Vec F S1x128 .f32 × Vec F S1x512 .f32

/-- One tile's step: each sum grows by the tile's share. -/
def step (x0 : Vec F S128x4096 .f32) (x1 : Vec F S512x4096 .f32) (a : Acc F) : Acc F :=
  (k0_pay9 x0 x1 a.1, k0_pay7 x0 a.2.1, k0_pay8 x1 a.2.2)

/-- The sums a core starts from: zero. -/
def acc0 : Acc F := (k0_pay4, k0_pay5, k0_pay6)

/-- What the scratch holds after the body at point `n`: the step from zero at a core's first tile, from what
    the point before left otherwise. -/
def accAt (c : Dev nD) : (n : ℕ) → n < cfg0.N → Acc F
  | 0, h => step (iblk0 V c 0 ⟨0, h⟩) (iblk0 V c 1 ⟨0, h⟩) acc0
  | n + 1, h => step (iblk0 V c 0 ⟨n + 1, h⟩) (iblk0 V c 1 ⟨n + 1, h⟩)
      (if (n + 1) % 4 = 0 then acc0 else accAt c n (Nat.lt_of_succ_lt h))

theorem accAt_first (c : Dev nD) (t : Fin cfg0.N) (h : t.val % 4 = 0) :
    accAt V c t.val t.isLt = step (iblk0 V c 0 t) (iblk0 V c 1 t) acc0 := by
  obtain ⟨n, hn⟩ := t
  cases n with
  | zero => rfl
  | succ n => exact congrArg (step _ _) (if_pos h)

theorem accAt_next (c : Dev nD) (t : Fin cfg0.N) (h : t.val % 4 ≠ 0) :
    accAt V c t.val t.isLt = step (iblk0 V c 0 t) (iblk0 V c 1 t) (accAt V c (t.val - 1) (Nat.lt_of_le_of_lt (Nat.sub_le _ _) t.isLt)) := by
  obtain ⟨n, hn⟩ := t
  cases n with
  | zero => exact absurd (Nat.zero_mod _) h
  | succ n => exact congrArg (step _ _) (if_neg h)

/-! ## The invariant between points -/

/-- The three scratch accumulators as whole memrefs. -/
abbrev scM7 : Memref sig .tc .vmem S128x512 .f32 := Memref.whole cc0_scratch0
abbrev scM8 : Memref sig .tc .vmem S1x128 .f32 := Memref.whole cc0_scratch1
abbrev scM9 : Memref sig .tc .vmem S1x512 .f32 := Memref.whole cc0_scratch2

/-- The core's other scoped buffers (the second kernel's staging buffers), each at some contents. -/
def Rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f))

/-- The scratch at named sums, beside the other scoped buffers and the generator register. -/
def Held (c : Dev nD) (a : Acc F) : sProp 𝕄 :=
  iprop(owns (c : Thread nD τ) scM7 fullShare a.1 ∗ owns (c : Thread nD τ) scM8 fullShare a.2.1 ∗ owns (c : Thread nD τ) scM9 fullShare a.2.2 ∗ Rest0 c ∗ ∃ r, prngReg c r)

/-- What the launch hands the region opens into the scratch at some contents and the rest. -/
theorem PhiA_open (c : Dev nD) :
    (Pipeline.ΦA spec0 c : sProp 𝕄) ⊢ iprop((∃ d, owns (c : Thread nD τ) scM7 fullShare d) ∗ (∃ d, owns (c : Thread nD τ) scM8 fullShare d) ∗ (∃ d, owns (c : Thread nD τ) scM9 fullShare d) ∗ Rest0 c ∗ ∃ r, prngReg c r) := by
  unfold Pipeline.ΦA Rest0; rw [scopedRest0_eq]; simp only [owns_whole]
  iintro ⟨⟨H7, H8, H9, Ha, Hb, Hc, Hd, He⟩, Hg⟩
  isplitl [H7]; · iexact H7
  isplitl [H8]; · iexact H8
  isplitl [H9]; · iexact H9
  isplitl [Ha Hb Hc Hd He]
  · isplitl [Ha]; · iexact Ha
    isplitl [Hb]; · iexact Hb
    isplitl [Hc]; · iexact Hc
    isplitl [Hd]; · iexact Hd
    iexact He
  iexact Hg

/-- and the scratch at named sums closes back into it, the names forgotten. -/
theorem Held_close (c : Dev nD) (a : Acc F) : Held c a ⊢ (Pipeline.ΦA spec0 c : sProp 𝕄) := by
  unfold Pipeline.ΦA Held Rest0; rw [scopedRest0_eq]; simp only [owns_whole]
  iintro ⟨H7, H8, H9, ⟨Ha, Hb, Hc, Hd, He⟩, Hg⟩
  isplitr [Hg]
  · isplitl [H7]; · iexists _; iexact H7
    isplitl [H8]; · iexists _; iexact H8
    isplitl [H9]; · iexists _; iexact H9
    isplitl [Ha]; · iexact Ha
    isplitl [Hb]; · iexact Hb
    isplitl [Hc]; · iexact Hc
    isplitl [Hd]; · iexact Hd
    iexact He
  iexact Hg

/-- Before point `n`: what the launch hands over at the first point, then the scratch at what the point before left. -/
def PhiS (c : Dev nD) : (n : ℕ) → n ≤ cfg0.N → sProp 𝕄
  | 0, _ => Pipeline.ΦA spec0 c
  | n + 1, hn => Held c (accAt V c n hn)

theorem PhiS_zero (c : Dev nD) (n : ℕ) (h : n ≤ cfg0.N) (hz : n = 0) : PhiS V c n h = Pipeline.ΦA spec0 c := by
  subst hz; rfl
theorem PhiS_succ (c : Dev nD) (n : ℕ) (hn : n < cfg0.N) : PhiS V c (n + 1) hn = Held c (accAt V c n hn) := rfl
theorem PhiS_pos (c : Dev nD) (n : ℕ) (h : n ≤ cfg0.N) (hz : n ≠ 0) :
    PhiS V c n h = Held c (accAt V c (n - 1) (by omega)) := by
  cases n with
  | zero => exact absurd rfl hz
  | succ n => rfl

/-! ## The proof data -/

/-- The proof data of the first kernel on core `c`: the arrays as the region finds them; after the body each
    input's buffer at its block and each output's at the sum it stores (read only at a core's last tile). -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => k0_pay1 (accAt V c t.val t.isLt).1
    | ⟨3, _⟩ => k0_pay2 (accAt V c t.val t.isLt).2.1
    | ⟨4, _⟩ => k0_pay3 (accAt V c t.val t.isLt).2.2
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS_castSucc (c : Dev nD) (t : Fin cfg0.N) :
    (dat0 V c).Φ t.castSucc = PhiS V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = k0_pay1 (accAt V c t.val t.isLt).1 := by dsimp only [dat0]
theorem after0_3 (c : Dev nD) (t : Fin cfg0.N) : (dat0 V c).after 3 t = k0_pay2 (accAt V c t.val t.isLt).2.1 := by dsimp only [dat0]
theorem after0_4 (c : Dev nD) (t : Fin cfg0.N) : (dat0 V c).after 4 t = k0_pay3 (accAt V c t.val t.isLt).2.2 := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## Where the windows are live -/

theorem live0_0 : ∀ t : Fin cfg0.N, cfg0.idle 0 (grid0.coords t) = false := by decide +kernel
theorem live0_1 : ∀ t : Fin cfg0.N, cfg0.idle 1 (grid0.coords t) = false := by decide +kernel
theorem idle0_2 : ∀ t : Fin cfg0.N, cfg0.idle 2 (grid0.coords t) = !decide (t.val % 4 = 3) := by decide +kernel
theorem idle0_3 : ∀ t : Fin cfg0.N, cfg0.idle 3 (grid0.coords t) = !decide (t.val % 4 = 3) := by decide +kernel
theorem idle0_4 : ∀ t : Fin cfg0.N, cfg0.idle 4 (grid0.coords t) = !decide (t.val % 4 = 3) := by decide +kernel
theorem noflush0_2 (t : Fin cfg0.N) (h : t.val % 4 ≠ 3) : (cfg0.win 2).flush t = false := by
  cases hf : (cfg0.win 2).flush t
  · rfl
  · exact absurd ((flush0_2 t).mp hf) h
theorem noflush0_3 (t : Fin cfg0.N) (h : t.val % 4 ≠ 3) : (cfg0.win 3).flush t = false := by
  cases hf : (cfg0.win 3).flush t
  · rfl
  · exact absurd ((flush0_3 t).mp hf) h
theorem noflush0_4 (t : Fin cfg0.N) (h : t.val % 4 ≠ 3) : (cfg0.win 4).flush t = false := by
  cases hf : (cfg0.win 4).flush t
  · rfl
  · exact absurd ((flush0_4 t).mp hf) h

end Region

end Cert.Kernel.Hand

end
-- ==== Proof.Bits.Oblig0.lean ====
import proofs.«169214_j4466765988635_2_alg».proof.Proof.Bits.Region0

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
/-!
# The first kernel's body at every point

At a core's first tile the body finds the scratch at anything and leaves it at one step from zero; at the
middle tiles it finds what the point before left and leaves one more step; at the last tile it also stores the
three sums to the outputs' staging buffers. An output's buffer is handed back as found at the other tiles.
-/

section Oblig

variable (V : (c : Dev nD) → (b : Ref sig .tc) → Buf (Elt F) ((c : Thread nD τ).loc b))

theorem live0_2 (t : Fin cfg0.N) (h : t.val % 4 = 3) : cfg0.idle 2 (grid0.coords t) = false := by
  rw [idle0_2 t, decide_eq_true h]; rfl
theorem live0_3 (t : Fin cfg0.N) (h : t.val % 4 = 3) : cfg0.idle 3 (grid0.coords t) = false := by
  rw [idle0_3 t, decide_eq_true h]; rfl
theorem live0_4 (t : Fin cfg0.N) (h : t.val % 4 = 3) : cfg0.idle 4 (grid0.coords t) = false := by
  rw [idle0_4 t, decide_eq_true h]; rfl
theorem idleAt0_2 (t : Fin cfg0.N) (h : t.val % 4 ≠ 3) : cfg0.idle 2 (grid0.coords t) = true := by
  rw [idle0_2 t, decide_eq_false h]; rfl
theorem idleAt0_3 (t : Fin cfg0.N) (h : t.val % 4 ≠ 3) : cfg0.idle 3 (grid0.coords t) = true := by
  rw [idle0_3 t, decide_eq_false h]; rfl
theorem idleAt0_4 (t : Fin cfg0.N) (h : t.val % 4 ≠ 3) : cfg0.idle 4 (grid0.coords t) = true := by
  rw [idle0_4 t, decide_eq_false h]; rfl

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ (dat0 V c).leavesExact 0 t ∗ (dat0 V c).leavesExact 1 t ∗ (dat0 V c).leavesExact 2 t
    ∗ (dat0 V c).leavesExact 3 t ∗ (dat0 V c).leavesExact 4 t)

set_option maxHeartbeats 4000000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS V c (t.val + 1) t.isLt from rfl, PhiS_succ]
  rw [show (dat0 V c).leavesExact 0 t = owns (c : Thread nD τ) (st0_0 t) fullShare ((dat0 V c).after 0 t) from by
    unfold Dat.leavesExact; rw [live0_0 t], after0_0]
  rw [show (dat0 V c).leavesExact 1 t = owns (c : Thread nD τ) (st0_1 t) fullShare ((dat0 V c).after 1 t) from by
    unfold Dat.leavesExact; rw [live0_1 t], after0_1]
  have hN : t.val < 8 := lt_of_lt_of_eq t.isLt (show cfg0.N = 8 from N_0)
  by_cases h3 : t.val % 4 = 3
  · -- a core's last tile
    have hz : t.val ≠ 0 := by omega
    have h0 : t.val % 4 ≠ 0 := by omega
    rw [show (dat0 V c).leavesExact 2 t = owns (c : Thread nD τ) (st0_2 t) fullShare ((dat0 V c).after 2 t) from by
      unfold Dat.leavesExact; rw [live0_2 t h3], after0_2]
    rw [show (dat0 V c).leavesExact 3 t = owns (c : Thread nD τ) (st0_3 t) fullShare ((dat0 V c).after 3 t) from by
      unfold Dat.leavesExact; rw [live0_3 t h3], after0_3]
    rw [show (dat0 V c).leavesExact 4 t = owns (c : Thread nD τ) (st0_4 t) fullShare ((dat0 V c).after 4 t) from by
      unfold Dat.leavesExact; rw [live0_4 t h3], after0_4]
    rw [accAt_next V c t h0, PhiS_castSucc, PhiS_pos V c _ _ hz]
    unfold Held; simp only [step]
    iintro ⟨⟨H7, H8, H9, Hr, Hg⟩, Ho, ⟨%d0, H0⟩, ⟨%d1, H1⟩, ⟨%d2, H2⟩, ⟨%d3, H3⟩, ⟨%d4, H4⟩⟩
    iapply (body0_last c Set.univ (grid0.coords t) ((coord1_val t).trans h3) _ _ _ _ _ _ _ _ _ _ _ _ _ _ _ _ (iblk0 V c 0 t) (iblk0 V c 1 t) _ _ _ _)
    isplitl [H0]; · iexact H0
    isplitl [H1]; · iexact H1
    isplitl [H2]; · iexists _; iexact H2
    isplitl [H3]; · iexists _; iexact H3
    isplitl [H4]; · iexists _; iexact H4
    isplitl [H7]; · iexact H7
    isplitl [H8]; · iexact H8
    isplitl [H9]; · iexact H9
    iintro ⟨H0, H1, H2, H3, H4, H7, H8, H9⟩
    isplitl [H7 H8 H9 Hr Hg]
    · isplitl [H7]; · iexact H7
      isplitl [H8]; · iexact H8
      isplitl [H9]; · iexact H9
      isplitl [Hr]; · iexact Hr
      iexact Hg
    isplitl [Ho]; · iexact Ho
    isplitl [H0]; · iexact H0
    isplitl [H1]; · iexact H1
    isplitl [H2]; · iexact H2
    isplitl [H3]; · iexact H3
    iexact H4
  · rw [Dat.leavesExact_idle (dat0 V c) 2 t (idleAt0_2 t h3) (noflush0_2 t h3),
      Dat.leavesExact_idle (dat0 V c) 3 t (idleAt0_3 t h3) (noflush0_3 t h3),
      Dat.leavesExact_idle (dat0 V c) 4 t (idleAt0_4 t h3) (noflush0_4 t h3)]
    by_cases h0 : t.val % 4 = 0
    · -- a core's first tile
      rw [accAt_first V c t h0]
      unfold Held; simp only [step, acc0]
      have hopen : (dat0 V c).Φ t.castSucc ⊢ (iprop((∃ d, owns (c : Thread nD τ) scM7 fullShare d) ∗ (∃ d, owns (c : Thread nD τ) scM8 fullShare d) ∗ (∃ d, owns (c : Thread nD τ) scM9 fullShare d) ∗ Rest0 c ∗ ∃ r, prngReg c r) : sProp 𝕄) := by
        rw [PhiS_castSucc]
        by_cases hz : t.val = 0
        · rw [PhiS_zero V c _ _ hz]; exact PhiA_open c
        · rw [PhiS_pos V c _ _ hz]; unfold Held
          iintro ⟨H7, H8, H9, Hr, Hg⟩
          isplitl [H7]; · iexists _; iexact H7
          isplitl [H8]; · iexists _; iexact H8
          isplitl [H9]; · iexists _; iexact H9
          isplitl [Hr]; · iexact Hr
          iexact Hg
      iintro ⟨HΦ, Ho, ⟨%d0, H0⟩, ⟨%d1, H1⟩, ⟨%d2, H2⟩, ⟨%d3, H3⟩, ⟨%d4, H4⟩⟩
      ihave HΦ' := hopen $$ HΦ
      icases HΦ' with ⟨H7, H8, H9, Hr, Hg⟩
      iapply (body0_first c Set.univ (grid0.coords t) ((coord1_val t).trans h0) _ _ _ _ _ _ _ _ _ _ _ _ _ _ _ _ (iblk0 V c 0 t) (iblk0 V c 1 t) _ _ _ _)
      isplitl [H0]; · iexact H0
      isplitl [H1]; · iexact H1
      isplitl [H2]; · iexact H2
      isplitl [H3]; · iexact H3
      isplitl [H4]; · iexact H4
      isplitl [H7]; · iexact H7
      isplitl [H8]; · iexact H8
      isplitl [H9]; · iexact H9
      iintro ⟨H0, H1, H2, H3, H4, H7, H8, H9⟩
      isplitl [H7 H8 H9 Hr Hg]
      · isplitl [H7]; · iexact H7
        isplitl [H8]; · iexact H8
        isplitl [H9]; · iexact H9
        isplitl [Hr]; · iexact Hr
        iexact Hg
      isplitl [Ho]; · iexact Ho
      isplitl [H0]; · iexact H0
      isplitl [H1]; · iexact H1
      isplitl [H2]; · iexists _; iexact H2
      isplitl [H3]; · iexists _; iexact H3
      iexists _; iexact H4
    · -- a middle tile
      have hz : t.val ≠ 0 := fun h => h0 (by rw [h])
      rw [accAt_next V c t h0, PhiS_castSucc, PhiS_pos V c _ _ hz]
      unfold Held; simp only [step]
      iintro ⟨⟨H7, H8, H9, Hr, Hg⟩, Ho, ⟨%d0, H0⟩, ⟨%d1, H1⟩, ⟨%d2, H2⟩, ⟨%d3, H3⟩, ⟨%d4, H4⟩⟩
      iapply (body0_middle c Set.univ (grid0.coords t) (fun h => h0 ((coord1_val t).symm.trans h)) (fun h => h3 ((coord1_val t).symm.trans h)) _ _ _ _ _ _ _ _ _ _ _ _ _ _ _ _ (iblk0 V c 0 t) (iblk0 V c 1 t) _ _ _ _ _ _ _)
      isplitl [H0]; · iexact H0
      isplitl [H1]; · iexact H1
      isplitl [H2]; · iexact H2
      isplitl [H3]; · iexact H3
      isplitl [H4]; · iexact H4
      isplitl [H7]; · iexact H7
      isplitl [H8]; · iexact H8
      isplitl [H9]; · iexact H9
      iintro ⟨H0, H1, H2, H3, H4, H7, H8, H9⟩
      isplitl [H7 H8 H9 Hr Hg]
      · isplitl [H7]; · iexact H7
        isplitl [H8]; · iexact H8
        isplitl [H9]; · iexact H9
        isplitl [Hr]; · iexact Hr
        iexact Hg
      isplitl [Ho]; · iexact Ho
      isplitl [H0]; · iexact H0
      isplitl [H1]; · iexact H1
      isplitl [H2]; · iexists _; iexact H2
      isplitl [H3]; · iexists _; iexact H3
      iexists _; iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point, -/
theorem hin0 (c : Dev nD) : (Pipeline.ΦA spec0 c : sProp 𝕄) ⊢ (dat0 V c).Φ 0 := by
  rw [show (dat0 V c).Φ 0 = PhiS V c 0 (Nat.zero_le _) from rfl, PhiS_zero V c 0 _ rfl]
  try exact Idealize.SL.BI.Entails.refl _

/-- and after the last point the invariant gives it back, the sums' names forgotten. -/
theorem hout0 (c : Dev nD) : (dat0 V c).Φ (Fin.last cfg0.N) ⊢ (Pipeline.ΦA spec0 c : sProp 𝕄) := by
  rw [show (dat0 V c).Φ (Fin.last cfg0.N) = PhiS V c (Fin.last cfg0.N).val (Nat.le_of_lt_succ (Fin.last cfg0.N).isLt) from rfl,
    PhiS_pos V c _ _ (by rw [Fin.val_last]; have : cfg0.N = 8 := N_0; omega)]
  exact Held_close c _

end Oblig

end Cert.Kernel.Hand

end
-- ==== Proof.Bits.Region1.lean ====
import proofs.«169214_j4466765988635_2_alg».proof.Proof.Bits.BodyRuns
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
/-!
# The second kernel region: one tile of the result per point

Each of the 8 points multiplies the whole small matrix (fetched once, kept in place) by one tile of `x` and
stores the 128 × 4096 product, which is written back at every point. Nothing is carried between points.
-/

section Region1

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The proof data of the second kernel on core `c`: the inputs' buffers at their blocks, the output's at the
    product of the two. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => k1_pay1 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = k1_pay1 (iblk1 V c 0 t) (iblk1 V c 1 t) := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

set_option maxHeartbeats 2000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (body1 c Set.univ (grid1.coords t) _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation1 (c : Dev nD) : BodyObligation (dat1 (F := F) V c) (defs₀ (F := F)) Variants.none () Set.univ := fun t => by
  rw [bigSep_W1, bigSep_W1]
  exact sound_body1 V c t

end Region1

end Cert.Kernel.Hand

end
-- ==== Proof.Bits.Fold.lean ====
import proofs.«169214_j4466765988635_2_alg».proof.Proof.Bits.Region0
import proofs.«169214_j4466765988635_2_alg».proof.Proof.Bits.Region1

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
/-!
# The buffers' contents at each boundary of the program

The program is: the first kernel region, 25 host operations, the second kernel region. On core `c` the
unscoped buffers hold, in turn: the launch contents; then those with the first region's arrays at what its
write-backs leave; then what the host operations compute from that; then that with the second region's
arrays at what its write-backs leave.
-/

section Fold

variable (m : (ℓ : Loc nD τ sig) → Buf (Elt F) ℓ)

/-- Core `c`'s buffers at launch (the first region's entry). -/
abbrev W0 : Dev nD → Valuation τ sig (Elt F) := fun c b => m ((c : Dev nD), b)
/-- The same read at the TensorCore's references. -/
abbrev V0 : (c : Dev nD) → (b : Ref sig .tc) → Buf (Elt F) ((c : Thread nD τ).loc b) := fun c b => W0 m c b
/-- At the first region's exit: its arrays at what the pipeline leaves, every other buffer as entered. -/
def W1 (c : Dev nD) : Valuation τ sig (Elt F) :=
  Pipeline.withArrays spec0 c (W0 m c) fun w => (dat0 (V0 m) c).arrAt w cfg0.N
theorem W1_arr (c : Dev nD) (w : Fin cfg0.W) :
    W1 m c (Proc.devRef .tc (Pipeline.arrRef spec0 w)) = (dat0 (V0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev V1 : (c : Dev nD) → (b : Ref sig .tc) → Buf (Elt F) ((c : Thread nD τ).loc b) := fun c b => W1 m c b
theorem hF0 (c : Dev nD) (w : Fin cfg0.W) : (dat0 (V0 m) c).arrAt w cfg0.N = V1 m c (Pipeline.arrRef spec0 w) :=
  (W1_arr m c w).symm
theorem hrest0 (c : Dev nD) : ∀ b, b ∉ Finset.univ.image (Pipeline.arrRef spec0) → V1 m c b = V0 m c b :=
  fun b hb => W1_of_ne m c b fun w e => hb (Finset.mem_image.mpr ⟨w, Finset.mem_univ _, e⟩)

/-- After the host operations (the second region's entry). -/
abbrev W2 : Dev nD → Valuation τ sig (Elt F) := fun c => StableHlo.after hostOps1 (W1 m c)
abbrev V2 : (c : Dev nD) → (b : Ref sig .tc) → Buf (Elt F) ((c : Thread nD τ).loc b) := fun c b => W2 m c b
/-- At the second region's exit. -/
def W3 (c : Dev nD) : Valuation τ sig (Elt F) :=
  Pipeline.withArrays spec1 c (W2 m c) fun w => (dat1 (V2 m) c).arrAt w cfg1.N
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev V3 : (c : Dev nD) → (b : Ref sig .tc) → Buf (Elt F) ((c : Thread nD τ).loc b) := fun c b => W3 m c b
theorem hF1 (c : Dev nD) (w : Fin cfg1.W) : (dat1 (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)

end Fold

end Cert.Kernel.Hand

end
-- ==== Proof.Bits.Run.lean ====
import proofs.«169214_j4466765988635_2_alg».proof.Proof.Bits.Oblig0
import proofs.«169214_j4466765988635_2_alg».proof.Proof.Bits.Fold

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
/-!
# The run of the whole program

The program is three segments: the first kernel region, the 25 host operations, the second kernel region. Between
segments a core holds every unscoped buffer whole at the boundary's contents (`W0` … `W3`), beside its generator
register at some state and nothing owed. The first region's invariant is not constant (it carries the running sums),
so it is entered and left through the two entailments that open and close it; the second region's is the constant one.
At the end every unscoped buffer is read off the final state at `W3`.
-/

section Run

variable (m : (ℓ : Loc nD τ sig) → Buf (Elt F) ℓ) (ρ : Dev nD → PrngReg)

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V0 m) c
  | ⟨1, _⟩ => fun c => dat1 (V2 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its
    `owes`, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No operation of the host stretch allocates a buffer. -/
theorem hostOps1_fresh : (hostOps1 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents, the generator
    register at some state. -/
abbrev Tₙ (c : Dev nD) : sProp 𝕄 := iprop(StableHlo.held (c : Thread nD τ) (Pipeline.ucRefs τ sig) (W3 m c) ∗ ∃ r, prngReg c r)

/-! ## The regions as segments -/

set_option backward.isDefEq.respectTransparency.types false in
/-- The first region over the thread state: entered from every unscoped buffer at `W0`, left at `W1`. Its arrays
    split out of the unscoped buffers and put back at the exit contents; the generator register and the scoped rest
    into the invariant before the first point (`hin0`) and out of the one after the last (`hout0`). -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (V0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = (dat0 (V0 m) c).Φ 0 from rfl]
    refine .trans ?_ (hin0 (V0 m) c)
    unfold Pipeline.ΦA
    iintro ⟨Hp, -, Hr⟩
    isplitl [Hr]; · iexact Hr
    iexact Hp
  hout c := by
    rw [Pipeline.ownSems0_none, show (pdats m 0 c).Φ (Fin.last _) = (dat0 (V0 m) c).Φ (Fin.last cfg0.N) from rfl]
    refine (hout0 (V0 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V0 m c) (V1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region over the thread state: entered from every unscoped buffer at `W2`, left at `W3` (what the
    launch reads at the end). Its invariant is the constant one: the generator register and the scoped rest, in and out. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

/-- The program's 3 segments in order: the first region, the host stretch from its exit contents, the second region. -/
abbrev segs : List (Pipeline.Seg (pcfgs (F := F)) adm (pdats m) () defs₀ 𝒱₀ L lv) :=
  [ .region (reg0 m),
    .host (hseg hostOps1 hostOps1_sub hostOps1_fresh (W1 m)),
    .region (reg1 m) ]
/-- The program is the run of the segments. -/
theorem main_run (c : Dev nD) : main (F := F) c = Pipeline.Seg.run (segs m) := (main_chain c).trans (by chain_rfl)

set_option backward.isDefEq.respectTransparency.types false in
/-- From any memory with zero counters, every weakly fair execution of the program on the TensorCores terminates,
    nothing faulting, and in every final state each unscoped buffer of each core holds the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c => h c)

end Run

end Cert.Kernel.Hand

end
-- ==== Proof.Bits.FrameOf.lean ====
import proofs.«169214_j4466765988635_2_alg».proof.Proof.Bits.Fold
import proofs.«169214_j4466765988635_2_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
/-!
# The arguments end as launched

Neither region writes an argument array (each only reads it through an input window, or not at all) and no
host operation writes one, so the fold of the buffers' contents read at an argument walks back to the launch.
-/

section FrameOf

variable (m : (ℓ : Loc nD τ sig) → Buf (Elt F) ℓ) (ρ : Dev nD → PrngReg)

/-- A buffer no host operation between the regions writes keeps its contents across them. -/
theorem mid_keeps (Vv : Valuation τ sig (Elt F)) (r : Ref sig .tc) (h : r ∉ hostOps1_W) :
    StableHlo.after hostOps1 Vv (Proc.devRef .tc r) = Vv (Proc.devRef .tc r) :=
  StableHlo.after_of_writes_sub hostOps1 _ hostOps1_writes h

theorem W3_main_arg0 (c : Dev nD) : W3 m c (Proc.devRef .tc main_arg0) = m ((c : Thread nD τ).loc main_arg0) :=
  calc W3 m c (Proc.devRef .tc main_arg0)
    _ = (dat1 (V2 m) c).arrAt 1 cfg1.N := W3_arr m c 1
    _ = V2 m c main_arg0 := ((dat1 (V2 m) c).arrAt_in 1 rfl _).trans (A_eq1 (V2 m) c 1)
    _ = W1 m c (Proc.devRef .tc main_arg0) := mid_keeps (W1 m c) main_arg0 (by decide)
    _ = (dat0 (V0 m) c).arrAt 1 cfg0.N := W1_arr m c 1
    _ = V0 m c main_arg0 := ((dat0 (V0 m) c).arrAt_in 1 rfl _).trans (A_eq0 (V0 m) c 1)
    _ = m ((c : Thread nD τ).loc main_arg0) := rfl

theorem W3_main_arg1 (c : Dev nD) : W3 m c (Proc.devRef .tc main_arg1) = m ((c : Thread nD τ).loc main_arg1) :=
  calc W3 m c (Proc.devRef .tc main_arg1)
    _ = W2 m c (Proc.devRef .tc main_arg1) := W3_of_ne m c main_arg1 (by decide)
    _ = W1 m c (Proc.devRef .tc main_arg1) := mid_keeps (W1 m c) main_arg1 (by decide)
    _ = (dat0 (V0 m) c).arrAt 0 cfg0.N := W1_arr m c 0
    _ = V0 m c main_arg1 := ((dat0 (V0 m) c).arrAt_in 0 rfl _).trans (A_eq0 (V0 m) c 0)
    _ = m ((c : Thread nD τ).loc main_arg1) := rfl

/-- The frame claim's post from the run's: both arguments as launched. -/
theorem frame_of_run
    (h : θ_run defs (onTc (τ := τ) (main (F := F))) ⟨m, fun _ => 0, ρ⟩ (fun r => ∀ c : Dev nD, ∀ b ∈ Pipeline.ucRefs τ sig, r.2.mem (((c : Thread nD τ)).1, b) = W3 m c b)) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (Finset.mem_filter.mpr ⟨StableHlo.devRef_mem_tcRefs main_arg0, by decide⟩)).trans (W3_main_arg0 m c),
     (h c _ (Finset.mem_filter.mpr ⟨StableHlo.devRef_mem_tcRefs main_arg1, by decide⟩)).trans (W3_main_arg1 m c)⟩) h

end FrameOf

end Cert.Kernel.Hand

end
-- ==== Proof.Spec.lean ====
import Idealize.ShloMosaic.PureOps.Ideal
import Idealize.ShloMosaic.Lib.ValueIdx

/-!
# Centred projection: the two arrangements of one function

With `Ψ` a 128 × 32768 matrix and `x` a 512 × 32768 matrix, both programs compute
`out = (Ψ_c · xᵀ) · x`, where `Ψ_c` is `Ψ` with each row's mean subtracted.

* The reference centres first: `Ψ_c(p, j) = Ψ(p, j) − (Σ_j' Ψ(p, j')) / 32768`, then contracts over the
  32768 columns, then over the 512 features.
* The kernel never centres `Ψ`: it streams the columns in 8 tiles of 4096, the first four tiles on one
  core and the last four on the other, each core keeping three running sums from zero — the raw products
  `Σ_k Ψ(p, k)·x(d, k)`, the row sums of `Ψ` and the row sums of `x` —, adds the two cores' partial sums,
  and uses `Σ_j (Ψ(p, j) − μ_p)·x(d, j) = Σ_j Ψ(p, j)·x(d, j) − μ_p · Σ_j x(d, j)`.

Here both arrangements are stated index by index over the extended reals.
-/

noncomputable section

namespace Cert.Hand.Spec

open Idealize.ShloMosaic Idealize.ShloMosaic.ValueIdx
open scoped BigOperators

/-- The shape of `x`: 512 features by 32768 columns. -/
abbrev SX : Shape := ⟨2, ![512, 32768]⟩
/-- The shape of `Ψ` and of the result: 128 rows by 32768 columns. -/
abbrev SP : Shape := ⟨2, ![128, 32768]⟩

/-- The number of columns as both programs spell it: the f32 word of 32768.0. -/
def cols : EReal := Ideal.ofBits .f32 0x47000000#32
/-- The f32 word of 0.0, from which every running sum starts. -/
def zero : EReal := Ideal.ofBits .f32 0x00000000#32

/-- Column `k` of tile `b`: tiles are 4096 consecutive columns. -/
def col (b : Fin 8) (k : Fin 4096) : Fin 32768 := ⟨b.val * 4096 + k.val, by omega⟩

/-- One tile's share of `Σ_j Ψ(p, j)·x(d, j)`. -/
def tileDot (Psi : SP.Idx → EReal) (x : SX.Idx → EReal) (p : Fin 128) (d : Fin 512) (b : Fin 8) : EReal :=
  ∑ k : Fin 4096, Psi (ix2 p (col b k)) * x (ix2 d (col b k))
/-- One tile's share of the row sum `Σ_j Ψ(p, j)`. -/
def tilePsi (Psi : SP.Idx → EReal) (p : Fin 128) (b : Fin 8) : EReal :=
  ∑ k : Fin 4096, Psi (ix2 p (col b k))
/-- One tile's share of the row sum `Σ_j x(d, j)`. -/
def tileX (x : SX.Idx → EReal) (d : Fin 512) (b : Fin 8) : EReal :=
  ∑ k : Fin 4096, x (ix2 d (col b k))

/-- The first core's running sum over tiles 0–3, from zero, in the order it is accumulated. -/
def core0 (f : Fin 8 → EReal) : EReal := (((zero + f 0) + f 1) + f 2) + f 3
/-- The second core's running sum over tiles 4–7. -/
def core1 (f : Fin 8 → EReal) : EReal := (((zero + f 4) + f 5) + f 6) + f 7

/-- The kernel's small matrix `Ψ_c · xᵀ` at (p, d): the two cores' raw products added, less the row mean of
    `Ψ` times the row sum of `x`. -/
def pxt (Psi : SP.Idx → EReal) (x : SX.Idx → EReal) (p : Fin 128) (d : Fin 512) : EReal :=
  (core0 (tileDot Psi x p d) + core1 (tileDot Psi x p d))
    - Ideal.div (core0 (tilePsi Psi p) + core1 (tilePsi Psi p)) cols * (core0 (tileX x d) + core1 (tileX x d))

/-- The kernel's result at (p, n). -/
def kOutAt (Psi : SP.Idx → EReal) (x : SX.Idx → EReal) (p : Fin 128) (n : Fin 32768) : EReal :=
  ∑ d : Fin 512, pxt Psi x p d * x (ix2 d n)

/-- The reference's centred matrix at (p, j). -/
def centred (Psi : SP.Idx → EReal) (p : Fin 128) (j : Fin 32768) : EReal :=
  Psi (ix2 p j) - Ideal.div (zero + ∑ j' : Fin 32768, Psi (ix2 p j')) cols

/-- The reference's result at (p, n). -/
def rOutAt (Psi : SP.Idx → EReal) (x : SX.Idx → EReal) (p : Fin 128) (n : Fin 32768) : EReal :=
  ∑ d : Fin 512, (∑ j : Fin 32768, centred Psi p j * x (ix2 d j)) * x (ix2 d n)

/-- The result as one array: the reference's arrangement, which is what both programs are shown to end with. -/
def G (Psi : SP.Idx → EReal) (x : SX.Idx → EReal) : SP.Idx → EReal :=
  fun j => rOutAt Psi x (j 0) (j 1)

theorem G_apply (Psi : SP.Idx → EReal) (x : SX.Idx → EReal) (p : Fin 128) (n : Fin 32768) :
    G Psi x (ix2 p n) = rOutAt Psi x p n := rfl

end Cert.Hand.Spec

end
-- ==== Proof.LibGram.lean ====
/-
  A matrix times the transpose of a matrix, read at an index, at the ideal values: for the dimension numbers
  "contract the left operand's axis 1 with the right operand's axis 1, no batch axis" — the record a product
  A · Bᵀ of an m × k and an n × k matrix prints — the matrix unit's product into a zero accumulator and the
  host's `dot_general` are both, at (a, b), the sum over c of A (a, c) * B (b, c). With B = A it is the Gram
  matrix of the rows of A.
-/
import Idealize.ShloMosaic.Lib.ValueIdx
import Idealize.ShloMosaic.PureOps.Ideal.Laws

noncomputable section

namespace Cert.LibGram

open Idealize.ShloMosaic Idealize.ShloMosaic.ValueIdx
open scoped BigOperators

variable {m k n : Nat} {φ₁ φ₂ : FTy}

/-- The record: both contracting axes are axis 1, the kept axes are each operand's axis 0, no batch axis. -/
abbrev dims (w : DotDims.WF ⟨2, ![m, k]⟩ ⟨2, ![n, k]⟩ ⟨2, ![m, n]⟩ [1] [1] [0] [0] [] []) :
    DotDims ⟨2, ![m, k]⟩ ⟨2, ![n, k]⟩ ⟨2, ![m, n]⟩ := ⟨[1], [1], [0], [0], [], [], w⟩

theorem lhsIdx_eq (w : DotDims.WF ⟨2, ![m, k]⟩ ⟨2, ![n, k]⟩ ⟨2, ![m, n]⟩ [1] [1] [0] [0] [] [])
    (a : Fin m) (b : Fin n) (c : Fin k) :
    (dims w).lhsIdx (ix2 a b) ((contrEquiv1 (dims w) k rfl rfl).symm c) = ix2 a c := by
  have c2 := contrEquiv1_symm_val (dims w) k rfl rfl c
  funext ax; apply Fin.ext
  match ax with
  | ⟨0, _⟩ => simp [DotDims.lhsIdx]; rfl
  | ⟨1, _⟩ => simp [DotDims.lhsIdx]; exact c2

theorem rhsIdx_eq (w : DotDims.WF ⟨2, ![m, k]⟩ ⟨2, ![n, k]⟩ ⟨2, ![m, n]⟩ [1] [1] [0] [0] [] [])
    (a : Fin m) (b : Fin n) (c : Fin k) :
    (dims w).rhsIdx (ix2 a b) ((contrEquiv1 (dims w) k rfl rfl).symm c) = ix2 b c := by
  have c2 := contrEquiv1_symm_val (dims w) k rfl rfl c
  funext ax; apply Fin.ext
  match ax with
  | ⟨0, _⟩ => simp [DotDims.rhsIdx]; rfl
  | ⟨1, _⟩ => simp [DotDims.rhsIdx]; exact c2

/-- The matrix unit's product A · Bᵀ into a zero accumulator at (a, b): the sum over the shared column index. -/
theorem matmul_zero_apply (w : DotDims.WF ⟨2, ![m, k]⟩ ⟨2, ![n, k]⟩ ⟨2, ![m, n]⟩ [1] [1] [0] [0] [] [])
    (prec : Option ContractPrecision) (A : FVec Ideal ⟨2, ![m, k]⟩ φ₁) (B : FVec Ideal ⟨2, ![n, k]⟩ φ₂)
    (a : Fin m) (b : Fin n) :
    matmul (dims w) prec A B (constant ⟨2, ![m, n]⟩ .f32 0x00000000#32) (ix2 a b) = ∑ c : Fin k, A (ix2 a c) * B (ix2 b c) := by
  show FloatOps.matmul _ prec A B _ (ix2 a b) = _
  rw [Ideal.matmul_constant_zero_apply, ← Equiv.sum_comp (contrEquiv1 (dims w) k rfl rfl).symm]
  refine Finset.sum_congr rfl fun c _ => ?_
  rw [lhsIdx_eq, rhsIdx_eq]

/-- The host's product A · Bᵀ at (a, b): the same sum. -/
theorem dotGeneral_apply (w : DotDims.WF ⟨2, ![m, k]⟩ ⟨2, ![n, k]⟩ ⟨2, ![m, n]⟩ [1] [1] [0] [0] [] [])
    (prec : Option ContractPrecision) (A : FVec Ideal ⟨2, ![m, k]⟩ φ₁) (B : FVec Ideal ⟨2, ![n, k]⟩ φ₂)
    (a : Fin m) (b : Fin n) :
    Host.dotGeneral (dims w) prec A B (ix2 a b) = ∑ c : Fin k, A (ix2 a c) * B (ix2 b c) := by
  show FloatOps.dotGeneral _ prec _ A B (ix2 a b) = _
  rw [Ideal.dotGeneral_apply, ← Equiv.sum_comp (contrEquiv1 (dims w) k rfl rfl).symm]
  refine Finset.sum_congr rfl fun c _ => ?_
  rw [lhsIdx_eq, rhsIdx_eq]

end Cert.LibGram
-- ==== Proof.LibDot.lean ====
/-
  A plain matrix product read at an index, at the ideal values: for the dimension numbers
  "contract the left operand's axis 1 with the right operand's axis 0, no batch axis" — the record every
  `jnp.dot` / `x @ y` of two matrices prints, whatever its name — the host's `dot_general` and the kernel's
  matrix-unit product into a zero accumulator are both, at (a, b), the sum over c of A (a, c) * B (c, b).
-/
import Idealize.ShloMosaic.Lib.ValueIdx
import Idealize.ShloMosaic.PureOps.Ideal.Laws

noncomputable section

namespace Cert.LibDot

open Idealize.ShloMosaic Idealize.ShloMosaic.ValueIdx
open scoped BigOperators

variable {m k n : Nat} {φ₁ φ₂ : FTy}

/-- The record: left contracting axis 1, right contracting axis 0, kept axes 0 and 1, no batch axis. -/
abbrev dims (w : DotDims.WF ⟨2, ![m, k]⟩ ⟨2, ![k, n]⟩ ⟨2, ![m, n]⟩ [1] [0] [0] [1] [] []) :
    DotDims ⟨2, ![m, k]⟩ ⟨2, ![k, n]⟩ ⟨2, ![m, n]⟩ := ⟨[1], [0], [0], [1], [], [], w⟩

theorem lhsIdx_eq (w : DotDims.WF ⟨2, ![m, k]⟩ ⟨2, ![k, n]⟩ ⟨2, ![m, n]⟩ [1] [0] [0] [1] [] [])
    (a : Fin m) (b : Fin n) (c : Fin k) :
    (dims w).lhsIdx (ix2 a b) ((contrEquiv1 (dims w) k rfl rfl).symm c) = ix2 a c := by
  have c2 := contrEquiv1_symm_val (dims w) k rfl rfl c
  funext ax; apply Fin.ext
  match ax with
  | ⟨0, _⟩ => simp [DotDims.lhsIdx]; rfl
  | ⟨1, _⟩ => simp [DotDims.lhsIdx]; exact c2

theorem rhsIdx_eq (w : DotDims.WF ⟨2, ![m, k]⟩ ⟨2, ![k, n]⟩ ⟨2, ![m, n]⟩ [1] [0] [0] [1] [] [])
    (a : Fin m) (b : Fin n) (c : Fin k) :
    (dims w).rhsIdx (ix2 a b) ((contrEquiv1 (dims w) k rfl rfl).symm c) = ix2 c b := by
  have c2 := contrEquiv1_symm_val (dims w) k rfl rfl c
  funext ax; apply Fin.ext
  match ax with
  | ⟨0, _⟩ => simp [DotDims.rhsIdx]; exact c2
  | ⟨1, _⟩ => simp [DotDims.rhsIdx]; rfl

/-- The host's product of two matrices at (a, b): the sum over the contracted coordinate. -/
theorem dotGeneral_apply (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    Host.dotGeneral (dims w) prec A B (ix2 a b) = ∑ c : Fin k, A (ix2 a c) * B (ix2 c b) := by
  show FloatOps.dotGeneral _ prec _ A B (ix2 a b) = _
  rw [Ideal.dotGeneral_apply, ← Equiv.sum_comp (contrEquiv1 (dims w) k rfl rfl).symm]
  refine Finset.sum_congr rfl fun c _ => ?_
  rw [lhsIdx_eq, rhsIdx_eq]

/-- The matrix unit's product into a zero accumulator at (a, b): the same sum. -/
theorem matmul_zero_apply (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    matmul (dims w) prec A B (constant ⟨2, ![m, n]⟩ .f32 0x00000000#32) (ix2 a b) = ∑ c : Fin k, A (ix2 a c) * B (ix2 c b) := by
  show FloatOps.matmul _ prec A B _ (ix2 a b) = _
  rw [Ideal.matmul_constant_zero_apply, ← Equiv.sum_comp (contrEquiv1 (dims w) k rfl rfl).symm]
  refine Finset.sum_congr rfl fun c _ => ?_
  rw [lhsIdx_eq, rhsIdx_eq]

end Cert.LibDot
-- ==== Proof.LibRowReduce.lean ====
/-
  Reductions along the rows of a matrix, at the ideal values: a reduction over axis 1 of an a × b array, read
  at row p. A maximum that starts from negative infinity is the supremum of the row's entries (the order of
  folding does not matter and the start is the least element); a sum that starts from zero is the sum of the
  row's entries. For any extents.
-/
import Idealize.ShloMosaic.PureOps.Ideal.Laws
import Idealize.ShloMosaic.Lib.ValueIdx

noncomputable section

namespace Cert.LibRowReduce

open Idealize.ShloMosaic Idealize.ShloMosaic.ValueIdx
open scoped BigOperators

/-- The f32 word of negative infinity denotes the least extended real. -/
theorem ofBits_neg_inf : Ideal.ofBits .f32 0xFF800000#32 = (⊥ : EReal) := by simp [Ideal.ofBits, Ideal.ieee]

/-- The coordinate inserted on axis 1 of a row index. -/
theorem lift_row {a b : Nat} (h : (⟨2, ![a, b]⟩ : Shape).Reduces [1] ⟨1, ![a]⟩) (p : Fin a) (k : Fin b) :
    h.lift (ix1 p) k = ix2 p k := by
  funext c; apply Fin.ext
  match c with
  | ⟨0, _⟩ => rfl
  | ⟨1, _⟩ => rfl

/-- The maximum of each row from negative infinity, at row p: the supremum over the columns. -/
theorem rowMax_apply {a b : Nat} (y : FVec Ideal ⟨2, ![a, b]⟩ .f32)
    (h : (⟨2, ![a, b]⟩ : Shape).Reduces [1] ⟨1, ![a]⟩) (hφ : FKind.Formats .f32)
    (hacc : (0xFF800000#32 : BitVec 32) = FKind.maximumf.neutral .f32 hφ) (p : Fin a) :
    multiReduction .maximumf [1] ⟨1, ![a]⟩ y 0xFF800000#32 h hφ hacc (ix1 p)
      = (Finset.univ : Finset (Fin b)).sup fun k => y (ix2 p k) := by
  refine (Ideal.multiReduction_maximumf_single y _ h hφ hacc (ix1 p)).trans ?_
  rw [show FloatOps.ofBits (F := Ideal) .f32 0xFF800000#32 = (⊥ : EReal) from ofBits_neg_inf]
  exact Finset.sup_congr rfl fun k _ => congrArg y (lift_row h p k)

/-- The sum of each row from zero, at row p: the sum over the columns. -/
theorem rowSum_apply {a b : Nat} (y : FVec Ideal ⟨2, ![a, b]⟩ .f32)
    (h : (⟨2, ![a, b]⟩ : Shape).Reduces [1] ⟨1, ![a]⟩) (hφ : FKind.Formats .f32)
    (hacc : (0x00000000#32 : BitVec 32) = FKind.add.neutral .f32 hφ) (p : Fin a) :
    multiReduction .add [1] ⟨1, ![a]⟩ y 0x00000000#32 h hφ hacc (ix1 p)
      = ∑ k : Fin b, y (ix2 p k) := by
  refine (Ideal.multiReduction_add_single y _ h hφ hacc (ix1 p)).trans ?_
  exact Finset.sum_congr rfl fun k _ => congrArg y (lift_row h p k)

end Cert.LibRowReduce
-- ==== Proof.LibKeepdims.lean ====
/-
  A reduction over the last axis that keeps its dimension: the vector of row results, length a, is viewed as a
  column [a, 1] and the column is then spread over b columns, [a, 1] to [a, b]. Read at (p, c) the result is the
  row result of row p, whatever the column c. Stated for any element type and any extents.
-/
import Idealize.ShloMosaic.Lib.ValueLayout

namespace Idealize.ShloMosaic.ValueIdx

open Idealize.ShloMosaic

variable {α : Type}

/-- An `[a]` array cast to a column `[a, 1]` reads, at `(i, u)`, the operand at `i`, whatever the unit coordinate `u`:
    the row-major position of `(i, u)` in a one-column array is `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The two together: a length-`a` vector as a column spread over `b` columns reads, at `(p, c)`, entry `p`. -/
theorem broadcastTo_shapeCast_column_apply {a b : ℕ} (x : (⟨1, ![a]⟩ : Shape).Idx → α)
    (hc : (⟨1, ![a]⟩ : Shape).ShapeCasts ⟨2, ![a, 1]⟩) (hb : (⟨2, ![a, 1]⟩ : Shape).Broadcasts ⟨2, ![a, b]⟩)
    (p : Fin a) (c : Fin b) :
    broadcastTo ⟨2, ![a, b]⟩ (shapeCast ⟨2, ![a, 1]⟩ x hc) hb (ix2 p c) = x (ix1 p) :=
  (broadcastTo_a1_ab_apply _ hb p c).trans (shapeCast_a_a1_apply x hc p 0)

end Idealize.ShloMosaic.ValueIdx
-- ==== Proof.PayAt.lean ====
import proofs.«169214_j4466765988635_2_alg».proof.Proof.Gen.KernelIdeal.Skeleton
import proofs.«169214_j4466765988635_2_alg».proof.Proof.Spec
import proofs.«169214_j4466765988635_2_alg».proof.Proof.LibGram
import proofs.«169214_j4466765988635_2_alg».proof.Proof.LibDot
import proofs.«169214_j4466765988635_2_alg».proof.Proof.LibRowReduce
import proofs.«169214_j4466765988635_2_alg».proof.Proof.LibKeepdims
import Idealize.ShloMosaic.Lib.ValueIdx
import Idealize.ShloMosaic.Lib.Pipeline.Value
import Idealize.ShloMosaic.Lib.ValueLayout
import Idealize.ShloMosaic.PureOps.Ideal.Laws

/-!
# The kernel's arithmetic read at an index

Each value a body of the kernel stores is a pure term of the values it loaded. Over the extended reals
every such term is read here at one index: a rounding to a narrower format is the identity, a matrix
product into a zero accumulator is a finite sum of products, a row reduction from zero is the row's sum,
and reshapes, transposes and broadcasts only rename the index.
-/

noncomputable section

namespace Cert.KernelIdeal.HandValue

open Cert.KernelIdeal Cert.KernelIdeal.Gen Idealize.ShloMosaic Idealize.ShloMosaic.ValueIdx
open scoped BigOperators

/-- The second body's stored tile at (p, q): the product of the small matrix with the tile of `x`,
    a sum over the 512 features. -/
theorem k1_pay1_apply (v0 : Vec Ideal S128x512 .bf16) (v2 : Vec Ideal S512x4096 .f32) (p : Fin 128) (q : Fin 4096) :
    k1_pay1 (F := Ideal) v0 v2 (ix2 p q) = ∑ d : Fin 512, v0 (ix2 p d) * v2 (ix2 d q) := by
  unfold k1_pay1
  rw [shapeCast_self]
  exact Cert.LibDot.matmul_zero_apply Facts₀.dot_S128x512_S512x4096_S128x4096_1_0_0_1_n_n_wf none v0 _ p q

/-- The running product's next value at (p, q): the value before plus the tile's share, a sum over the
    tile's 4096 columns of `Ψ(p, k) · x(q, k)`. -/
theorem k0_pay9_apply (x0 : Vec Ideal S128x4096 .f32) (x1 : Vec Ideal S512x4096 .f32) (a : Vec Ideal S128x512 .f32)
    (p : Fin 128) (q : Fin 512) :
    k0_pay9 (F := Ideal) x0 x1 a (ix2 p q) = a (ix2 p q) + ∑ k : Fin 4096, x0 (ix2 p k) * x1 (ix2 q k) := by
  unfold k0_pay9
  rw [shapeCast_self]
  refine (addf_apply _ _ _).trans ?_
  exact congrArg (a (ix2 p q) + ·)
    (Cert.LibGram.matmul_zero_apply Facts₀.dot_S128x4096_S512x4096_S128x512_1_1_0_0_n_n_wf none _ _ p q)

/-- The running row sum of `Ψ`'s tile at row p, kept as a 1 × 128 row. -/
theorem k0_pay7_apply (x0 : Vec Ideal S128x4096 .f32) (a8 : Vec Ideal S1x128 .f32) (p : Fin 128) :
    k0_pay7 (F := Ideal) x0 a8 (ix2 0 p) = a8 (ix2 0 p) + ∑ k : Fin 4096, x0 (ix2 p k) := by
  unfold k0_pay7
  rw [shapeCast_self]
  refine (addf_apply _ _ _).trans ?_
  refine congrArg (a8 (ix2 0 p) + ·) ?_
  refine (transpose_ix2_apply _ _ (0 : Fin 1) p).trans ?_
  refine (shapeCast_a_a1_apply _ _ p 0).trans ?_
  exact Cert.LibRowReduce.rowSum_apply x0 _ _ _ p

/-- The running row sum of `x`'s tile at row q, kept as a 1 × 512 row. -/
theorem k0_pay8_apply (x1 : Vec Ideal S512x4096 .f32) (a9 : Vec Ideal S1x512 .f32) (q : Fin 512) :
    k0_pay8 (F := Ideal) x1 a9 (ix2 0 q) = a9 (ix2 0 q) + ∑ k : Fin 4096, x1 (ix2 q k) := by
  unfold k0_pay8
  rw [shapeCast_self]
  refine (addf_apply _ _ _).trans ?_
  refine congrArg (a9 (ix2 0 q) + ·) ?_
  refine (transpose_ix2_apply _ _ (0 : Fin 1) q).trans ?_
  refine (shapeCast_a_a1_apply _ _ q 0).trans ?_
  exact Cert.LibRowReduce.rowSum_apply x1 _ _ _ q

/-- The running product starts from the zero word at every index. -/
theorem k0_pay4_apply (j : S128x512.Idx) : k0_pay4 (F := Ideal) j = Cert.Hand.Spec.zero := by
  unfold k0_pay4
  rw [shapeCast_self]
  rfl

/-- The running row sum of `Ψ` starts from the zero word at every index. -/
theorem k0_pay5_apply (j : S1x128.Idx) : k0_pay5 (F := Ideal) j = Cert.Hand.Spec.zero := by
  unfold k0_pay5
  rw [shapeCast_self]
  rfl

/-- The running row sum of `x` starts from the zero word at every index. -/
theorem k0_pay6_apply (j : S1x512.Idx) : k0_pay6 (F := Ideal) j = Cert.Hand.Spec.zero := by
  unfold k0_pay6
  rw [shapeCast_self]
  rfl

/-- The stored slab of the product: a leading unit axis is added, the entries are unchanged. -/
theorem k0_pay1_apply (v : Vec Ideal S128x512 .f32) (s : Fin 1) (p : Fin 128) (q : Fin 512) :
    k0_pay1 (F := Ideal) v (ix3 s p q) = v (ix2 p q) := by
  unfold k0_pay1
  exact shapeCast_ab_1ab_apply v _ s p q

/-- The stored slab of `Ψ`'s row sums: a leading unit axis is added to the 1 × 128 row. -/
theorem k0_pay2_apply (v : Vec Ideal S1x128 .f32) (s t : Fin 1) (p : Fin 128) :
    k0_pay2 (F := Ideal) v (ix3 s t p) = v (ix2 0 p) := by
  unfold k0_pay2
  refine (shapeCast_ab_1ab_apply v _ s t p).trans ?_
  have ht : t = 0 := Subsingleton.elim _ _
  rw [ht]

/-- The stored slab of `x`'s row sums: a leading unit axis is added to the 1 × 512 row. -/
theorem k0_pay3_apply (v : Vec Ideal S1x512 .f32) (s t : Fin 1) (q : Fin 512) :
    k0_pay3 (F := Ideal) v (ix3 s t q) = v (ix2 0 q) := by
  unfold k0_pay3
  refine (shapeCast_ab_1ab_apply v _ s t q).trans ?_
  have ht : t = 0 := Subsingleton.elim _ _
  rw [ht]

end Cert.KernelIdeal.HandValue

end
-- ==== Proof.Blocks.lean ====
import proofs.«169214_j4466765988635_2_alg».proof.Proof.Gen.KernelIdeal.Launch
import proofs.«169214_j4466765988635_2_alg».proof.Proof.Gen.KernelIdeal.Points
import Idealize.ShloMosaic.Lib.Pipeline.FrameBody
import Idealize.ShloMosaic.Lib.Pipeline.Value
import Idealize.ShloMosaic.Lib.ValueIdx

set_option maxRecDepth 16384

noncomputable section

namespace Cert.KernelIdeal.Hand

open Cert.KernelIdeal Cert.KernelIdeal.Gen Idealize.ShloMosaic Idealize.ShloMosaic.TcCoe Idealize.SL.Sem
open Idealize.ShloMosaic.Pipeline (Dat)
open Idealize.ShloMosaic.ValueIdx

variable {F : FTy → Type} [FloatOps F]

/-! ## The index maps, decided once over each grid -/

/-- First grid: at point `t` both input windows sit at block (0, t) — the point's coordinates are (t / 4, t % 4) and
    the maps send them to 4·(t / 4) + t % 4 —, and each output window at block (t / 4, 0, 0). -/
theorem index_facts0 : ∀ t : Fin cfg0.N,
      win0_0.index t (0 : Fin 2) = 0 ∧ win0_0.index t (1 : Fin 2) = t.val
    ∧ win0_1.index t (0 : Fin 2) = 0 ∧ win0_1.index t (1 : Fin 2) = t.val
    ∧ win0_2.index t (0 : Fin 3) = t.val / 4 ∧ win0_2.index t (1 : Fin 3) = 0 ∧ win0_2.index t (2 : Fin 3) = 0
    ∧ win0_3.index t (0 : Fin 3) = t.val / 4 ∧ win0_3.index t (1 : Fin 3) = 0 ∧ win0_3.index t (2 : Fin 3) = 0
    ∧ win0_4.index t (0 : Fin 3) = t.val / 4 ∧ win0_4.index t (1 : Fin 3) = 0 ∧ win0_4.index t (2 : Fin 3) = 0 :=
  (by decide +kernel : ∀ t : Fin grid0.N, _)

/-- Second grid: at point `t` the small matrix's window is the whole array, and the `x` window and the output window sit
    at block (0, t). -/
theorem index_facts1 : ∀ t : Fin cfg1.N,
      win1_0.index t (0 : Fin 2) = 0 ∧ win1_0.index t (1 : Fin 2) = 0
    ∧ win1_1.index t (0 : Fin 2) = 0 ∧ win1_1.index t (1 : Fin 2) = t.val
    ∧ win1_2.index t (0 : Fin 2) = 0 ∧ win1_2.index t (1 : Fin 2) = t.val :=
  (by decide +kernel : ∀ t : Fin grid1.N, _)

theorem N0 : cfg0.N = 8 := N_0
theorem N1 : cfg1.N = 8 := N_1

/-! ## Input blocks read at an index -/

/-- The `Ψ` tile at point `t` of the first grid: columns 4096·t … 4096·t + 4095. -/
theorem blk0_0_apply (A : S128x32768.Idx → Elt F .f32) (t : Fin cfg0.N) (p : Fin 128) (k : Fin 4096) :
    ((cfg0.win 0).blk t).view.read (Elt F) A (ix2 p k)
      = A (ix2 p ⟨t.val * 4096 + k.val, by have := t.isLt; have := N0; have := k.isLt; omega⟩) := by
  obtain ⟨e0, e1, -⟩ := index_facts0 t
  rw [View.read_apply]
  show A _ = A _
  congr 1
  funext a
  apply Fin.ext
  match a with
  | ⟨0, _⟩ => show win0_0.index t (0 : Fin 2) * 128 + 1 * p.val = p.val; omega
  | ⟨1, _⟩ => show win0_0.index t (1 : Fin 2) * 4096 + 1 * k.val = t.val * 4096 + k.val; omega

/-- The `x` tile at point `t` of the first grid: columns 4096·t … 4096·t + 4095. -/
theorem blk0_1_apply (A : S512x32768.Idx → Elt F .f32) (t : Fin cfg0.N) (d : Fin 512) (k : Fin 4096) :
    ((cfg0.win 1).blk t).view.read (Elt F) A (ix2 d k)
      = A (ix2 d ⟨t.val * 4096 + k.val, by have := t.isLt; have := N0; have := k.isLt; omega⟩) := by
  obtain ⟨-, -, e0, e1, -⟩ := index_facts0 t
  rw [View.read_apply]
  show A _ = A _
  congr 1
  funext a
  apply Fin.ext
  match a with
  | ⟨0, _⟩ => show win0_1.index t (0 : Fin 2) * 512 + 1 * d.val = d.val; omega
  | ⟨1, _⟩ => show win0_1.index t (1 : Fin 2) * 4096 + 1 * k.val = t.val * 4096 + k.val; omega

/-- The small matrix's window of the second grid is the whole array at every point. -/
theorem blk1_0_apply (A : S128x512.Idx → Elt F .bf16) (t : Fin cfg1.N) (p : Fin 128) (d : Fin 512) :
    ((cfg1.win 0).blk t).view.read (Elt F) A (ix2 p d) = A (ix2 p d) := by
  obtain ⟨e0, e1, -⟩ := index_facts1 t
  rw [View.read_apply]
  show A _ = A _
  congr 1
  funext a
  apply Fin.ext
  match a with
  | ⟨0, _⟩ => show win1_0.index t (0 : Fin 2) * 128 + 1 * p.val = p.val; omega
  | ⟨1, _⟩ => show win1_0.index t (1 : Fin 2) * 512 + 1 * d.val = d.val; omega

/-- The `x` tile at point `t` of the second grid: columns 4096·t … 4096·t + 4095. -/
theorem blk1_1_apply (A : S512x32768.Idx → Elt F .f32) (t : Fin cfg1.N) (d : Fin 512) (k : Fin 4096) :
    ((cfg1.win 1).blk t).view.read (Elt F) A (ix2 d k)
      = A (ix2 d ⟨t.val * 4096 + k.val, by have := t.isLt; have := N1; have := k.isLt; omega⟩) := by
  obtain ⟨-, -, e0, e1, -⟩ := index_facts1 t
  rw [View.read_apply]
  show A _ = A _
  congr 1
  funext a
  apply Fin.ext
  match a with
  | ⟨0, _⟩ => show win1_1.index t (0 : Fin 2) * 512 + 1 * d.val = d.val; omega
  | ⟨1, _⟩ => show win1_1.index t (1 : Fin 2) * 4096 + 1 * k.val = t.val * 4096 + k.val; omega

/-! ## Output blocks read at an index -/

/-- The output tile at point `t` of the second grid: columns 4096·t … 4096·t + 4095. -/
theorem blk1_2_apply (A : S128x32768.Idx → Elt F .f32) (t : Fin cfg1.N) (p : Fin 128) (k : Fin 4096) :
    ((cfg1.win 2).blk t).view.read (Elt F) A (ix2 p k)
      = A (ix2 p ⟨t.val * 4096 + k.val, by have := t.isLt; have := N1; have := k.isLt; omega⟩) := by
  obtain ⟨-, -, -, -, e0, e1⟩ := index_facts1 t
  rw [View.read_apply]
  show A _ = A _
  congr 1
  funext a
  apply Fin.ext
  match a with
  | ⟨0, _⟩ => show win1_2.index t (0 : Fin 2) * 128 + 1 * p.val = p.val; omega
  | ⟨1, _⟩ => show win1_2.index t (1 : Fin 2) * 4096 + 1 * k.val = t.val * 4096 + k.val; omega

/-- The raw-product slab at point `t` of the first grid is slab `t / 4` (the core's). -/
theorem blk0_2_apply (A : S2x128x512.Idx → Elt F .f32) (t : Fin cfg0.N) (p : Fin 128) (q : Fin 512) :
    ((cfg0.win 2).blk t).view.read (Elt F) A (ix3 (0 : Fin 1) p q)
      = A (ix3 ⟨t.val / 4, by have := t.isLt; have := N0; omega⟩ p q) := by
  obtain ⟨-, -, -, -, e0, e1, e2, -⟩ := index_facts0 t
  rw [View.read_apply]
  show A _ = A _
  congr 1
  funext a
  apply Fin.ext
  match a with
  | ⟨0, _⟩ => show win0_2.index t (0 : Fin 3) * 1 + 1 * 0 = t.val / 4; omega
  | ⟨1, _⟩ => show win0_2.index t (1 : Fin 3) * 128 + 1 * p.val = p.val; omega
  | ⟨2, _⟩ => show win0_2.index t (2 : Fin 3) * 512 + 1 * q.val = q.val; omega

/-- The `Ψ` row-sum slab at point `t` of the first grid is slab `t / 4`. -/
theorem blk0_3_apply (A : S2x1x128.Idx → Elt F .f32) (t : Fin cfg0.N) (p : Fin 128) :
    ((cfg0.win 3).blk t).view.read (Elt F) A (ix3 (0 : Fin 1) (0 : Fin 1) p)
      = A (ix3 ⟨t.val / 4, by have := t.isLt; have := N0; omega⟩ (0 : Fin 1) p) := by
  obtain ⟨-, -, -, -, -, -, -, e0, e1, e2, -⟩ := index_facts0 t
  rw [View.read_apply]
  show A _ = A _
  congr 1
  funext a
  apply Fin.ext
  match a with
  | ⟨0, _⟩ => show win0_3.index t (0 : Fin 3) * 1 + 1 * 0 = t.val / 4; omega
  | ⟨1, _⟩ => show win0_3.index t (1 : Fin 3) * 1 + 1 * 0 = 0; omega
  | ⟨2, _⟩ => show win0_3.index t (2 : Fin 3) * 128 + 1 * p.val = p.val; omega

/-- The `x` row-sum slab at point `t` of the first grid is slab `t / 4`. -/
theorem blk0_4_apply (A : S2x1x512.Idx → Elt F .f32) (t : Fin cfg0.N) (q : Fin 512) :
    ((cfg0.win 4).blk t).view.read (Elt F) A (ix3 (0 : Fin 1) (0 : Fin 1) q)
      = A (ix3 ⟨t.val / 4, by have := t.isLt; have := N0; omega⟩ (0 : Fin 1) q) := by
  obtain ⟨-, -, -, -, -, -, -, -, -, -, e0, e1, e2⟩ := index_facts0 t
  rw [View.read_apply]
  show A _ = A _
  congr 1
  funext a
  apply Fin.ext
  match a with
  | ⟨0, _⟩ => show win0_4.index t (0 : Fin 3) * 1 + 1 * 0 = t.val / 4; omega
  | ⟨1, _⟩ => show win0_4.index t (1 : Fin 3) * 1 + 1 * 0 = 0; omega
  | ⟨2, _⟩ => show win0_4.index t (2 : Fin 3) * 512 + 1 * q.val = q.val; omega

/-! ## Input arrays are never written back -/

section Inputs
variable {c : Dev nD}

theorem arrAt0_0 (dat : Dat τ (Elt F) Unit ℕ (UR sig nD τ) ℕ cfg0 c) (n : ℕ) : dat.arrAt 0 n = dat.A 0 :=
  dat.arrAt_in 0 rfl n
theorem arrAt0_1 (dat : Dat τ (Elt F) Unit ℕ (UR sig nD τ) ℕ cfg0 c) (n : ℕ) : dat.arrAt 1 n = dat.A 1 :=
  dat.arrAt_in 1 rfl n
theorem arrAt1_0 (dat : Dat τ (Elt F) Unit ℕ (UR sig nD τ) ℕ cfg1 c) (n : ℕ) : dat.arrAt 0 n = dat.A 0 :=
  dat.arrAt_in 0 rfl n
theorem arrAt1_1 (dat : Dat τ (Elt F) Unit ℕ (UR sig nD τ) ℕ cfg1 c) (n : ℕ) : dat.arrAt 1 n = dat.A 1 :=
  dat.arrAt_in 1 rfl n

end Inputs

/-! ## Output arrays from their written-back blocks -/

section Outputs
variable {c : Dev nD}

/-! ### Second grid: the result array, one tile of 4096 columns per point -/

/-- An index of the result array is in point `t`'s block iff each coordinate is in the block's range on its axis. -/
theorem mem_blk1_2 (t : Fin cfg1.N) (i : S128x32768.Idx) :
    i ∈ ((cfg1.win 2).blk t).view.set ↔ ∀ a : Fin 2, win1_2.index t a * S128x4096.size a ≤ (i a).val
      ∧ (i a).val < win1_2.index t a * S128x4096.size a + S128x4096.size a := by
  show i ∈ ((View.whole main_v25).slice (win1_2.rect t)).set ↔ _
  rw [View.set_slice_whole, Rect.mem_set_unit]
  exact Iff.rfl

/-- Column `n` of the result array is in the block of point `n / 4096`, which writes back. -/
theorem cover1_2 (i : S128x32768.Idx) :
    ∃ t : Fin cfg1.N, (cfg1.win 2).flush t = true ∧ i ∈ ((cfg1.win 2).blk t).view.set := by
  have hi0 : (i 0).val < 128 := (i 0).isLt
  have hi1 : (i 1).val < 32768 := (i 1).isLt
  have hN := N1
  obtain ⟨t, ht⟩ : ∃ t : Fin cfg1.N, t.val = (i 1).val / 4096 := ⟨⟨(i 1).val / 4096, by omega⟩, rfl⟩
  obtain ⟨-, -, -, -, e0, e1⟩ := index_facts1 t
  refine ⟨t, flush1_2 t, ?_⟩
  rw [mem_blk1_2]
  intro a
  match a with
  | ⟨0, _⟩ => show win1_2.index t (0 : Fin 2) * 128 ≤ (i 0).val ∧ (i 0).val < win1_2.index t (0 : Fin 2) * 128 + 128; omega
  | ⟨1, _⟩ => show win1_2.index t (1 : Fin 2) * 4096 ≤ (i 1).val ∧ (i 1).val < win1_2.index t (1 : Fin 2) * 4096 + 4096; omega

/-- If what every point leaves in the output tile is its tile of one array `G`, the result array ends holding `G`. -/
theorem arrAt1_2 (dat : Dat τ (Elt F) Unit ℕ (UR sig nD τ) ℕ cfg1 c) (G : S128x32768.Idx → Elt F .f32)
    (h : ∀ (t : Fin cfg1.N) (p : Fin 128) (k : Fin 4096), dat.after 2 t (ix2 p k)
      = G (ix2 p ⟨t.val * 4096 + k.val, by have := t.isLt; have := N1; have := k.isLt; omega⟩)) :
    dat.arrAt 2 cfg1.N = G := by
  refine dat.arrAt_eq_of_cover 2 G (fun t _ => ?_) cover1_2
  funext j
  obtain ⟨p, k, rfl⟩ : ∃ (p : Fin 128) (k : Fin 4096), j = ix2 p k := ⟨j 0, j 1, eq_ix2 j⟩
  exact (h t p k).trans (blk1_2_apply G t p k).symm

/-! ### First grid: the three partial-sum arrays, one slab per core, written back at the core's last point -/

theorem mem_blk0_2 (t : Fin cfg0.N) (i : S2x128x512.Idx) :
    i ∈ ((cfg0.win 2).blk t).view.set ↔ ∀ a : Fin 3, win0_2.index t a * S1x128x512.size a ≤ (i a).val
      ∧ (i a).val < win0_2.index t a * S1x128x512.size a + S1x128x512.size a := by
  show i ∈ ((View.whole main_v0_0).slice (win0_2.rect t)).set ↔ _
  rw [View.set_slice_whole, Rect.mem_set_unit]
  exact Iff.rfl

theorem mem_blk0_3 (t : Fin cfg0.N) (i : S2x1x128.Idx) :
    i ∈ ((cfg0.win 3).blk t).view.set ↔ ∀ a : Fin 3, win0_3.index t a * S1x1x128.size a ≤ (i a).val
      ∧ (i a).val < win0_3.index t a * S1x1x128.size a + S1x1x128.size a := by
  show i ∈ ((View.whole main_v0_1).slice (win0_3.rect t)).set ↔ _
  rw [View.set_slice_whole, Rect.mem_set_unit]
  exact Iff.rfl

theorem mem_blk0_4 (t : Fin cfg0.N) (i : S2x1x512.Idx) :
    i ∈ ((cfg0.win 4).blk t).view.set ↔ ∀ a : Fin 3, win0_4.index t a * S1x1x512.size a ≤ (i a).val
      ∧ (i a).val < win0_4.index t a * S1x1x512.size a + S1x1x512.size a := by
  show i ∈ ((View.whole main_v0_2).slice (win0_4.rect t)).set ↔ _
  rw [View.set_slice_whole, Rect.mem_set_unit]
  exact Iff.rfl

/-- Slab `s` of the raw-product array is the block of point `4·s + 3`, the last point of core `s`, which writes back. -/
theorem cover0_2 (i : S2x128x512.Idx) :
    ∃ t : Fin cfg0.N, (cfg0.win 2).flush t = true ∧ i ∈ ((cfg0.win 2).blk t).view.set := by
  have hi0 : (i 0).val < 2 := (i 0).isLt
  have hi1 : (i 1).val < 128 := (i 1).isLt
  have hi2 : (i 2).val < 512 := (i 2).isLt
  have hN := N0
  obtain ⟨t, ht⟩ : ∃ t : Fin cfg0.N, t.val = 4 * (i 0).val + 3 := ⟨⟨4 * (i 0).val + 3, by omega⟩, rfl⟩
  obtain ⟨-, -, -, -, e0, e1, e2, -⟩ := index_facts0 t
  refine ⟨t, (flush0_2 t).mpr (by omega), ?_⟩
  rw [mem_blk0_2]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 128 ≤ (i 1).val ∧ (i 1).val < win0_2.index t (1 : Fin 3) * 128 + 128; omega
  | ⟨2, _⟩ => show win0_2.index t (2 : Fin 3) * 512 ≤ (i 2).val ∧ (i 2).val < win0_2.index t (2 : Fin 3) * 512 + 512; omega

theorem cover0_3 (i : S2x1x128.Idx) :
    ∃ t : Fin cfg0.N, (cfg0.win 3).flush t = true ∧ i ∈ ((cfg0.win 3).blk t).view.set := by
  have hi0 : (i 0).val < 2 := (i 0).isLt
  have hi1 : (i 1).val < 1 := (i 1).isLt
  have hi2 : (i 2).val < 128 := (i 2).isLt
  have hN := N0
  obtain ⟨t, ht⟩ : ∃ t : Fin cfg0.N, t.val = 4 * (i 0).val + 3 := ⟨⟨4 * (i 0).val + 3, by omega⟩, rfl⟩
  obtain ⟨-, -, -, -, -, -, -, e0, e1, e2, -⟩ := index_facts0 t
  refine ⟨t, (flush0_3 t).mpr (by omega), ?_⟩
  rw [mem_blk0_3]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 1 ≤ (i 1).val ∧ (i 1).val < win0_3.index t (1 : Fin 3) * 1 + 1; omega
  | ⟨2, _⟩ => show win0_3.index t (2 : Fin 3) * 128 ≤ (i 2).val ∧ (i 2).val < win0_3.index t (2 : Fin 3) * 128 + 128; omega

theorem cover0_4 (i : S2x1x512.Idx) :
    ∃ t : Fin cfg0.N, (cfg0.win 4).flush t = true ∧ i ∈ ((cfg0.win 4).blk t).view.set := by
  have hi0 : (i 0).val < 2 := (i 0).isLt
  have hi1 : (i 1).val < 1 := (i 1).isLt
  have hi2 : (i 2).val < 512 := (i 2).isLt
  have hN := N0
  obtain ⟨t, ht⟩ : ∃ t : Fin cfg0.N, t.val = 4 * (i 0).val + 3 := ⟨⟨4 * (i 0).val + 3, by omega⟩, rfl⟩
  obtain ⟨-, -, -, -, -, -, -, -, -, -, e0, e1, e2⟩ := index_facts0 t
  refine ⟨t, (flush0_4 t).mpr (by omega), ?_⟩
  rw [mem_blk0_4]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 1 ≤ (i 1).val ∧ (i 1).val < win0_4.index t (1 : Fin 3) * 1 + 1; omega
  | ⟨2, _⟩ => show win0_4.index t (2 : Fin 3) * 512 ≤ (i 2).val ∧ (i 2).val < win0_4.index t (2 : Fin 3) * 512 + 512; omega

/-- If what each core's last point leaves in the raw-product slab is that core's slab of one array `G`, the array ends
    holding `G`. -/
theorem arrAt0_2 (dat : Dat τ (Elt F) Unit ℕ (UR sig nD τ) ℕ cfg0 c) (G : S2x128x512.Idx → Elt F .f32)
    (h : ∀ t : Fin cfg0.N, t.val % 4 = 3 → ∀ (p : Fin 128) (q : Fin 512), dat.after 2 t (ix3 (0 : Fin 1) p q)
      = G (ix3 ⟨t.val / 4, by have := t.isLt; have := N0; omega⟩ p q)) :
    dat.arrAt 2 cfg0.N = G := by
  refine dat.arrAt_eq_of_cover 2 G (fun t hf => ?_) cover0_2
  funext j
  obtain ⟨a, p, q, rfl⟩ : ∃ (a : Fin 1) (p : Fin 128) (q : Fin 512), j = ix3 a p q := ⟨j 0, j 1, j 2, eq_ix3 j⟩
  obtain rfl : a = 0 := Subsingleton.elim _ _
  exact (h t ((flush0_2 t).mp hf) p q).trans (blk0_2_apply G t p q).symm

/-- The same for the row sums of `Ψ`. -/
theorem arrAt0_3 (dat : Dat τ (Elt F) Unit ℕ (UR sig nD τ) ℕ cfg0 c) (G : S2x1x128.Idx → Elt F .f32)
    (h : ∀ t : Fin cfg0.N, t.val % 4 = 3 → ∀ (p : Fin 128), dat.after 3 t (ix3 (0 : Fin 1) (0 : Fin 1) p)
      = G (ix3 ⟨t.val / 4, by have := t.isLt; have := N0; omega⟩ (0 : Fin 1) p)) :
    dat.arrAt 3 cfg0.N = G := by
  refine dat.arrAt_eq_of_cover 3 G (fun t hf => ?_) cover0_3
  funext j
  obtain ⟨a, b, p, rfl⟩ : ∃ (a : Fin 1) (b : Fin 1) (p : Fin 128), j = ix3 a b p := ⟨j 0, j 1, j 2, eq_ix3 j⟩
  obtain rfl : a = 0 := Subsingleton.elim _ _
  obtain rfl : b = 0 := Subsingleton.elim _ _
  exact (h t ((flush0_3 t).mp hf) p).trans (blk0_3_apply G t p).symm

/-- The same for the row sums of `x`. -/
theorem arrAt0_4 (dat : Dat τ (Elt F) Unit ℕ (UR sig nD τ) ℕ cfg0 c) (G : S2x1x512.Idx → Elt F .f32)
    (h : ∀ t : Fin cfg0.N, t.val % 4 = 3 → ∀ (q : Fin 512), dat.after 4 t (ix3 (0 : Fin 1) (0 : Fin 1) q)
      = G (ix3 ⟨t.val / 4, by have := t.isLt; have := N0; omega⟩ (0 : Fin 1) q)) :
    dat.arrAt 4 cfg0.N = G := by
  refine dat.arrAt_eq_of_cover 4 G (fun t hf => ?_) cover0_4
  funext j
  obtain ⟨a, b, q, rfl⟩ : ∃ (a : Fin 1) (b : Fin 1) (q : Fin 512), j = ix3 a b q := ⟨j 0, j 1, j 2, eq_ix3 j⟩
  obtain rfl : a = 0 := Subsingleton.elim _ _
  obtain rfl : b = 0 := Subsingleton.elim _ _
  exact (h t ((flush0_4 t).mp hf) q).trans (blk0_4_apply G t q).symm

end Outputs

end Cert.KernelIdeal.Hand

end
-- ==== Proof.AccValue.lean ====
import proofs.«169214_j4466765988635_2_alg».proof.Proof.Region0
import proofs.«169214_j4466765988635_2_alg».proof.Proof.PayAt
import proofs.«169214_j4466765988635_2_alg».proof.Proof.Blocks
import proofs.«169214_j4466765988635_2_alg».proof.Proof.Spec
import Idealize.ShloMosaic.Lib.ValueIdx

set_option maxRecDepth 16384

noncomputable section

namespace Cert.KernelIdeal.HandValue

open Cert.KernelIdeal Cert.KernelIdeal.Gen Cert.KernelIdeal.Hand Cert.Hand
open Idealize.ShloMosaic Idealize.ShloMosaic.TcCoe Idealize.ShloMosaic.ValueIdx
open Idealize.SL Idealize.SL.Sem
open Idealize.ShloMosaic.Pipeline (Dat)
open scoped BigOperators
/-!
# The running sums of the first kernel, index by index

After a core's fourth tile its three scratch sums are, entry by entry, the core's left-nested sum from zero of
the four tiles' shares: of `Σ_k Ψ(p, k)·x(q, k)`, of `Σ_k Ψ(p, k)` and of `Σ_k x(q, k)` over the tile's columns.
-/

section AccValue

variable (V : (c : Dev nD) → (b : Ref sig .tc) → Buf (Elt Ideal) ((c : Thread nD τ).loc b)) (c : Dev nD)

/-- The tile a point of the first grid streams: point `t` is tile `t`. -/
def tileOf (t : Fin cfg0.N) : Fin 8 := ⟨t.val, lt_of_lt_of_eq t.isLt N_0⟩

/-- `Ψ` and `x` as the region finds them. -/
abbrev PsiOf : Spec.SP.Idx → EReal := V c main_arg1
abbrev xOf : Spec.SX.Idx → EReal := V c main_arg0

theorem iblk0_0_apply (t : Fin cfg0.N) (p : Fin 128) (k : Fin 4096) :
    iblk0 V c 0 t (ix2 p k) = PsiOf V c (ix2 p (Spec.col (tileOf t) k)) := by
  unfold iblk0; exact blk0_0_apply _ t p k
theorem iblk0_1_apply (t : Fin cfg0.N) (q : Fin 512) (k : Fin 4096) :
    iblk0 V c 1 t (ix2 q k) = xOf V c (ix2 q (Spec.col (tileOf t) k)) := by
  unfold iblk0; exact blk0_1_apply _ t q k

/-- One step of the three sums at an entry. -/
theorem step_dot (t : Fin cfg0.N) (a : Acc Ideal) (p : Fin 128) (q : Fin 512) :
    (step (iblk0 V c 0 t) (iblk0 V c 1 t) a).1 (ix2 p q) = a.1 (ix2 p q) + Spec.tileDot (PsiOf V c) (xOf V c) p q (tileOf t) := by
  unfold step Spec.tileDot; dsimp only
  rw [k0_pay9_apply]
  exact congrArg (a.1 (ix2 p q) + ·) (Finset.sum_congr rfl fun k _ => by rw [iblk0_0_apply, iblk0_1_apply])
theorem step_psi (t : Fin cfg0.N) (a : Acc Ideal) (p : Fin 128) :
    (step (iblk0 V c 0 t) (iblk0 V c 1 t) a).2.1 (ix2 0 p) = a.2.1 (ix2 0 p) + Spec.tilePsi (PsiOf V c) p (tileOf t) := by
  unfold step Spec.tilePsi; dsimp only
  rw [k0_pay7_apply]
  exact congrArg (a.2.1 (ix2 0 p) + ·) (Finset.sum_congr rfl fun k _ => by rw [iblk0_0_apply])
theorem step_x (t : Fin cfg0.N) (a : Acc Ideal) (q : Fin 512) :
    (step (iblk0 V c 0 t) (iblk0 V c 1 t) a).2.2 (ix2 0 q) = a.2.2 (ix2 0 q) + Spec.tileX (xOf V c) q (tileOf t) := by
  unfold step Spec.tileX; dsimp only
  rw [k0_pay8_apply]
  exact congrArg (a.2.2 (ix2 0 q) + ·) (Finset.sum_congr rfl fun k _ => by rw [iblk0_1_apply])

theorem acc0_dot (j : S128x512.Idx) : (acc0 (F := Ideal)).1 j = Spec.zero := k0_pay4_apply j
theorem acc0_psi (j : S1x128.Idx) : (acc0 (F := Ideal)).2.1 j = Spec.zero := k0_pay5_apply j
theorem acc0_x (j : S1x512.Idx) : (acc0 (F := Ideal)).2.2 j = Spec.zero := k0_pay6_apply j

/-- The recursion one step at a time. -/
theorem accAt_succ_ne (n : ℕ) (h : n + 1 < cfg0.N) (hne : (n + 1) % 4 ≠ 0) :
    accAt V c (n + 1) h = step (iblk0 V c 0 ⟨n + 1, h⟩) (iblk0 V c 1 ⟨n + 1, h⟩) (accAt V c n (Nat.lt_of_succ_lt h)) :=
  congrArg (step _ _) (if_neg hne)
theorem accAt_succ_eq (n : ℕ) (h : n + 1 < cfg0.N) (he : (n + 1) % 4 = 0) :
    accAt V c (n + 1) h = step (iblk0 V c 0 ⟨n + 1, h⟩) (iblk0 V c 1 ⟨n + 1, h⟩) acc0 :=
  congrArg (step _ _) (if_pos he)

/-- After the first core's four tiles: four steps from zero. -/
theorem accAt_3 (h : 3 < cfg0.N) :
    accAt V c 3 h = step (iblk0 V c 0 ⟨3, h⟩) (iblk0 V c 1 ⟨3, h⟩) (step (iblk0 V c 0 ⟨2, by omega⟩) (iblk0 V c 1 ⟨2, by omega⟩)
      (step (iblk0 V c 0 ⟨1, by omega⟩) (iblk0 V c 1 ⟨1, by omega⟩) (step (iblk0 V c 0 ⟨0, by omega⟩) (iblk0 V c 1 ⟨0, by omega⟩) acc0))) := by
  have e3 : accAt V c 3 h = step _ _ (accAt V c 2 (by omega)) := accAt_succ_ne V c 2 h (by decide)
  have e2 : accAt V c 2 (by omega) = step _ _ (accAt V c 1 (by omega)) := accAt_succ_ne V c 1 (by omega) (by decide)
  have e1 : accAt V c 1 (by omega) = step _ _ (accAt V c 0 (by omega)) := accAt_succ_ne V c 0 (by omega) (by decide)
  rw [e3, e2, e1]; rfl

/-- After the second core's four tiles: four steps from zero again. -/
theorem accAt_7 (h : 7 < cfg0.N) :
    accAt V c 7 h = step (iblk0 V c 0 ⟨7, h⟩) (iblk0 V c 1 ⟨7, h⟩) (step (iblk0 V c 0 ⟨6, by omega⟩) (iblk0 V c 1 ⟨6, by omega⟩)
      (step (iblk0 V c 0 ⟨5, by omega⟩) (iblk0 V c 1 ⟨5, by omega⟩) (step (iblk0 V c 0 ⟨4, by omega⟩) (iblk0 V c 1 ⟨4, by omega⟩) acc0))) := by
  have e7 : accAt V c 7 h = step _ _ (accAt V c 6 (by omega)) := accAt_succ_ne V c 6 h (by decide)
  have e6 : accAt V c 6 (by omega) = step _ _ (accAt V c 5 (by omega)) := accAt_succ_ne V c 5 (by omega) (by decide)
  have e5 : accAt V c 5 (by omega) = step _ _ (accAt V c 4 (by omega)) := accAt_succ_ne V c 4 (by omega) (by decide)
  have e4 : accAt V c 4 (by omega) = step _ _ acc0 := accAt_succ_eq V c 3 (by omega) (by decide)
  rw [e7, e6, e5, e4]

theorem tileOf_mk (n : ℕ) (h : n < cfg0.N) : tileOf ⟨n, h⟩ = ⟨n, lt_of_lt_of_eq h N_0⟩ := rfl

/-- The first core's sums, entry by entry. -/
theorem acc3_dot (h : 3 < cfg0.N) (p : Fin 128) (q : Fin 512) :
    (accAt V c 3 h).1 (ix2 p q) = Spec.core0 (Spec.tileDot (PsiOf V c) (xOf V c) p q) := by
  rw [accAt_3, step_dot, step_dot, step_dot, step_dot, acc0_dot]; rfl
theorem acc3_psi (h : 3 < cfg0.N) (p : Fin 128) :
    (accAt V c 3 h).2.1 (ix2 0 p) = Spec.core0 (Spec.tilePsi (PsiOf V c) p) := by
  rw [accAt_3, step_psi, step_psi, step_psi, step_psi, acc0_psi]; rfl
theorem acc3_x (h : 3 < cfg0.N) (q : Fin 512) :
    (accAt V c 3 h).2.2 (ix2 0 q) = Spec.core0 (Spec.tileX (xOf V c) q) := by
  rw [accAt_3, step_x, step_x, step_x, step_x, acc0_x]; rfl
/-- The second core's. -/
theorem acc7_dot (h : 7 < cfg0.N) (p : Fin 128) (q : Fin 512) :
    (accAt V c 7 h).1 (ix2 p q) = Spec.core1 (Spec.tileDot (PsiOf V c) (xOf V c) p q) := by
  rw [accAt_7, step_dot, step_dot, step_dot, step_dot, acc0_dot]; rfl
theorem acc7_psi (h : 7 < cfg0.N) (p : Fin 128) :
    (accAt V c 7 h).2.1 (ix2 0 p) = Spec.core1 (Spec.tilePsi (PsiOf V c) p) := by
  rw [accAt_7, step_psi, step_psi, step_psi, step_psi, acc0_psi]; rfl
theorem acc7_x (h : 7 < cfg0.N) (q : Fin 512) :
    (accAt V c 7 h).2.2 (ix2 0 q) = Spec.core1 (Spec.tileX (xOf V c) q) := by
  rw [accAt_7, step_x, step_x, step_x, step_x, acc0_x]; rfl

end AccValue

end Cert.KernelIdeal.HandValue

end
-- ==== Proof.LibHostRead.lean ====
/-
  A jnp reference's host operations read at an index, on the extended reals, for any extents.

  The broadcasts a reduction with keepdims or a row / column operand prints: a vector kept as a one-column or one-row
  matrix, a one-column or one-row matrix spread over the other axis, the same with a trailing unit axis of a three-axis
  array; a literal splat to any shape; the host's sum over the last axis of a matrix or of a three-axis array from an
  initial value that is zero, as the plain sum over that axis's coordinates; the host's quotient, square root,
  reciprocal square root and logarithm entry by entry; and a reshape that splits the second axis of a matrix in two:
  entry (r, k, p) of the [a, c, d] array is entry (r, k · d + p) of the [a, c · d] matrix.
-/
import Idealize.ShloMosaic.Lib.ValueIdx
import Idealize.ShloMosaic.Lib.Pipeline.Value
import Idealize.ShloMosaic.PureOps.Ideal.Laws

noncomputable section

namespace Cert.LibHostRead

open Idealize.ShloMosaic Idealize.ShloMosaic.ValueIdx
open scoped BigOperators

/-! ## Host operations read at an index, for any extents -/

section Helpers
variable {α : Type}

/-- A splat of a literal, broadcast to any shape, is the literal's value at every index. -/
theorem bcastConst_apply {s t : Shape} (dims : Fin s.rank → Fin t.rank) (h : s.BroadcastsInDim t dims) (w : BitVec 32)
    (j : t.Idx) : broadcastInDim t dims h (constant (F := Ideal) s .f32 w) j = Ideal.ofBits .f32 w := rfl

/-- A vector kept as a one-column matrix reads, at `(r, z)`, entry `r`. -/
theorem bcast_a_a1_apply {a : ℕ} (x : (⟨1, ![a]⟩ : Shape).Idx → α)
    (h : (⟨1, ![a]⟩ : Shape).BroadcastsInDim ⟨2, ![a, 1]⟩ (![0] : Fin 1 → Fin 2)) (r : Fin a) (z : Fin 1) :
    broadcastInDim ⟨2, ![a, 1]⟩ (![0] : Fin 1 → Fin 2) h x (ix2 r z) = x (ix1 r) := by
  refine broadcastInDim_apply _ h x (ix2 r z) (ix1 r) fun ax => ?_
  match ax with
  | ⟨0, _⟩ =>
    show r.val = if a = 1 then 0 else r.val
    split
    · have := r.isLt; omega
    · rfl

/-- A one-column matrix spread over `b` columns reads, at `(r, d)`, the column's entry of row `r`. -/
theorem bcast_a1_ab_apply {a b : ℕ} (x : (⟨2, ![a, 1]⟩ : Shape).Idx → α)
    (h : (⟨2, ![a, 1]⟩ : Shape).BroadcastsInDim ⟨2, ![a, b]⟩ (![0, 1] : Fin 2 → Fin 2)) (r : Fin a) (d : Fin b) :
    broadcastInDim ⟨2, ![a, b]⟩ (![0, 1] : Fin 2 → Fin 2) h x (ix2 r d) = x (ix2 r (0 : Fin 1)) := by
  refine broadcastInDim_apply _ h x (ix2 r d) (ix2 r (0 : Fin 1)) fun ax => ?_
  match ax with
  | ⟨0, _⟩ =>
    show r.val = if a = 1 then 0 else r.val
    split
    · have := r.isLt; omega
    · rfl
  | ⟨1, _⟩ =>
    show (0 : ℕ) = if (1 : ℕ) = 1 then 0 else d.val
    rw [if_pos rfl]

/-- A vector kept as a one-row matrix reads, at `(z, d)`, entry `d`. -/
theorem bcast_b_1b_apply {b : ℕ} (x : (⟨1, ![b]⟩ : Shape).Idx → α)
    (h : (⟨1, ![b]⟩ : Shape).BroadcastsInDim ⟨2, ![1, b]⟩ (![1] : Fin 1 → Fin 2)) (z : Fin 1) (d : Fin b) :
    broadcastInDim ⟨2, ![1, b]⟩ (![1] : Fin 1 → Fin 2) h x (ix2 z d) = x (ix1 d) := by
  refine broadcastInDim_apply _ h x (ix2 z d) (ix1 d) fun ax => ?_
  match ax with
  | ⟨0, _⟩ =>
    show d.val = if b = 1 then 0 else d.val
    split
    · have := d.isLt; omega
    · rfl

/-- A one-row matrix spread over `a` rows reads, at `(r, d)`, the row's entry of column `d`. -/
theorem bcast_1b_ab_apply {a b : ℕ} (x : (⟨2, ![1, b]⟩ : Shape).Idx → α)
    (h : (⟨2, ![1, b]⟩ : Shape).BroadcastsInDim ⟨2, ![a, b]⟩ (![0, 1] : Fin 2 → Fin 2)) (r : Fin a) (d : Fin b) :
    broadcastInDim ⟨2, ![a, b]⟩ (![0, 1] : Fin 2 → Fin 2) h x (ix2 r d) = x (ix2 (0 : Fin 1) d) := by
  refine broadcastInDim_apply _ h x (ix2 r d) (ix2 (0 : Fin 1) d) fun ax => ?_
  match ax with
  | ⟨0, _⟩ =>
    show (0 : ℕ) = if (1 : ℕ) = 1 then 0 else r.val
    rw [if_pos rfl]
  | ⟨1, _⟩ =>
    show d.val = if b = 1 then 0 else d.val
    split
    · have := d.isLt; omega
    · rfl

/-- A vector spread over the rows of a matrix, through a one-row matrix: at `(r, d)`, entry `d`. -/
theorem bcastRow_apply {a b : ℕ} (x : (⟨1, ![b]⟩ : Shape).Idx → α)
    (h1 : (⟨1, ![b]⟩ : Shape).BroadcastsInDim ⟨2, ![1, b]⟩ (![1] : Fin 1 → Fin 2))
    (h2 : (⟨2, ![1, b]⟩ : Shape).BroadcastsInDim ⟨2, ![a, b]⟩ (![0, 1] : Fin 2 → Fin 2)) (r : Fin a) (d : Fin b) :
    broadcastInDim ⟨2, ![a, b]⟩ (![0, 1] : Fin 2 → Fin 2) h2 (broadcastInDim ⟨2, ![1, b]⟩ (![1] : Fin 1 → Fin 2) h1 x) (ix2 r d)
      = x (ix1 d) :=
  (bcast_1b_ab_apply _ h2 r d).trans (bcast_b_1b_apply x h1 0 d)

/-- An `[a, b]` array kept as `[a, b, 1]` reads, at `(i, j, z)`, entry `(i, j)`. -/
theorem bcast_ab_ab1_apply {a b : ℕ} (x : (⟨2, ![a, b]⟩ : Shape).Idx → α)
    (h : (⟨2, ![a, b]⟩ : Shape).BroadcastsInDim ⟨3, ![a, b, 1]⟩ (![0, 1] : Fin 2 → Fin 3)) (i : Fin a) (j : Fin b) (z : Fin 1) :
    broadcastInDim ⟨3, ![a, b, 1]⟩ (![0, 1] : Fin 2 → Fin 3) h x (ix3 i j z) = x (ix2 i j) := by
  refine broadcastInDim_apply _ h x (ix3 i j z) (ix2 i j) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl

/-- An `[a, b, 1]` array spread over `c` entries of the last axis reads, at `(i, j, k)`, entry `(i, j, 0)`. -/
theorem bcast_ab1_abc_apply {a b c : ℕ} (x : (⟨3, ![a, b, 1]⟩ : Shape).Idx → α)
    (h : (⟨3, ![a, b, 1]⟩ : Shape).BroadcastsInDim ⟨3, ![a, b, c]⟩ (![0, 1, 2] : Fin 3 → Fin 3)) (i : Fin a) (j : Fin b) (k : Fin c) :
    broadcastInDim ⟨3, ![a, b, c]⟩ (![0, 1, 2] : Fin 3 → Fin 3) h x (ix3 i j k) = x (ix3 i j (0 : Fin 1)) := by
  refine broadcastInDim_apply _ h x (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ =>
    show (0 : ℕ) = if (1 : ℕ) = 1 then 0 else k.val
    rw [if_pos rfl]

/-- The host's sum of each row of a matrix, from an initial value that is zero: at row `r`, the sum over the columns. -/
theorem hostSumAxis1_apply {a b : ℕ} (x : (⟨2, ![a, b]⟩ : Shape).Idx → EReal) {u : Shape} (init : u.Idx → EReal)
    (h' : (⟨2, ![a, b]⟩ : Shape).ReducesTo [1] ⟨1, ![a]⟩) (hu : 0 < u.numel)
    (hinit : init (Shape.Idx.first hu) = 0) (r : Fin a) :
    Host.reduceAdd (F := Ideal) (φ := .f32) x init h' hu (ix1 r) = ∑ d : Fin b, x (ix2 r d) := by
  have h : (⟨2, ![a, b]⟩ : Shape).Reduces [1] ⟨1, ![a]⟩ := ⟨h'.1, Nat.one_pos, h'.2⟩
  show Ideal.hostReduceAdd h' x (init (Shape.Idx.first hu)) (ix1 r) = _
  rw [hinit, Ideal.hostReduceAdd_single h' h x 0 (ix1 r), zero_add]
  exact Finset.sum_congr rfl fun k _ => congrArg x (funext fun ax => Fin.ext (match ax with | ⟨0, _⟩ => rfl | ⟨1, _⟩ => rfl))

/-- The host's sum over the last axis of a three-axis array, from zero: at `(i, j)`, the sum over `k` of the entries `(i, j, k)`. -/
theorem hostSumAxis2_apply {a b c : ℕ} (x : (⟨3, ![a, b, c]⟩ : Shape).Idx → EReal) {u : Shape} (init : u.Idx → EReal)
    (h' : (⟨3, ![a, b, c]⟩ : Shape).ReducesTo [2] ⟨2, ![a, b]⟩) (hu : 0 < u.numel)
    (hinit : init (Shape.Idx.first hu) = 0) (i : Fin a) (j : Fin b) :
    Host.reduceAdd (F := Ideal) (φ := .f32) x init h' hu (ix2 i j) = ∑ k : Fin c, x (ix3 i j k) := by
  have h : (⟨3, ![a, b, c]⟩ : Shape).Reduces [2] ⟨2, ![a, b]⟩ := ⟨h'.1, Nat.two_pos, h'.2⟩
  show Ideal.hostReduceAdd h' x (init (Shape.Idx.first hu)) (ix2 i j) = _
  rw [hinit, Ideal.hostReduceAdd_single h' h x 0 (ix2 i j), zero_add]
  refine Finset.sum_congr rfl fun k _ => congrArg x (funext fun ax => Fin.ext ?_)
  match ax with
  | ⟨0, _⟩ => rfl
  | ⟨1, _⟩ => rfl
  | ⟨2, _⟩ => rfl

end Helpers

/-! ## Pointwise host operations at the extended reals -/

theorem hostDivf_apply {s : Shape} (x y : FVec Ideal s .f32) (i : s.Idx) : Host.divf x y i = Ideal.div (x i) (y i) := rfl
theorem hostSqrt_apply {s : Shape} (x : FVec Ideal s .f32) (i : s.Idx) : Host.sqrt x i = Ideal.sqrt (x i) := rfl
theorem hostRsqrt_apply {s : Shape} (x : FVec Ideal s .f32) (i : s.Idx) : Host.rsqrt x i = Ideal.rsqrt (x i) := rfl
theorem hostLog_apply {s : Shape} (x : FVec Ideal s .f32) (i : s.Idx) : Host.log x i = Ideal.log (x i) := rfl

/-- A matrix whose second axis is split in two reads, at `(r, k, p)`, the matrix at `(r, k · d + p)`. -/
theorem shapeCast_ab_acd_apply {α : Type} {a b c d : ℕ} (X : (⟨2, ![a, b]⟩ : Shape).Idx → α)
    (h : (⟨2, ![a, b]⟩ : Shape).ShapeCasts ⟨3, ![a, c, d]⟩) (hb : b = c * d) (r : Fin a) (k : Fin c) (p : Fin d) (kp : Fin b)
    (hkp : kp.val = k.val * d + p.val) : shapeCast ⟨3, ![a, c, d]⟩ X h (ix3 r k p) = X (ix2 r kp) :=
  shapeCast_apply X h _ _ (by
    rw [Shape.rowMajor_val_two, Shape.rowMajor_val_three]
    show r.val * b + kp.val = (r.val * c + k.val) * d + p.val
    rw [hkp, hb]; ring)

end Cert.LibHostRead

end
-- ==== Proof.HostMid.lean ====
import proofs.«169214_j4466765988635_2_alg».proof.Proof.Gen.KernelIdeal.Regions
import proofs.«169214_j4466765988635_2_alg».proof.Proof.Spec
import proofs.«169214_j4466765988635_2_alg».proof.Proof.LibHostRead
import Idealize.ShloMosaic.Lib.StableHlo.Run
import Idealize.ShloMosaic.Lib.ValueIdx
import Idealize.ShloMosaic.Lib.Pipeline.Value
import Idealize.ShloMosaic.Lib.ValueLayout
import Idealize.ShloMosaic.PureOps.Ideal.Laws

/-!
# The host's arithmetic between the two kernel calls, read at an index

Between the two calls the host adds the two cores' partial sums slab by slab, divides the summed row sums of
`Ψ` by the number of columns, multiplies that column of means by the row of summed row sums of `x`, and
subtracts the product from the summed raw products. Over the extended reals the rounding to the narrower
format at the end is the identity, so the entry at (p, d) is that expression of six entries of the three
arrays the first call leaves.
-/

noncomputable section

namespace Cert.KernelIdeal.HandValue

open Cert.KernelIdeal Cert.KernelIdeal.Gen Idealize.ShloMosaic Idealize.ShloMosaic.ValueIdx
open scoped BigOperators

section Slabs
variable {α : Type}

/-- Slab `c` of an `[n, a, b]` array, cut out as `[1, a, b]` and viewed as the matrix `[a, b]`: at (p, q), the
    array's entry (c, p, q). -/
theorem slab_matrix_apply {n a b : ℕ} (x : (⟨3, ![n, a, b]⟩ : Shape).Idx → α) (c : Fin n)
    (hs : (⟨3, ![n, a, b]⟩ : Shape).Slices ![c.val, 0, 0] ⟨3, ![1, a, b]⟩)
    (hc : (⟨3, ![1, a, b]⟩ : Shape).ShapeCasts ⟨2, ![a, b]⟩) (p : Fin a) (q : Fin b) :
    shapeCast ⟨2, ![a, b]⟩ (extractStridedSlice ⟨3, ![1, a, b]⟩ ![c.val, 0, 0] x hs) hc (ix2 p q) = x (ix3 c p q) := by
  refine (shapeCast_1ab_ab_apply _ hc p q).trans ?_
  refine extractStridedSlice_apply _ x hs _ _ fun ax => ?_
  match ax with
  | ⟨0, _⟩ => rfl
  | ⟨1, _⟩ => exact (Nat.zero_add _).symm
  | ⟨2, _⟩ => exact (Nat.zero_add _).symm

/-- Slab `c` of an `[n, 1, a]` array, cut out as `[1, 1, a]` and viewed as the vector `[a]`: at p, the array's
    entry (c, 0, p). -/
theorem slab_vector_apply {n a : ℕ} (x : (⟨3, ![n, 1, a]⟩ : Shape).Idx → α) (c : Fin n)
    (hs : (⟨3, ![n, 1, a]⟩ : Shape).Slices ![c.val, 0, 0] ⟨3, ![1, 1, a]⟩)
    (hc : (⟨3, ![1, 1, a]⟩ : Shape).ShapeCasts ⟨1, ![a]⟩) (p : Fin a) :
    shapeCast ⟨1, ![a]⟩ (extractStridedSlice ⟨3, ![1, 1, a]⟩ ![c.val, 0, 0] x hs) hc (ix1 p) = x (ix3 c (0 : Fin 1) p) := by
  refine (shapeCast_apply _ hc (ix1 p) (ix3 (0 : Fin 1) (0 : Fin 1) p) ?_).trans ?_
  · rw [Shape.rowMajor_val_three, Shape.rowMajor_val_one]
    show (0 * 1 + 0) * a + p.val = p.val
    simp only [Nat.zero_mul, Nat.zero_add, Nat.mul_one, Nat.add_zero]
  · refine extractStridedSlice_apply _ x hs _ _ fun ax => ?_
    match ax with
    | ⟨0, _⟩ => rfl
    | ⟨1, _⟩ => rfl
    | ⟨2, _⟩ => exact (Nat.zero_add _).symm

end Slabs

/-- The array of raw products the first call leaves, one slab per core, as a function to the extended reals. -/
abbrev out0 (Vv : Valuation τ sig (Elt Ideal)) : S2x128x512.Idx → EReal := Vv (Proc.devRef .tc main_v0_0)
/-- The array of `Ψ`'s row sums the first call leaves, one slab per core. -/
abbrev out1 (Vv : Valuation τ sig (Elt Ideal)) : S2x1x128.Idx → EReal := Vv (Proc.devRef .tc main_v0_1)
/-- The array of `x`'s row sums the first call leaves, one slab per core. -/
abbrev out2 (Vv : Valuation τ sig (Elt Ideal)) : S2x1x512.Idx → EReal := Vv (Proc.devRef .tc main_v0_2)
/-- The small matrix the host hands to the second call. -/
abbrev midOut (Vv : Valuation τ sig (Elt Ideal)) : S128x512.Idx → EReal :=
  StableHlo.after (hostOps1 (F := Ideal)) Vv (Proc.devRef .tc main_v24)

/-- The small matrix the host hands to the second call, at (p, d): the two slabs of raw products added, less
    the quotient of the two slabs of `Ψ`'s row sums added by the number of columns, times the two slabs of
    `x`'s row sums added. -/
theorem mid_v24 (Vv : Valuation τ sig (Elt Ideal)) (p : Fin 128) (d : Fin 512) :
    midOut Vv (ix2 p d)
      = (out0 Vv (ix3 0 p d) + out0 Vv (ix3 1 p d))
        - Ideal.div (out1 Vv (ix3 0 0 p) + out1 Vv (ix3 1 0 p)) Cert.Hand.Spec.cols
          * (out2 Vv (ix3 0 0 d) + out2 Vv (ix3 1 0 d)) := by
  unfold midOut
  after_results_simp
  refine (truncf_apply (φ := .f32) (ψ := .bf16) _ bitsLt_bf16_f32 (ix2 p d)).trans ?_
  refine (subf_apply (φ := .f32) _ _ (ix2 p d)).trans ?_
  refine congrArg₂ (· - ·) ?_ ?_
  · refine (addf_apply (φ := .f32) _ _ _).trans ?_
    exact congrArg₂ (· + ·)
      (slab_matrix_apply (out0 Vv) (0 : Fin 2) _ _ p d)
      (slab_matrix_apply (out0 Vv) (1 : Fin 2) _ _ p d)
  · refine (mulf_apply (φ := .f32) _ _ (ix2 p d)).trans ?_
    refine congrArg₂ (· * ·) ?_ ?_
    · refine (Cert.LibHostRead.bcast_a1_ab_apply _ _ p d).trans ?_
      refine (Cert.LibHostRead.bcast_a_a1_apply _ _ p 0).trans ?_
      refine (Cert.LibHostRead.hostDivf_apply _ _ _).trans ?_
      refine congrArg₂ Ideal.div ?_ rfl
      refine (addf_apply (φ := .f32) _ _ _).trans ?_
      exact congrArg₂ (· + ·)
        (slab_vector_apply (out1 Vv) (0 : Fin 2) _ _ p)
        (slab_vector_apply (out1 Vv) (1 : Fin 2) _ _ p)
    · refine (Cert.LibHostRead.bcastRow_apply _ _ _ p d).trans ?_
      refine (addf_apply (φ := .f32) _ _ _).trans ?_
      exact congrArg₂ (· + ·)
        (slab_vector_apply (out2 Vv) (0 : Fin 2) _ _ d)
        (slab_vector_apply (out2 Vv) (1 : Fin 2) _ _ d)

/-- No host operation writes the array `x`: it is after them what it was before. -/
theorem mid_arg0 (Vv : Valuation τ sig (Elt Ideal)) :
    StableHlo.after (hostOps1 (F := Ideal)) Vv (Proc.devRef .tc main_arg0) = Vv (Proc.devRef .tc main_arg0) :=
  StableHlo.after_of_writes_sub (hostOps1 (F := Ideal)) Vv hostOps1_writes (by decide)

/-- The same, with the left side written as the host operations' result itself. -/
theorem mid_v24_after (Vv : Valuation τ sig (Elt Ideal)) (p : Fin 128) (d : Fin 512) :
    StableHlo.after (hostOps1 (F := Ideal)) Vv (Proc.devRef .tc main_v24) (ix2 p d)
      = (out0 Vv (ix3 0 p d) + out0 Vv (ix3 1 p d))
        - Ideal.div (out1 Vv (ix3 0 0 p) + out1 Vv (ix3 1 0 p)) Cert.Hand.Spec.cols
          * (out2 Vv (ix3 0 0 d) + out2 Vv (ix3 1 0 d)) :=
  mid_v24 Vv p d

end Cert.KernelIdeal.HandValue

end
-- ==== Proof.KernelValue.lean ====
import proofs.«169214_j4466765988635_2_alg».proof.Proof.AccValue
import proofs.«169214_j4466765988635_2_alg».proof.Proof.Fold
import proofs.«169214_j4466765988635_2_alg».proof.Proof.FrameOf
import proofs.«169214_j4466765988635_2_alg».proof.Proof.HostMid
import proofs.«169214_j4466765988635_2_alg».proof.Proof.Blocks

set_option maxRecDepth 16384

noncomputable section

namespace Cert.KernelIdeal.HandValue

open Cert.KernelIdeal Cert.KernelIdeal.Gen Cert.KernelIdeal.Hand Cert.Hand
open Idealize.ShloMosaic Idealize.ShloMosaic.TcCoe Idealize.ShloMosaic.ValueIdx
open Idealize.SL Idealize.SL.Sem
open Idealize.ShloMosaic.Pipeline (Dat)
open scoped BigOperators
/-!
# What the kernel program leaves in its result, index by index

The first region's three output arrays hold, slab by slab, each core's sums; the host operations between the
regions combine them into the small matrix `pxt`; the second region's output is, tile by tile, `pxt` times the
tile of `x`. Together: the result at (p, n) is `Σ_d pxt(p, d)·x(d, n)`.
-/

section KernelValue

variable (m : (ℓ : Loc nD τ sig) → Buf (Elt Ideal) ℓ) (c : Dev nD)

/-- The two argument arrays at launch. -/
abbrev Psi : Spec.SP.Idx → EReal := m ((c.tc : Thread nD τ).loc main_arg1)
abbrev X : Spec.SX.Idx → EReal := m ((c.tc : Thread nD τ).loc main_arg0)

/-- A value chosen by the slab: the first core's on slab 0, the second core's on slab 1. -/
def bySlab (s : Fin 2) (a b : EReal) : EReal := if s.val = 0 then a else b
theorem bySlab_zero (s : Fin 2) (hs : s.val = 0) (a b : EReal) : bySlab s a b = a := if_pos hs
theorem bySlab_one (s : Fin 2) (hs : s.val ≠ 0) (a b : EReal) : bySlab s a b = b := if_neg hs

/-- The first region's outputs as whole arrays: slab 0 holds the first core's sums, slab 1 the second's. -/
def outDot : S2x128x512.Idx → EReal := fun j =>
  bySlab (j 0) (Spec.core0 (Spec.tileDot (Psi m c) (X m c) (j 1) (j 2))) (Spec.core1 (Spec.tileDot (Psi m c) (X m c) (j 1) (j 2)))
def outPsi : S2x1x128.Idx → EReal := fun j =>
  bySlab (j 0) (Spec.core0 (Spec.tilePsi (Psi m c) (j 2))) (Spec.core1 (Spec.tilePsi (Psi m c) (j 2)))
def outX : S2x1x512.Idx → EReal := fun j =>
  bySlab (j 0) (Spec.core0 (Spec.tileX (X m c) (j 2))) (Spec.core1 (Spec.tileX (X m c) (j 2)))

theorem outDot_apply (s : Fin 2) (p : Fin 128) (q : Fin 512) : outDot m c (ix3 s p q)
    = bySlab s (Spec.core0 (Spec.tileDot (Psi m c) (X m c) p q)) (Spec.core1 (Spec.tileDot (Psi m c) (X m c) p q)) := rfl
theorem outPsi_apply (s : Fin 2) (u : Fin 1) (p : Fin 128) : outPsi m c (ix3 s u p)
    = bySlab s (Spec.core0 (Spec.tilePsi (Psi m c) p)) (Spec.core1 (Spec.tilePsi (Psi m c) p)) := rfl
theorem outX_apply (s : Fin 2) (u : Fin 1) (q : Fin 512) : outX m c (ix3 s u q)
    = bySlab s (Spec.core0 (Spec.tileX (X m c) q)) (Spec.core1 (Spec.tileX (X m c) q)) := rfl

theorem W1_dot : (W1 m c (Proc.devRef .tc main_v0_0) : S2x128x512.Idx → EReal) = outDot m c := by
  refine (W1_arr m c 2).trans (arrAt0_2 (dat0 (V0 m) c) (outDot m c) fun t ht p q => ?_)
  rw [after0_2, k0_pay1_apply, outDot_apply]
  obtain ⟨n, hn⟩ := t
  have hN : n < 8 := lt_of_lt_of_eq hn N_0
  have h37 : n = 3 ∨ n = 7 := by dsimp only at ht; omega
  rcases h37 with rfl | rfl
  · rw [acc3_dot]; exact (bySlab_zero _ (show (3 : ℕ) / 4 = 0 from rfl) _ _).symm
  · rw [acc7_dot]; exact (bySlab_one _ (show (7 : ℕ) / 4 ≠ 0 by decide) _ _).symm
theorem W1_psi : (W1 m c (Proc.devRef .tc main_v0_1) : S2x1x128.Idx → EReal) = outPsi m c := by
  refine (W1_arr m c 3).trans (arrAt0_3 (dat0 (V0 m) c) (outPsi m c) fun t ht p => ?_)
  rw [after0_3, k0_pay2_apply, outPsi_apply]
  obtain ⟨n, hn⟩ := t
  have hN : n < 8 := lt_of_lt_of_eq hn N_0
  have h37 : n = 3 ∨ n = 7 := by dsimp only at ht; omega
  rcases h37 with rfl | rfl
  · rw [acc3_psi]; exact (bySlab_zero _ (show (3 : ℕ) / 4 = 0 from rfl) _ _).symm
  · rw [acc7_psi]; exact (bySlab_one _ (show (7 : ℕ) / 4 ≠ 0 by decide) _ _).symm
theorem W1_x : (W1 m c (Proc.devRef .tc main_v0_2) : S2x1x512.Idx → EReal) = outX m c := by
  refine (W1_arr m c 4).trans (arrAt0_4 (dat0 (V0 m) c) (outX m c) fun t ht q => ?_)
  rw [after0_4, k0_pay3_apply, outX_apply]
  obtain ⟨n, hn⟩ := t
  have hN : n < 8 := lt_of_lt_of_eq hn N_0
  have h37 : n = 3 ∨ n = 7 := by dsimp only at ht; omega
  rcases h37 with rfl | rfl
  · rw [acc3_x]; exact (bySlab_zero _ (show (3 : ℕ) / 4 = 0 from rfl) _ _).symm
  · rw [acc7_x]; exact (bySlab_one _ (show (7 : ℕ) / 4 ≠ 0 by decide) _ _).symm

/-- `x` reaches the second region as launched: the first region only reads it and no host operation writes it. -/
theorem V2_x : (V2 m c main_arg0 : Spec.SX.Idx → EReal) = X m c := by
  refine (mid_keeps (W1 m c) main_arg0 (by decide)).trans ((W1_arr m c 1).trans ?_)
  exact ((dat0 (V0 m) c).arrAt_in 1 rfl _).trans (A_eq0 (V0 m) c 1)

/-- The small matrix the host operations hand the second region. -/
theorem V2_pxt (p : Fin 128) (d : Fin 512) :
    (V2 m c main_v24 : S128x512.Idx → EReal) (ix2 p d) = Spec.pxt (Psi m c) (X m c) p d := by
  refine (mid_v24 (W1 m c) p d).trans ?_
  unfold out0 out1 out2
  rw [W1_dot, W1_psi, W1_x]
  rw [outDot_apply, outDot_apply, outPsi_apply, outPsi_apply, outX_apply, outX_apply]
  rw [bySlab_zero 0 rfl, bySlab_one 1 (by decide), bySlab_zero 0 rfl, bySlab_one 1 (by decide), bySlab_zero 0 rfl, bySlab_one 1 (by decide)]
  rfl

/-- The result array: the kernel's arrangement at every entry. -/
theorem W3_out : (W3 m c (Proc.devRef .tc main_v25) : Spec.SP.Idx → EReal) = fun j => Spec.kOutAt (Psi m c) (X m c) (j 0) (j 1) := by
  refine (W3_arr m c 2).trans (arrAt1_2 (dat1 (V2 m) c) _ fun t p k => ?_)
  rw [after1_2, k1_pay1_apply]
  show _ = Spec.kOutAt (Psi m c) (X m c) p _
  unfold Spec.kOutAt
  refine Finset.sum_congr rfl fun d _ => ?_
  unfold iblk1
  rw [blk1_0_apply, blk1_1_apply]
  rw [show (V2 m c (Pipeline.arrRef spec1 1) : Spec.SX.Idx → EReal) = X m c from V2_x m c]
  exact congrArg (· * _) (V2_pxt m c p d)

end KernelValue

end Cert.KernelIdeal.HandValue

end
-- ==== Proof.LibSums.lean ====
import Idealize.ShloMosaic.Lib.ValueIdx

/-! # A sum taken tile by tile

A sum over `a · b` consecutive positions is the sum over `a` tiles of the sums over each tile's `b` positions; and a sum
whose terms vanish past position `n` is the sum of its first `n` terms. Stated for any commutative additive monoid. -/

namespace Cert.Sums

open scoped BigOperators

variable {M : Type} [AddCommMonoid M]

/-- Tile by tile: the sums over the tiles `k·b … k·b + b − 1`, `k < a`, add up to the sum over the first `a·b` positions. -/
theorem sum_tiles (a b : ℕ) (f : ℕ → M) :
    ∑ k ∈ Finset.range a, ∑ n : Fin b, f (k * b + n.val) = ∑ v ∈ Finset.range (a * b), f v := by
  induction a with
  | zero => simp
  | succ a ih =>
    rw [Finset.sum_range_succ, ih, Nat.succ_mul, Finset.sum_range_add]
    congr 1
    exact (Finset.sum_range (fun x => f (a * b + x))).symm

/-- Terms that vanish from position `n` on do not count. -/
theorem sum_range_of_tail_zero (n e : ℕ) (f : ℕ → M) (h : ∀ x, f (n + x) = 0) :
    ∑ v ∈ Finset.range (n + e), f v = ∑ v : Fin n, f v.val := by
  rw [Finset.sum_range_add, Finset.sum_range, Finset.sum_eq_zero (fun x _ => h x), add_zero]

end Cert.Sums
-- ==== Proof.LibNegDot.lean ====
/-
  A product with a NEGATED matrix, subtracted, against the product added — x − y · (−E) against x + y · E — entry
  by entry on the extended reals. The two agree when the row's and the column's entries are real numbers; with
  infinite entries a sum can hold both infinities, and negation does not pass through such a sum.
-/
import Idealize.ShloMosaic.PureOps.Ideal

noncomputable section

namespace Cert.LibNegDot

open scoped BigOperators

/-- A finite sum of reals, read in the extended reals, is the sum of the terms read there. -/
theorem coe_sum {ι : Type} (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- Subtracting the product of a row with the NEGATED column is adding the product with the column, when the
    row's and the column's entries are real: the terms are then real, and negation passes through a real sum. -/
theorem sub_dot_neg {ι : Type} [Fintype ι] (a : EReal) (y e : ι → EReal) (hy : ∀ k, ∃ r : ℝ, y k = r)
    (he : ∀ k, ∃ r : ℝ, e k = r) : a - ∑ k, y k * -(e k) = a + ∑ k, y k * e k := by
  choose yr hyr using hy
  choose er her using he
  have h1 : ∑ k, y k * -(e k) = ((-(∑ k, yr k * er k) : ℝ) : EReal) := by
    rw [← Finset.sum_neg_distrib, coe_sum]
    refine Finset.sum_congr rfl fun k _ => ?_
    rw [hyr k, her k, ← EReal.coe_neg, ← EReal.coe_mul, mul_neg]
  have h2 : ∑ k, y k * e k = ((∑ k, yr k * er k : ℝ) : EReal) := by
    rw [coe_sum]
    refine Finset.sum_congr rfl fun k _ => ?_
    rw [hyr k, her k, EReal.coe_mul]
  rw [h1, h2, sub_eq_add_neg, ← EReal.coe_neg, neg_neg]

end Cert.LibNegDot
-- ==== Proof.Algebra.lean ====
import proofs.«169214_j4466765988635_2_alg».proof.Proof.Spec
import proofs.«169214_j4466765988635_2_alg».proof.Proof.LibSums
import proofs.«169214_j4466765988635_2_alg».proof.Proof.LibNegDot
import Idealize.ShloMosaic.PureOps.Ideal.Laws

/-!
# The algebra: the streamed arrangement equals the centred one

With every entry of `Ψ` and `x` a real number, the kernel's small matrix
`Σ_j Ψ(p, j)·x(d, j) − μ_p · Σ_j x(d, j)`, whose three sums are each taken as eight tile sums added on two cores,
is the reference's `Σ_j (Ψ(p, j) − μ_p)·x(d, j)`, where `μ_p = (Σ_j Ψ(p, j)) / 32768`. Everything is first read as a
coercion of a real expression; the identity is then one of real finite sums.
-/

noncomputable section

namespace Cert.Hand.Algebra

open Cert.Hand
open Idealize.ShloMosaic Idealize.ShloMosaic.ValueIdx
open scoped BigOperators

/-! ## The two constants -/

/-- The f32 word of 32768.0 denotes the real 32768. -/
theorem cols_eq : Spec.cols = ((32768 : ℝ) : EReal) := by
  simp [Spec.cols, Ideal.ofBits, Ideal.ieee, -EReal.coe_mul]; norm_num

/-- The f32 word of 0.0 denotes 0. -/
theorem zero_eq : Spec.zero = 0 := Ideal.ofBits_zero_f32

/-! ## A sum over the 32768 columns, tile by tile -/

/-- One tile's share of a real sum over the columns. -/
def T (f : Fin 32768 → ℝ) (b : Fin 8) : ℝ := ∑ k : Fin 4096, f (Spec.col b k)

/-- The first core's running sum over tiles 0–3, over the reals. -/
def c0 (t : Fin 8 → ℝ) : ℝ := (((0 + t 0) + t 1) + t 2) + t 3
/-- The second core's running sum over tiles 4–7, over the reals. -/
def c1 (t : Fin 8 → ℝ) : ℝ := (((0 + t 4) + t 5) + t 6) + t 7

/-- A sum over the 32768 columns is the sum of its eight tile sums, in the order the two cores add them. -/
theorem sum_eight_tiles (f : Fin 32768 → ℝ) :
    ∑ j, f j = ((((0 + T f 0) + T f 1) + T f 2) + T f 3) + ((((0 + T f 4) + T f 5) + T f 6) + T f 7) := by
  -- `f` continued by zero past the last column
  let g : ℕ → ℝ := fun v => if h : v < 32768 then f ⟨v, h⟩ else 0
  have hg : ∀ j : Fin 32768, g j.val = f j := fun j => dif_pos j.isLt
  have h1 : ∑ j, f j = ∑ v ∈ Finset.range (8 * 4096), g v := by
    have e : (8 * 4096 : ℕ) = 32768 := by norm_num
    rw [e, Finset.sum_range]
    exact Finset.sum_congr rfl fun j _ => (hg j).symm
  have h2 : ∀ (b : ℕ) (hb : b < 8), T f ⟨b, hb⟩ = ∑ n : Fin 4096, g (b * 4096 + n.val) := by
    intro b hb
    refine Finset.sum_congr rfl fun n _ => ?_
    exact (hg (Spec.col ⟨b, hb⟩ n)).symm
  have e0 : T f 0 = ∑ n : Fin 4096, g (0 * 4096 + n.val) := h2 0 (by norm_num)
  have e1 : T f 1 = ∑ n : Fin 4096, g (1 * 4096 + n.val) := h2 1 (by norm_num)
  have e2 : T f 2 = ∑ n : Fin 4096, g (2 * 4096 + n.val) := h2 2 (by norm_num)
  have e3 : T f 3 = ∑ n : Fin 4096, g (3 * 4096 + n.val) := h2 3 (by norm_num)
  have e4 : T f 4 = ∑ n : Fin 4096, g (4 * 4096 + n.val) := h2 4 (by norm_num)
  have e5 : T f 5 = ∑ n : Fin 4096, g (5 * 4096 + n.val) := h2 5 (by norm_num)
  have e6 : T f 6 = ∑ n : Fin 4096, g (6 * 4096 + n.val) := h2 6 (by norm_num)
  have e7 : T f 7 = ∑ n : Fin 4096, g (7 * 4096 + n.val) := h2 7 (by norm_num)
  rw [h1, ← Cert.Sums.sum_tiles 8 4096 g, e0, e1, e2, e3, e4, e5, e6, e7]
  simp only [Finset.sum_range_succ, Finset.sum_range_zero]
  ring

/-- The same, with the two cores' sums named. -/
theorem sum_eq_cores (f : Fin 32768 → ℝ) : ∑ j, f j = c0 (T f) + c1 (T f) := sum_eight_tiles f

/-! ## Reading the kernel's and the reference's pieces as reals -/

/-- The first core's running sum of real terms is the real running sum. -/
theorem core0_coe (t : Fin 8 → ℝ) : Spec.core0 (fun b => ((t b : ℝ) : EReal)) = ((c0 t : ℝ) : EReal) := by
  simp only [Spec.core0, c0, zero_eq, EReal.coe_add, EReal.coe_zero]

/-- The second core's running sum of real terms is the real running sum. -/
theorem core1_coe (t : Fin 8 → ℝ) : Spec.core1 (fun b => ((t b : ℝ) : EReal)) = ((c1 t : ℝ) : EReal) := by
  simp only [Spec.core1, c1, zero_eq, EReal.coe_add, EReal.coe_zero]

variable (ψ : Spec.SP.Idx → ℝ) (ξ : Spec.SX.Idx → ℝ)

/-- A tile's share of the raw products, over the reals. -/
theorem tileDot_coe (p : Fin 128) (d : Fin 512) :
    Spec.tileDot (fun i => ((ψ i : ℝ) : EReal)) (fun i => ((ξ i : ℝ) : EReal)) p d
      = fun b => ((T (fun j => ψ (ix2 p j) * ξ (ix2 d j)) b : ℝ) : EReal) := by
  funext b
  simp only [Spec.tileDot, T]
  rw [Cert.LibNegDot.coe_sum]
  exact Finset.sum_congr rfl fun k _ => (EReal.coe_mul _ _).symm

/-- A tile's share of the row sum of `Ψ`, over the reals. -/
theorem tilePsi_coe (p : Fin 128) :
    Spec.tilePsi (fun i => ((ψ i : ℝ) : EReal)) p = fun b => ((T (fun j => ψ (ix2 p j)) b : ℝ) : EReal) := by
  funext b
  simp only [Spec.tilePsi, T]
  rw [Cert.LibNegDot.coe_sum]

/-- A tile's share of the row sum of `x`, over the reals. -/
theorem tileX_coe (d : Fin 512) :
    Spec.tileX (fun i => ((ξ i : ℝ) : EReal)) d = fun b => ((T (fun j => ξ (ix2 d j)) b : ℝ) : EReal) := by
  funext b
  simp only [Spec.tileX, T]
  rw [Cert.LibNegDot.coe_sum]

/-- The kernel's small matrix at (p, d), over the reals: the three column sums, and the mean taken as a product
    with 1/32768. -/
theorem pxt_coe (p : Fin 128) (d : Fin 512) :
    Spec.pxt (fun i => ((ψ i : ℝ) : EReal)) (fun i => ((ξ i : ℝ) : EReal)) p d
      = (((∑ j, ψ (ix2 p j) * ξ (ix2 d j)) - (∑ j, ψ (ix2 p j)) * (1 / 32768) * (∑ j, ξ (ix2 d j)) : ℝ) : EReal) := by
  rw [sum_eq_cores (fun j => ψ (ix2 p j) * ξ (ix2 d j)), sum_eq_cores (fun j => ψ (ix2 p j)),
    sum_eq_cores (fun j => ξ (ix2 d j))]
  rw [Spec.pxt, tileDot_coe, tilePsi_coe, tileX_coe, core0_coe, core1_coe, core0_coe, core1_coe, core0_coe, core1_coe,
    cols_eq, Ideal.div_coe (by norm_num : (32768 : ℝ) ≠ 0)]
  simp only [EReal.coe_sub, EReal.coe_mul, EReal.coe_add]

/-- The reference's centred entry at (p, j), over the reals. -/
theorem centred_coe (p : Fin 128) (j : Fin 32768) :
    Spec.centred (fun i => ((ψ i : ℝ) : EReal)) p j
      = ((ψ (ix2 p j) - (∑ j', ψ (ix2 p j')) * (1 / 32768) : ℝ) : EReal) := by
  simp only [Spec.centred]
  rw [zero_eq, zero_add, cols_eq, Ideal.div_coe (by norm_num : (32768 : ℝ) ≠ 0), ← Cert.LibNegDot.coe_sum,
    ← EReal.coe_mul, ← EReal.coe_sub]

/-! ## The identity -/

/-- Subtracting a constant from every term of one factor: `Σ_j (a_j − μ)·b_j = Σ_j a_j·b_j − μ · Σ_j b_j`. -/
theorem sum_sub_const_mul {ι : Type} [Fintype ι] (a b : ι → ℝ) (μ : ℝ) :
    ∑ j, (a j - μ) * b j = (∑ j, a j * b j) - μ * ∑ j, b j := by
  rw [Finset.mul_sum, ← Finset.sum_sub_distrib]
  exact Finset.sum_congr rfl fun j _ => sub_mul _ _ _

/-- At each (p, d) the kernel's small matrix is the reference's centred product. -/
theorem pxt_eq (p : Fin 128) (d : Fin 512) :
    Spec.pxt (fun i => ((ψ i : ℝ) : EReal)) (fun i => ((ξ i : ℝ) : EReal)) p d
      = ∑ j : Fin 32768, Spec.centred (fun i => ((ψ i : ℝ) : EReal)) p j * ((ξ (ix2 d j) : ℝ) : EReal) := by
  have hR : ∑ j : Fin 32768, Spec.centred (fun i => ((ψ i : ℝ) : EReal)) p j * ((ξ (ix2 d j) : ℝ) : EReal)
      = ((∑ j : Fin 32768, (ψ (ix2 p j) - (∑ j', ψ (ix2 p j')) * (1 / 32768)) * ξ (ix2 d j) : ℝ) : EReal) := by
    rw [Cert.LibNegDot.coe_sum]
    refine Finset.sum_congr rfl fun j _ => ?_
    rw [centred_coe, EReal.coe_mul]
  rw [pxt_coe, hR, sum_sub_const_mul]

end Cert.Hand.Algebra

namespace Cert.Hand.Algebra

open Cert.Hand
open Idealize.ShloMosaic Idealize.ShloMosaic.ValueIdx
open scoped BigOperators

/-- With every entry of `Ψ` and of `x` real, the kernel's result is the reference's, entry by entry. -/
theorem kOut_eq_rOut (Psi : Spec.SP.Idx → EReal) (x : Spec.SX.Idx → EReal)
    (hPsi : ∀ i, ∃ r : ℝ, Psi i = (r : EReal)) (hx : ∀ i, ∃ r : ℝ, x i = (r : EReal))
    (p : Fin 128) (n : Fin 32768) : Spec.kOutAt Psi x p n = Spec.rOutAt Psi x p n := by
  choose ψ hψ using hPsi
  choose ξ hξ using hx
  obtain rfl : Psi = fun i => ((ψ i : ℝ) : EReal) := funext hψ
  obtain rfl : x = fun i => ((ξ i : ℝ) : EReal) := funext hξ
  simp only [Spec.kOutAt, Spec.rOutAt]
  refine Finset.sum_congr rfl fun d _ => ?_
  rw [pxt_eq]

end Cert.Hand.Algebra

end
-- ==== Proof.KernelG.lean ====
import proofs.«169214_j4466765988635_2_alg».proof.Proof.KernelValue
import proofs.«169214_j4466765988635_2_alg».proof.Proof.Algebra

set_option maxRecDepth 16384

noncomputable section

namespace Cert.KernelIdeal.HandValue

open Cert.KernelIdeal Cert.KernelIdeal.Gen Cert.KernelIdeal.Hand Cert.Hand
open Idealize.ShloMosaic Idealize.ShloMosaic.TcCoe Idealize.ShloMosaic.ValueIdx
open Idealize.SL Idealize.SL.Sem
open Idealize.ShloMosaic.Pipeline (Dat)
open scoped BigOperators
/-!
# The kernel program's result is the reference's arrangement

With every input entry real, the kernel's `Σ_d pxt(p, d)·x(d, n)` equals the reference's
`Σ_d (Σ_j Ψ_c(p, j)·x(d, j))·x(d, n)`: subtracting the row mean inside the sum over the columns is subtracting the
mean times the row sum of `x`, and a sum over all columns is the sum of its eight tiles' sums.
-/

section KernelG

variable (m : (ℓ : Loc nD τ sig) → Buf (Elt Ideal) ℓ) (c : Dev nD)

theorem W3_G (hx : ∀ i, ∃ r : ℝ, X m c i = (r : EReal)) (hPsi : ∀ i, ∃ r : ℝ, Psi m c i = (r : EReal)) :
    (W3 m c (Proc.devRef .tc main_v25) : Spec.SP.Idx → EReal) = Spec.G (Psi m c) (X m c) := by
  rw [W3_out]
  funext j
  obtain ⟨p, n, rfl⟩ : ∃ (p : Fin 128) (n : Fin 32768), j = ix2 p n := ⟨j 0, j 1, eq_ix2 j⟩
  exact Cert.Hand.Algebra.kOut_eq_rOut (Psi m c) (X m c) hPsi hx p n

end KernelG

end Cert.KernelIdeal.HandValue

end
-- ==== Proof.RefValue.lean ====
import proofs.«169214_j4466765988635_2_alg».proof.Defs
import proofs.«169214_j4466765988635_2_alg».proof.Proof.Gen.ReferenceIdeal.Read
import proofs.«169214_j4466765988635_2_alg».proof.Proof.Spec

/-!
# The reference's result is the centred projection

The reference subtracts from every row of `Ψ` that row's mean (the row sum, started from the zero word, divided by
the word of 32768), contracts the centred matrix with `x` over the 32768 columns and the product with `x` over the 512
features. Read index by index over the extended reals this is `Spec.rOutAt`, so the array the reference ends with is
`Spec.G Ψ x`.
-/

noncomputable section

namespace Cert.ReferenceIdeal.RefValue

open Cert.ReferenceIdeal Cert.ReferenceIdeal.Gen Idealize.ShloMosaic Idealize.ShloMosaic.TcCoe Idealize.SL.Sem
  Idealize.ShloMosaic.StableHlo Idealize.ShloMosaic.ValueIdx
open scoped BigOperators

/-- The centred matrix the reference forms, at (p, j): the entry less the row's sum (from the zero word) over the
    word of 32768. -/
theorem centred_apply (x1 : (⟨S128x32768, .f32⟩ : BufTy).Contents (Elt Ideal)) (p : Fin 128) (j : Fin 32768) :
    Read.val_main_v5 (F := Ideal) x1 (ix2 p j) = Cert.Hand.Spec.centred x1 p j := by
  have e4 : Read.idx_main_v4 (ix2 p j : S128x32768.Idx) = (ix2 p (0 : Fin 1) : S128x1.Idx) :=
    funext fun a => Fin.ext (by match a with | ⟨0, _⟩ => rfl | ⟨1, _⟩ => rfl)
  have e0 : ∀ k : Fin 32768, Read.idx_main_v0 (Read.idx_main_v1 (ix2 p (0 : Fin 1) : S128x1.Idx)) k
      = (ix2 p k : S128x32768.Idx) :=
    fun k => funext fun a => Fin.ext (by match a with | ⟨0, _⟩ => rfl | ⟨1, _⟩ => rfl)
  rw [Read.val_main_v5_apply, Read.val_main_v4_apply, e4, Read.val_main_v3_apply, Read.val_main_v1_apply,
    Read.val_main_v2_apply, Read.val_main_cst_0_apply, Read.val_main_v0_apply, Read.val_main_cst_apply]
  simp only [e0]
  rfl

/-- The small matrix `Ψ_c · xᵀ` the reference forms, at (p, d). -/
theorem gram_apply (x0 : (⟨S512x32768, .f32⟩ : BufTy).Contents (Elt Ideal))
    (x1 : (⟨S128x32768, .f32⟩ : BufTy).Contents (Elt Ideal)) (p : Fin 128) (d : Fin 512) :
    Read.val_main_v6 (F := Ideal) x0 x1 (ix2 p d)
      = ∑ j : Fin 32768, Cert.Hand.Spec.centred x1 p j * x0 (ix2 d j) := by
  rw [Read.val_main_v6_apply]
  refine Finset.sum_congr rfl fun j _ => ?_
  have el : Read.lidx_main_v6 (ix2 p d : S128x512.Idx) j = (ix2 p j : S128x32768.Idx) :=
    funext fun a => Fin.ext (by match a with | ⟨0, _⟩ => rfl | ⟨1, _⟩ => rfl)
  have er : Read.ridx_main_v6 (ix2 p d : S128x512.Idx) j = (ix2 d j : S512x32768.Idx) :=
    funext fun a => Fin.ext (by match a with | ⟨0, _⟩ => rfl | ⟨1, _⟩ => rfl)
  rw [el, er, centred_apply]

/-- The reference's result array is `Spec.G` of `Ψ` (the second argument) and `x` (the first). -/
theorem ref_eq_G (x0 : (⟨S512x32768, .f32⟩ : BufTy).Contents (Elt Ideal))
    (x1 : (⟨S128x32768, .f32⟩ : BufTy).Contents (Elt Ideal)) :
    Read.val_main_v7 (F := Ideal) x0 x1 = Cert.Hand.Spec.G x1 x0 := by
  funext i
  obtain ⟨p, n, rfl⟩ : ∃ (p : Fin 128) (n : Fin 32768), i = ix2 p n := ⟨i 0, i 1, eq_ix2 i⟩
  rw [Cert.Hand.Spec.G_apply, Read.val_main_v7_apply]
  unfold Cert.Hand.Spec.rOutAt
  refine Finset.sum_congr rfl fun d _ => ?_
  have el : Read.lidx_main_v7 (ix2 p n : S128x32768.Idx) d = (ix2 p d : S128x512.Idx) :=
    funext fun a => Fin.ext (by match a with | ⟨0, _⟩ => rfl | ⟨1, _⟩ => rfl)
  have er : Read.ridx_main_v7 (ix2 p n : S128x32768.Idx) d = (ix2 d n : S512x32768.Idx) :=
    funext fun a => Fin.ext (by match a with | ⟨0, _⟩ => rfl | ⟨1, _⟩ => rfl)
  rw [el, er, gram_apply]

/-- On every device, from any memory with zero counters, every weakly fair execution of the reference terminates with
    its result at `Spec.G` of the arguments' launch contents and the arguments unchanged. -/
theorem run_G (m : (ℓ : Loc nD τ sig) → Buf (Elt Ideal) ℓ) (ρ : Dev nD → PrngReg) :
    θ_run (Cert.ReferenceIdeal.defs (F := Ideal)) (onTc (τ := τ) (Cert.ReferenceIdeal.main (F := Ideal))) ⟨m, fun _ => 0, ρ⟩ fun r => ∀ c : Dev nD,
      r.2.mem ((c.tc : Thread nD τ).loc main_v7)
          = Cert.Hand.Spec.G (m ((c.tc : Thread nD τ).loc main_arg1)) (m ((c.tc : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run Cert.ReferenceIdeal.defs _ _).mono
    (fun _ h c => ⟨(h c).1.trans ((Read.val_main_v7_eq (F := Ideal) _ _).trans (ref_eq_G _ _)), (h c).2⟩)
    (Cert.ReferenceIdeal.Value.run (F := Ideal) m ρ)

/-- The reference runs and leaves its arguments unchanged. -/
theorem frame_ri [Cert.Pre_finite_inputs.Facts] : Cert.frame_ReferenceIdeal := fun m ρ _ =>
  (θ_run Cert.ReferenceIdeal.defs _ _).mono (fun _ h c => (h c).2) (Cert.ReferenceIdeal.Value.run (F := Ideal) m ρ)

end Cert.ReferenceIdeal.RefValue

end
-- ==== Proof.LibRealEntry.lean ====
/-
  The entry fact behind a "every input is finite" precondition, at the ideal values: the precondition compares each
  entry's absolute value with the float word of +infinity by "less than"; an extended real that passes is a real
  number. Independent of any program: use it on each entry after the precondition's conjunction and its
  all-reductions have been opened.
-/
import Idealize.ShloMosaic.PureOps.Ideal

noncomputable section

namespace Cert.LibRealEntry

open Idealize.ShloMosaic

/-- The f32 word 0x7F800000 denotes +infinity. -/
theorem inf_word : Ideal.ofBits .f32 0x7F800000#32 = (⊤ : EReal) := by
  simp [Ideal.ofBits, Ideal.ieee]

/-- An extended real whose absolute value `max x (-x)` compares below the word of +infinity is a real number:
    the absolute value of either infinity is +infinity. -/
theorem real_of_abs_lt_inf (x : EReal)
    (h : Ideal.cmp .olt (max x (-x)) (Ideal.ofBits .f32 0x7F800000#32) = 1#1) : ∃ r : ℝ, x = r := by
  rw [inf_word] at h
  have h' : max x (-x) < ⊤ := by
    by_contra hn
    simp [Ideal.cmp, hn] at h
  induction x using EReal.rec with
  | bot => simp at h'
  | coe r => exact ⟨r, rfl⟩
  | top => simp at h'

end Cert.LibRealEntry
-- ==== Proof.Finite.lean ====
import proofs.«169214_j4466765988635_2_alg».proof.Defs
import proofs.«169214_j4466765988635_2_alg».proof.Proof.Gen.Pre_finite_inputs
import Idealize.ShloMosaic.Lib.ReduceAll
import Idealize.ShloMosaic.Lib.ValueIdx
import proofs.«169214_j4466765988635_2_alg».proof.Proof.LibRealEntry

/-!
# Every input entry is a real number

The precondition says that, of both argument arrays, every entry's absolute value compares below the word of
+infinity: two all-reductions by `and`, joined by `and`. Opened, it says each entry of `x` and of `Ψ` is a real number
(neither infinity), which is what the algebra of the two arrangements needs.
-/

noncomputable section

namespace Cert.Hand.Finite

open Idealize.ShloMosaic Idealize.SL.Sem

/-- A rank-zero array has one index. -/
instance : Subsingleton Cert.Pre_finite_inputs.S_.Idx := ⟨fun _ _ => funext fun d => d.elim0⟩

/-- Under the precondition, every entry of both argument arrays is a real number. -/
theorem real_of_pre [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, ∃ r : ℝ, m ((c.tc : Thread Cert.KernelIdeal.nD Cert.KernelIdeal.τ).loc Cert.KernelIdeal.main_arg0) i = (r : EReal))
    ∧ (∀ i, ∃ r : ℝ, m ((c.tc : Thread Cert.KernelIdeal.nD Cert.KernelIdeal.τ).loc Cert.KernelIdeal.main_arg1) i = (r : EReal)) := by
  have h0 := congrFun (h c) ValueIdx.ix0
  dsimp only [Cert.Pre_finite_inputs.fn] at h0
  obtain ⟨ha, hb⟩ := IntOp.andi_eq_one.1 h0
  refine ⟨fun i => ?_, fun i => ?_⟩
  · exact Cert.LibRealEntry.real_of_abs_lt_inf _ (Host.reduce_andi_all _ _ _ _ _ ha i)
  · exact Cert.LibRealEntry.real_of_abs_lt_inf _ (Host.reduce_andi_all _ _ _ _ _ hb i)

end Cert.Hand.Finite

end
-- ==== Proof.lean ====
/-
  The centred projection `out = (Ψ_c · xᵀ) · x`, `Ψ_c` being `Ψ` with each row's mean subtracted, computed two ways.

  The reference centres `Ψ`, contracts with `x` over the 32768 columns, then with `x` over the 512 features. The
  kernel program never centres: its first kernel streams the columns in eight tiles of 4096, four per core, each
  core keeping from zero the raw products `Σ_k Ψ(p, k)·x(d, k)`, the row sums of `Ψ` and the row sums of `x`; host
  operations add the two cores' sums and form `pxt = raw − (Σ Ψ / 32768) ⊗ Σ x`; its second kernel multiplies `pxt`
  by each tile of `x`. On the extended reals the two agree when every input entry is a real number, which the
  precondition says: `Σ_j (Ψ(p, j) − μ)·x(d, j) = Σ_j Ψ(p, j)·x(d, j) − μ·Σ_j x(d, j)` needs finiteness, and a
  sum over all columns is the sum of the tiles' sums.

  The three frames: each program runs to its end, faults nowhere and leaves its arguments as launched. For the
  kernel program this is the run of its three segments — a kernel region whose invariant carries the three
  running sums between grid points, the host operations, a second kernel region — stated once for any float
  instance and read at the word level and at the extended reals. The algebraic claim reads the result array off
  the same run.
-/
import proofs.«169214_j4466765988635_2_alg».proof.Defs
import proofs.«169214_j4466765988635_2_alg».proof.Proof.Gen.Kernel
import proofs.«169214_j4466765988635_2_alg».proof.Proof.Gen.KernelIdeal
import proofs.«169214_j4466765988635_2_alg».proof.Proof.Gen.ReferenceIdeal
import proofs.«169214_j4466765988635_2_alg».proof.Proof.Gen.Pre_finite_inputs
import proofs.«169214_j4466765988635_2_alg».proof.Proof.Run
import proofs.«169214_j4466765988635_2_alg».proof.Proof.FrameOf
import proofs.«169214_j4466765988635_2_alg».proof.Proof.Bits.Run
import proofs.«169214_j4466765988635_2_alg».proof.Proof.Bits.FrameOf
import proofs.«169214_j4466765988635_2_alg».proof.Proof.KernelG
import proofs.«169214_j4466765988635_2_alg».proof.Proof.RefValue
import proofs.«169214_j4466765988635_2_alg».proof.Proof.Finite
import Idealize.ShloMosaic.Adequacy
import Idealize.ShloMosaic.Init

noncomputable section

namespace Cert.Proof

open Idealize.ShloMosaic Idealize.ShloMosaic.TcCoe Idealize.SL.Sem

section Claims

variable [hK : Cert.Kernel.Facts] [hKI : Cert.KernelIdeal.Facts] [hR : Cert.ReferenceIdeal.Facts] [hP : Cert.Pre_finite_inputs.Facts]

/-- The word-level kernel program runs and leaves its arguments as launched. -/
theorem frame_k : Cert.frame_Kernel := fun m ρ _ =>
  Cert.Kernel.Hand.frame_of_run m ρ (Cert.Kernel.Hand.run_all m ρ)

/-- The same program read at the extended reals. -/
theorem frame_ki : Cert.frame_KernelIdeal := fun m ρ _ =>
  Cert.KernelIdeal.Hand.frame_of_run m ρ (Cert.KernelIdeal.Hand.run_all m ρ)

/-- The reference runs and leaves its arguments as launched. -/
theorem frame_r : Cert.frame_ReferenceIdeal := Cert.ReferenceIdeal.RefValue.frame_ri

/-- Both idealized programs end with the reference's arrangement `Spec.G` of the argument arrays. -/
theorem algebraic : Cert.algebraic_KernelIdeal_ReferenceIdeal := by
  intro m ρ m' ρ' hpre hagree
  refine ⟨fun c => Cert.Hand.Spec.G (m ((c.tc : Thread _ _).loc Cert.KernelIdeal.main_arg1)) (m ((c.tc : Thread _ _).loc Cert.KernelIdeal.main_arg0)), ?_, ?_⟩
  · refine (θ_run Cert.KernelIdeal.defs _ _).mono (fun r h c => ⟨?_, ?_, ?_⟩) (Cert.KernelIdeal.Hand.run_all (F := Ideal) m ρ)
    · refine (h c _ (Cert.KernelIdeal.Hand.mem_uc Cert.KernelIdeal.main_v25 (by decide))).trans ?_
      exact Cert.KernelIdeal.HandValue.W3_G m c (Cert.Hand.Finite.real_of_pre m hpre c).1 (Cert.Hand.Finite.real_of_pre m hpre c).2
    · exact (h c _ (Cert.KernelIdeal.Hand.mem_uc Cert.KernelIdeal.main_arg0 (by decide))).trans (Cert.KernelIdeal.Hand.W3_main_arg0 m c)
    · exact (h c _ (Cert.KernelIdeal.Hand.mem_uc Cert.KernelIdeal.main_arg1 (by decide))).trans (Cert.KernelIdeal.Hand.W3_main_arg1 m c)
  · refine (θ_run Cert.ReferenceIdeal.defs _ _).mono (fun _ h c => ⟨(h c).1.trans ?_, (h c).2⟩) (Cert.ReferenceIdeal.RefValue.run_G m' ρ')
    rw [(hagree c).1, (hagree c).2]

end Claims

theorem claim : Cert.Claim :=
  ⟨Cert.Kernel.Gen.facts, Cert.KernelIdeal.Gen.facts, Cert.ReferenceIdeal.Gen.facts, Cert.Pre_finite_inputs.Gen.facts,
    frame_k, frame_ki, frame_r, trivial, algebraic⟩

end Cert.Proof

end
